-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x2048x1024 .f32) (main_arg1 : FVec F S1024x128 .f32) (main_arg2 : FVec F S1024x128 .f32) (main_arg3 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S8x2048x1024 : Shape := ⟨3, ![8, 2048, 1024]⟩
abbrev S1024x128 : Shape := ⟨2, ![1024, 128]⟩
abbrev S1024x384 : Shape := ⟨2, ![1024, 384]⟩
abbrev S8x2048x384 : Shape := ⟨3, ![8, 2048, 384]⟩
abbrev S1x1024x1024 : Shape := ⟨3, ![1, 1024, 1024]⟩
abbrev S1x1024x384 : Shape := ⟨3, ![1, 1024, 384]⟩
abbrev S1024x1024 : Shape := ⟨2, ![1024, 1024]⟩
abbrev S8x2048x128 : Shape := ⟨3, ![8, 2048, 128]⟩
abbrev S1x1024x128 : Shape := ⟨3, ![1, 1024, 128]⟩
abbrev S1024x1 : Shape := ⟨2, ![1024, 1]⟩
abbrev S1024 : Shape := ⟨1, ![1024]⟩

abbrev nBuf : Space → Nat
  | .hbm => 7
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x384, .f32⟩
  | .hbm, ⟨5, _⟩ => ⟨S8x2048x384, .bf16⟩
  | .hbm, ⟨6, _⟩ => ⟨S8x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x384, .f32⟩
  | .local _ .vmem, ⟨3, _⟩ => ⟨S1x1024x384, .bf16⟩
  | .local _ .vmem, ⟨4, _⟩ => ⟨S1x1024x384, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .f32⟩
  | .local _ .vmem, ⟨12, _⟩ => ⟨S1x1024x128, .f32⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 2], ![false, false, false]⟩

def k1_cond4 (i : grid1.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x128_S1024x128_S1024x128_S1024x384_d1 : Shape.Concatenates [S1024x128, S1024x128, S1024x128] S1024x384 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  shapeCasts_S1024x384_S1x1024x384 : S1024x384.ShapeCasts S1x1024x384
  packedbf16_S1x1024x384_S1x1024x384_0_0_0 : (Rect.unit (s := S1x1024x384) ![0, 0, 0] S1x1024x384.size inb_S1x1024x384_S1x1024x384_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  iota_S1024x1024_d0_w32 : S1024x1024.Iotas .tc 32 [0]
  iota_S1024x1024_d1_w32 : S1024x1024.Iotas .tc 32 [1]
  shapeCasts_S1024x128_S1x1024x128 : S1024x128.ShapeCasts S1x1024x128
  dot_S1024x1024_S1024x384_S1024x384_1_0_0_1_n_n_wf : DotDims.WF S1024x1024 S1024x384 S1024x384 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x384.size a ≤ S8x2048x384.size a
  hwx0_2 : ∀ i : grid0.Coords, EltTy.bits .bf16 = 32 ∨ (Rect.block (s := S8x2048x384) S1x1024x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x384.size a
  hwx1_0 : ∀ i : grid1.Coords, EltTy.bits .bf16 = 32 ∨ (Rect.block (s := S8x2048x384) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x2048x384.size a
  hwx1_1 : ∀ i : grid1.Coords, EltTy.bits .bf16 = 32 ∨ (Rect.block (s := S8x2048x384) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x2048x384.size a
  hwx1_2 : ∀ i : grid1.Coords, EltTy.bits .bf16 = 32 ∨ (Rect.block (s := S8x2048x384) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.EasyClaims.lean ====
/-
  Two of the five conjuncts that need no argument about the kernel.

  The reference is a host program with no kernel launch: its run, read back operation by operation, ends with every
  argument array as it was launched, which is its frame. The one rewrite the ideal pass made is the named constant:
  the kernel fills the causal mask's excluded entries with the finite word -1.0000000150474662e+30, used only as that
  fill, and the idealized kernel reads that word as minus infinity, the value the reference fills with.
-/
import proofs.«108889_j8942121910998_2_alg».proof.Defs
import proofs.«108889_j8942121910998_2_alg».proof.Proof.Gen.ReferenceIdeal
import proofs.«108889_j8942121910998_2_alg».proof.Proof.Gen.Pre_finite_inputs
import proofs.«108889_j8942121910998_2_alg».proof.Proof.Gen.ReferenceIdeal.Run

noncomputable section

namespace Cert.Proof.Easy

open Idealize.ShloMosaic Idealize.SL.Sem

/-- The reference runs to its end, faults nowhere and leaves its four argument arrays unchanged: its run with the
    statement about the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The mask fill: the table gives the name "neg_big" the value minus infinity, and the printed constant is that value
    at the ideal instance. -/
theorem preserves : Cert.preserves_Kernel_KernelIdeal :=
  IdealRules.named_const.statement Cert.KernelIdeal.κ "neg_big" .f32 0xF149F2CA#32 ⊥ rfl

end Cert.Proof.Easy

end
-- ==== Proof.Region0Bits.lean ====
/-
  The first kernel region: one point per (batch, row tile), sixteen in all. At a point the body loads the point's
  1024×1024 tile of x and the whole 1024×384 weight array [Wq | Wk | Wv], multiplies them into a zero accumulator and stores
  the 1024×384 product, rounded to bf16, over its whole output block. Nothing is kept between points.

  Stated at any entry contents V of the core's buffers: what each window's staging buffer holds after the body at a
  point — an input's its block, fetched there or not (the weights are fetched once, their block index never moves), the
  output's the one store's value at the two input blocks —, the body's triple, and the obligation the pipeline asks at
  every point.
-/
import proofs.«108889_j8942121910998_2_alg».proof.Proof.Gen.Kernel.Launch
import proofs.«108889_j8942121910998_2_alg».proof.Proof.Gen.Kernel.Skeleton
import proofs.«108889_j8942121910998_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1x1024x1024 := Rect.unit (s := S1x1024x1024) ![0, 0, 0] S1x1024x1024.size inb_S1x1024x1024_S1x1024x1024_0_0_0
abbrev rW : Rect S1024x384 := Rect.unit (s := S1024x384) ![0, 0] S1024x384.size inb_S1024x384_S1024x384_0_0
abbrev rO : Rect S1x1024x384 := Rect.unit (s := S1x1024x384) ![0, 0, 0] S1x1024x384.size inb_S1x1024x384_S1x1024x384_0_0_0

/-- What the body leaves in the output's staging buffer: its one store, of the product of the two loaded blocks. -/
def outBlock (x0 : Vec F S1x1024x1024 .f32) (x1 : Vec F S1024x384 .f32) : Vec F S1x1024x384 .bf16 :=
  View.canon [⟨rO, k0_pay1 (View.ld x0 rX) (View.ld x1 rW)⟩]

/-- The one store covers the whole block. -/
theorem outCover (p0 : Vec F S1x1024x384 .bf16) (y : S1x1024x384.Idx) :
    ∃ pc ∈ ([⟨rO, p0⟩] : List (View.Piece (Elt F) S1x1024x384 .bf16)), y ∈ pc.1.set :=
  View.cover_of_tiled [⟨rO, p0⟩] S1x1024x384.size (by rfl) y

set_option maxHeartbeats 1000000 in
/-- The body on whole staging memrefs — the two inputs at contents x0, x1, the output at anything — runs to its return
    holding the inputs as they were and the output at the product block. -/
theorem bodyTriple (c : Dev nD) (E : Set ℕ) (i : grid0.Coords)
    (arg2 : Memref sig .tc .vmem S1x1024x1024 .f32) (harg2 : arg2.IsWhole)
    (arg3 : Memref sig .tc .vmem S1024x384 .f32) (harg3 : arg3.IsWhole)
    (arg4 : Memref sig .tc .vmem S1x1024x384 .bf16) (harg4 : arg4.IsWhole)
    (x0 : Vec F S1x1024x1024 .f32) (x1 : Vec F S1024x384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc0_qkv_proj_kernel i arg2 harg2 arg3 harg3 arg4 harg4) K := by
  simp only [cc0_qkv_proj_kernel_eq_skeleton]; unfold cc0_qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- The region's proof data on core c: the arrays as the region finds them; after the body at a point each input's
    buffer at its block, the output's at the product of the two input blocks; the invariant the scoped buffers the
    region does not stage and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => outBlock (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_w (c : Dev nD) (t : Fin cfg0.N) : (dat V c).after 1 t = blockAt V c 1 t := by dsimp only [dat]
theorem after_o (c : Dev nD) (t : Fin cfg0.N) :
    (dat V c).after 2 t = outBlock (blockAt V c 0 t) (blockAt V c 1 t) := by dsimp only [dat]

/-- The x window's current staging buffer holds its block at every point. -/
theorem before_x (c : Dev nD) (t : Fin cfg0.N) (d) : (dat V c).before 0 t d = blockAt V c 0 t :=
  ((dat V c).before_in_eq_fetched 0 rfl (fun _ => rfl) (fun _ _ _ => rfl)
      (fun t => by rw [after_x]; unfold Dat.blockOf blockAt; rw [dat_A]; try rfl) t d).trans
    (by unfold Dat.fetched Dat.blockOf blockAt; rw [dat_A]; try rfl)

/-- The weight window's current staging buffer holds its block at every point: fetched once, and its block index
    never moves. -/
theorem before_w (c : Dev nD) (t : Fin cfg0.N) (d) : (dat V c).before 1 t d = blockAt V c 1 t :=
  ((dat V c).before_in_eq_fetched 1 rfl (fun _ => rfl) (fun _ _ _ => rfl)
      (fun t => by rw [after_w]; unfold Dat.blockOf blockAt; rw [dat_A]; try rfl) t d).trans
    (by unfold Dat.fetched Dat.blockOf blockAt; rw [dat_A]; try rfl)

/-! ## The obligation at a point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (bodyTriple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.Region1CommonBits.lean ====
/-
  The second kernel region, what its four control cases share. A point is (batch b, query tile qi, key tile ki),
  thirty-two in all, point number 4·b + 2·qi + ki. The body's four conditionals read only qi and ki:
  "first key tile" (ki = 0: reset the running maximum, denominator and numerator), "below the diagonal" (ki < qi: a full
  tile), "on the diagonal" (ki = qi: a masked tile), "last key tile" (ki = 1: divide and store the output block).
  So a point's case is its number modulo 4: 0 reset and masked tile, 1 output only, 2 reset and full tile, 3 masked tile
  and output. The output block is idle, and not written back, exactly where ki = 0.
-/
import proofs.«108889_j8942121910998_2_alg».proof.Proof.Gen.Kernel.Launch
import proofs.«108889_j8942121910998_2_alg».proof.Proof.Gen.Kernel.Skeleton
import proofs.«108889_j8942121910998_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The four conditions, decided over the grid -/

/-- First key tile. -/
abbrev condInit (i : grid1.Coords) : Prop :=
  (Scalar.cmpi .ne (Scalar.extui (Scalar.cmpi .eq (BitVec.ofNat 32 (i 2).val) 0#32)) 0#32) = 1#1
theorem hInit : ∀ t : Fin cfg1.N, condInit (grid1.coords t) ↔ t.val % 2 = 0 :=
  (by decide +kernel : ∀ t : Fin grid1.N, condInit (grid1.coords t) ↔ t.val % 2 = 0)

/-- Key tile strictly below the query tile. -/
abbrev condBelow (i : grid1.Coords) : Prop :=
  (Scalar.cmpi .ne (Scalar.extui (Scalar.cmpi .slt (BitVec.ofNat 32 (i 2).val) (BitVec.ofNat 32 (i 1).val))) 0#32) = 1#1
theorem hBelow : ∀ t : Fin cfg1.N, condBelow (grid1.coords t) ↔ t.val % 4 = 2 :=
  (by decide +kernel : ∀ t : Fin grid1.N, condBelow (grid1.coords t) ↔ t.val % 4 = 2)

/-- Key tile on the diagonal. -/
abbrev condDiag (i : grid1.Coords) : Prop :=
  (Scalar.cmpi .ne (Scalar.extui (Scalar.cmpi .eq (BitVec.ofNat 32 (i 2).val) (BitVec.ofNat 32 (i 1).val))) 0#32) = 1#1
theorem hDiag : ∀ t : Fin cfg1.N, condDiag (grid1.coords t) ↔ (t.val % 4 = 0 ∨ t.val % 4 = 3) :=
  (by decide +kernel : ∀ t : Fin grid1.N, condDiag (grid1.coords t) ↔ (t.val % 4 = 0 ∨ t.val % 4 = 3))

/-- Last key tile. -/
abbrev condLast (i : grid1.Coords) : Prop := k1_cond4 i = 1#1
theorem hLast : ∀ t : Fin cfg1.N, condLast (grid1.coords t) ↔ t.val % 2 = 1 :=
  (by decide +kernel : ∀ t : Fin grid1.N, condLast (grid1.coords t) ↔ t.val % 2 = 1)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Away from the last key tile the output block is idle and is not written back. -/
theorem idle_o : ∀ t : Fin cfg1.N, ¬condLast (grid1.coords t) → cfg1.idle 3 (grid1.coords t) = true := by decide +kernel
theorem noFlush_o : ∀ t : Fin cfg1.N, ¬condLast (grid1.coords t) → (cfg1.win 3).flush t = false := by decide +kernel
/-- At the last key tile it is live. -/
theorem live_o : ∀ t : Fin cfg1.N, condLast (grid1.coords t) → cfg1.idle 3 (grid1.coords t) = false := by decide +kernel

/-! ## The memrefs the body is called with -/

abbrev mq (t : Fin cfg1.N) : Memref sig .tc .vmem S1x1024x128 .bf16 := win1_0.stage (cfg1.slots t 0)
abbrev hq (t : Fin cfg1.N) : (mq t).IsWhole := hstage1_0 ((cfg1.slots t 0).cast nbuf1_0)
abbrev mk (t : Fin cfg1.N) : Memref sig .tc .vmem S1x1024x128 .bf16 := win1_1.stage (cfg1.slots t 1)
abbrev hk (t : Fin cfg1.N) : (mk t).IsWhole := hstage1_1 ((cfg1.slots t 1).cast nbuf1_1)
abbrev mv (t : Fin cfg1.N) : Memref sig .tc .vmem S1x1024x128 .bf16 := win1_2.stage (cfg1.slots t 2)
abbrev hv (t : Fin cfg1.N) : (mv t).IsWhole := hstage1_2 ((cfg1.slots t 2).cast nbuf1_2)
abbrev mo (t : Fin cfg1.N) : Memref sig .tc .vmem S1x1024x128 .f32 := win1_3.stage (cfg1.slots t 3)
abbrev ho (t : Fin cfg1.N) : (mo t).IsWhole := hstage1_3 ((cfg1.slots t 3).cast nbuf1_3)
/-- The three scratch buffers the kernel carries between points: running maximum, denominator, numerator. -/
abbrev scMax : Memref sig .tc .vmem S1024x1 .f32 := Memref.whole cc1_scratch0
abbrev scDen : Memref sig .tc .vmem S1024x1 .f32 := Memref.whole cc1_scratch1
abbrev scNum : Memref sig .tc .vmem S1024x128 .f32 := Memref.whole cc1_scratch2
abbrev vMax : View sig .tc .vmem S1024x1 .f32 := scMax.view
abbrev vDen : View sig .tc .vmem S1024x1 .f32 := scDen.view
abbrev vNum : View sig .tc .vmem S1024x128 .f32 := scNum.view
/-- One staging buffer of the output window, through which its contents are stated. -/
abbrev vOut : View sig .tc .vmem S1x1024x128 .f32 := (Memref.whole cc1_stg3_0 : Memref sig .tc .vmem S1x1024x128 .f32).view

end Cert.Kernel.Attn

end
-- ==== Proof.Region1RunABits.lean ====
/-
  The second kernel region at a point on the first key tile and on the diagonal (query tile 0, key tile 0): the body resets
  the running maximum to minus infinity and the denominator and numerator to zero, then folds the masked diagonal tile into
  them. It stores nothing into the output block. What each scratch buffer ends with is found by running the body.
-/
import proofs.«108889_j8942121910998_2_alg».proof.Proof.Region1CommonBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Reset, then the masked diagonal tile: on whole memrefs — the three inputs at their contents, the output at contents handed back untouched, the scratch buffers at anything — the body runs to its return with each scratch buffer at its stores written. -/
noncomputable def runA (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : condInit i) (hc2 : ¬condBelow i) (hc3 : condDiag i) (hc4 : ¬condLast i)
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, ?_, ?_, fun xi3 E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Attn

end
-- ==== Proof.Region1RunBBits.lean ====
/-
  The second kernel region at a point past the diagonal (query tile 0, key tile 1): no key of this tile is visible to any
  query of the tile, so the body folds nothing in; it divides the numerator by the denominator and stores the output block.
  The scratch buffers are read and left as they were.
-/
import proofs.«108889_j8942121910998_2_alg».proof.Proof.Region1CommonBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Output only: on whole memrefs — the inputs and the three scratch buffers at their contents, the output at anything — the body runs to its return with the scratch buffers as they were and the output at its store written. -/
noncomputable def runB (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : ¬condInit i) (hc2 : ¬condBelow i) (hc3 : ¬condDiag i) (hc4 : condLast i)
    (x0 x1 x2 : Vec F S1x1024x128 .bf16) (xs0 : Vec F S1024x1 .f32) (xs1 : Vec F S1024x1 .f32) (xs2 : Vec F S1024x128 .f32) :
    { L3 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, fun E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Attn

end
-- ==== Proof.Region1RunCBits.lean ====
/-
  The second kernel region at a point on the first key tile and below the diagonal (query tile 1, key tile 0): the body
  resets the running maximum, denominator and numerator, then folds the full, unmasked tile into them. It stores nothing
  into the output block.
-/
import proofs.«108889_j8942121910998_2_alg».proof.Proof.Region1CommonBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Reset, then the full tile below the diagonal: on whole memrefs — the three inputs at their contents, the output at contents handed back untouched, the scratch buffers at anything — the body runs to its return with each scratch buffer at its stores written. -/
noncomputable def runC (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : condInit i) (hc2 : condBelow i) (hc3 : ¬condDiag i) (hc4 : ¬condLast i)
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, ?_, ?_, fun xi3 E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Attn

end
-- ==== Proof.Region1RunDBits.lean ====
/-
  The second kernel region at a point on the diagonal and on the last key tile (query tile 1, key tile 1): the body folds
  the masked diagonal tile into the running maximum, denominator and numerator the point before left, then divides the
  numerator by the denominator and stores the output block.
-/
import proofs.«108889_j8942121910998_2_alg».proof.Proof.Region1CommonBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The masked diagonal tile, then the output: on whole memrefs — the inputs and the three scratch buffers at their contents, the output at anything — the body runs to its return with each scratch buffer and the output at its stores written. -/
noncomputable def runD (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : ¬condInit i) (hc2 : ¬condBelow i) (hc3 : condDiag i) (hc4 : condLast i)
    (x0 x1 x2 : Vec F S1x1024x128 .bf16) (xs0 : Vec F S1024x1 .f32) (xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, ?_, ?_, ?_, fun E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.Kernel.Attn

end
-- ==== Proof.Region1DataBits.lean ====
/-
  The second kernel region: what it holds point by point, and the obligation the pipeline asks at every point.

  A state is (output block, running maximum, running denominator, running numerator). After a point it is what the point's
  case leaves: on the first key tile the three scratch buffers are rewritten whatever they held; on the last key tile the
  output block is stored from the numerator and the denominator; a case that folds a tile in reads what the point before
  left. The invariant between two points holds the three scratch buffers at the state's components (before the first point:
  at anything), beside the other kernel's staging buffers and the generator register, untouched.
  The three input windows read one array; its full share is dealt left / right-left / right-right among them.
-/
import proofs.«108889_j8942121910998_2_alg».proof.Proof.Region1RunABits
import proofs.«108889_j8942121910998_2_alg».proof.Proof.Region1RunBBits
import proofs.«108889_j8942121910998_2_alg».proof.Proof.Region1RunCBits
import proofs.«108889_j8942121910998_2_alg».proof.Proof.Region1RunDBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Output block, running maximum, denominator, numerator. -/
abbrev St (F : FTy → Type) : Type :=
  Vec F S1x1024x128 .f32 × Vec F S1024x1 .f32 × Vec F S1024x1 .f32 × Vec F S1024x128 .f32

/-! ## A point's case from its number modulo 4 -/

theorem caseA (t : Fin cfg1.N) (h : t.val % 4 = 0) :
    condInit (grid1.coords t) ∧ ¬condBelow (grid1.coords t) ∧ condDiag (grid1.coords t) ∧ ¬condLast (grid1.coords t) :=
  ⟨(hInit t).mpr (by omega), fun hh => absurd ((hBelow t).mp hh) (by omega), (hDiag t).mpr (Or.inl h),
    fun hh => absurd ((hLast t).mp hh) (by omega)⟩
theorem caseB (t : Fin cfg1.N) (h : t.val % 4 = 1) :
    ¬condInit (grid1.coords t) ∧ ¬condBelow (grid1.coords t) ∧ ¬condDiag (grid1.coords t) ∧ condLast (grid1.coords t) :=
  ⟨fun hh => absurd ((hInit t).mp hh) (by omega), fun hh => absurd ((hBelow t).mp hh) (by omega),
    fun hh => absurd ((hDiag t).mp hh) (by omega), (hLast t).mpr (by omega)⟩
theorem caseC (t : Fin cfg1.N) (h : t.val % 4 = 2) :
    condInit (grid1.coords t) ∧ condBelow (grid1.coords t) ∧ ¬condDiag (grid1.coords t) ∧ ¬condLast (grid1.coords t) :=
  ⟨(hInit t).mpr (by omega), (hBelow t).mpr h, fun hh => absurd ((hDiag t).mp hh) (by omega),
    fun hh => absurd ((hLast t).mp hh) (by omega)⟩
theorem caseD (t : Fin cfg1.N) (h : t.val % 4 = 3) :
    ¬condInit (grid1.coords t) ∧ ¬condBelow (grid1.coords t) ∧ condDiag (grid1.coords t) ∧ condLast (grid1.coords t) :=
  ⟨fun hh => absurd ((hInit t).mp hh) (by omega), fun hh => absurd ((hBelow t).mp hh) (by omega),
    (hDiag t).mpr (Or.inr h), (hLast t).mpr (by omega)⟩

/-! ## The stores of each case cover the buffers they rewrite -/

theorem covA_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : ¬condBelow i) (hc3 : condDiag i) (hc4 : ¬condLast i)
    (x0 x1 x2 : Vec F S1x1024x128 .bf16) (y : S1024x1.Idx) :
    ∃ pc ∈ (runA c i arg3 harg3 arg4 harg4 arg5 harg5 arg6 harg6 arg7 harg7 arg8 harg8 arg9 harg9 hc1 hc2 hc3 hc4 x0 x1 x2).1, y ∈ pc.1.set :=
  View.cover_of_tiledL _ S1024x1.size (by sl_kernel_rfl) y
theorem covA_den (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : ¬condBelow i) (hc3 : condDiag i) (hc4 : ¬condLast i)
    (x0 x1 x2 : Vec F S1x1024x128 .bf16) (y : S1024x1.Idx) :
    ∃ pc ∈ (runA c i arg3 harg3 arg4 harg4 arg5 harg5 arg6 harg6 arg7 harg7 arg8 harg8 arg9 harg9 hc1 hc2 hc3 hc4 x0 x1 x2).2.1, y ∈ pc.1.set :=
  View.cover_of_tiledL _ S1024x1.size (by sl_kernel_rfl) y
theorem covA_num (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : ¬condBelow i) (hc3 : condDiag i) (hc4 : ¬condLast i)
    (x0 x1 x2 : Vec F S1x1024x128 .bf16) (y : S1024x128.Idx) :
    ∃ pc ∈ (runA c i arg3 harg3 arg4 harg4 arg5 harg5 arg6 harg6 arg7 harg7 arg8 harg8 arg9 harg9 hc1 hc2 hc3 hc4 x0 x1 x2).2.2.1, y ∈ pc.1.set :=
  View.cover_of_tiledL _ S1024x128.size (by sl_kernel_rfl) y

theorem covC_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : condBelow i) (hc3 : ¬condDiag i) (hc4 : ¬condLast i)
    (x0 x1 x2 : Vec F S1x1024x128 .bf16) (y : S1024x1.Idx) :
    ∃ pc ∈ (runC c i arg3 harg3 arg4 harg4 arg5 harg5 arg6 harg6 arg7 harg7 arg8 harg8 arg9 harg9 hc1 hc2 hc3 hc4 x0 x1 x2).1, y ∈ pc.1.set :=
  View.cover_of_tiledL _ S1024x1.size (by sl_kernel_rfl) y
theorem covC_den (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : condBelow i) (hc3 : ¬condDiag i) (hc4 : ¬condLast i)
    (x0 x1 x2 : Vec F S1x1024x128 .bf16) (y : S1024x1.Idx) :
    ∃ pc ∈ (runC c i arg3 harg3 arg4 harg4 arg5 harg5 arg6 harg6 arg7 harg7 arg8 harg8 arg9 harg9 hc1 hc2 hc3 hc4 x0 x1 x2).2.1, y ∈ pc.1.set :=
  View.cover_of_tiledL _ S1024x1.size (by sl_kernel_rfl) y
theorem covC_num (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : condBelow i) (hc3 : ¬condDiag i) (hc4 : ¬condLast i)
    (x0 x1 x2 : Vec F S1x1024x128 .bf16) (y : S1024x128.Idx) :
    ∃ pc ∈ (runC c i arg3 harg3 arg4 harg4 arg5 harg5 arg6 harg6 arg7 harg7 arg8 harg8 arg9 harg9 hc1 hc2 hc3 hc4 x0 x1 x2).2.2.1, y ∈ pc.1.set :=
  View.cover_of_tiledL _ S1024x128.size (by sl_kernel_rfl) y

theorem covB_out (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : ¬condDiag i) (hc4 : condLast i)
    (x0 x1 x2 : Vec F S1x1024x128 .bf16) (xs0 xs1 : Vec F S1024x1 .f32) (xs2 : Vec F S1024x128 .f32) (y : S1x1024x128.Idx) :
    ∃ pc ∈ (runB c i arg3 harg3 arg4 harg4 arg5 harg5 arg6 harg6 arg7 harg7 arg8 harg8 arg9 harg9 hc1 hc2 hc3 hc4 x0 x1 x2 xs0 xs1 xs2).1, y ∈ pc.1.set :=
  View.cover_of_tiledL _ S1x1024x128.size (by sl_kernel_rfl) y

theorem covD_out (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1x1024x128.Idx) :
    ∃ pc ∈ (runD c i arg3 harg3 arg4 harg4 arg5 harg5 arg6 harg6 arg7 harg7 arg8 harg8 arg9 harg9 hc1 hc2 hc3 hc4 x0 x1 x2 xs0 xs1 xs2).1, y ∈ pc.1.set :=
  View.cover_of_tiledL _ S1x1024x128.size (by sl_kernel_rfl) y
theorem covD_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1024x1.Idx) :
    ∃ pc ∈ (runD c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL _ S1024x1.size (by sl_kernel_rfl) y
theorem covD_den (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1024x1.Idx) :
    ∃ pc ∈ (runD c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL _ S1024x1.size (by sl_kernel_rfl) y
theorem covD_num (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1024x128.Idx) :
    ∃ pc ∈ (runD c i arg3 harg3 arg4 harg4 arg5 harg5 arg6 harg6 arg7 harg7 arg8 harg8 arg9 harg9 hc1 hc2 hc3 hc4 x0 x1 x2 xs0 xs1 xs2).2.2.2.1, y ∈ pc.1.set :=
  View.cover_of_tiledL _ S1024x128.size (by sl_kernel_rfl) y

/-! ## The state after a point -/

/-- The body's run at a point of each case, on the memrefs the pipeline passes and the point's input blocks. -/
def rA (c : Dev nD) (t : Fin cfg1.N) (h : t.val % 4 = 0) :=
  runA (F := F) c (grid1.coords t) (mq t) (hq t) (mk t) (hk t) (mv t) (hv t) (mo t) (ho t) scMax (Memref.isWhole_whole _) scDen (Memref.isWhole_whole _) scNum (Memref.isWhole_whole _) (caseA t h).1 (caseA t h).2.1 (caseA t h).2.2.1 (caseA t h).2.2.2 (blockAt V c 0 t) (blockAt V c 1 t) (blockAt V c 2 t)
def rB (c : Dev nD) (t : Fin cfg1.N) (h : t.val % 4 = 1) (p : St F) :=
  runB (F := F) c (grid1.coords t) (mq t) (hq t) (mk t) (hk t) (mv t) (hv t) (mo t) (ho t) scMax (Memref.isWhole_whole _) scDen (Memref.isWhole_whole _) scNum (Memref.isWhole_whole _) (caseB t h).1 (caseB t h).2.1 (caseB t h).2.2.1 (caseB t h).2.2.2 (blockAt V c 0 t) (blockAt V c 1 t) (blockAt V c 2 t) p.2.1 p.2.2.1 p.2.2.2
def rC (c : Dev nD) (t : Fin cfg1.N) (h : t.val % 4 = 2) :=
  runC (F := F) c (grid1.coords t) (mq t) (hq t) (mk t) (hk t) (mv t) (hv t) (mo t) (ho t) scMax (Memref.isWhole_whole _) scDen (Memref.isWhole_whole _) scNum (Memref.isWhole_whole _) (caseC t h).1 (caseC t h).2.1 (caseC t h).2.2.1 (caseC t h).2.2.2 (blockAt V c 0 t) (blockAt V c 1 t) (blockAt V c 2 t)
def rD (c : Dev nD) (t : Fin cfg1.N) (h : t.val % 4 = 3) (p : St F) :=
  runD (F := F) c (grid1.coords t) (mq t) (hq t) (mk t) (hk t) (mv t) (hv t) (mo t) (ho t) scMax (Memref.isWhole_whole _) scDen (Memref.isWhole_whole _) scNum (Memref.isWhole_whole _) (caseD t h).1 (caseD t h).2.1 (caseD t h).2.2.1 (caseD t h).2.2.2 (blockAt V c 0 t) (blockAt V c 1 t) (blockAt V c 2 t) p.2.1 p.2.2.1 p.2.2.2

/-- After a reset and the masked diagonal tile: the output block is idle (a placeholder nothing consults), the three
    scratch buffers hold their stores. -/
def stA (c : Dev nD) (t : Fin cfg1.N) (h : t.val % 4 = 0) : St F :=
  (vOut.read (Elt F) vOut.junk, vMax.read (Elt F) (vMax.writes (Elt F) vMax.junk (rA V c t h).1), vDen.read (Elt F) (vDen.writes (Elt F) vDen.junk (rA V c t h).2.1), vNum.read (Elt F) (vNum.writes (Elt F) vNum.junk (rA V c t h).2.2.1))
/-- After an output-only point: the output block holds its store, the scratch buffers are what the point before left. -/
def stB (c : Dev nD) (t : Fin cfg1.N) (h : t.val % 4 = 1) (p : St F) : St F :=
  (vOut.read (Elt F) (vOut.writes (Elt F) vOut.junk (rB V c t h p).1), p.2.1, p.2.2.1, p.2.2.2)
/-- After a reset and the full tile below the diagonal. -/
def stC (c : Dev nD) (t : Fin cfg1.N) (h : t.val % 4 = 2) : St F :=
  (vOut.read (Elt F) vOut.junk, vMax.read (Elt F) (vMax.writes (Elt F) vMax.junk (rC V c t h).1), vDen.read (Elt F) (vDen.writes (Elt F) vDen.junk (rC V c t h).2.1), vNum.read (Elt F) (vNum.writes (Elt F) vNum.junk (rC V c t h).2.2.1))
/-- After the masked diagonal tile and the output. -/
def stD (c : Dev nD) (t : Fin cfg1.N) (h : t.val % 4 = 3) (p : St F) : St F :=
  (vOut.read (Elt F) (vOut.writes (Elt F) vOut.junk (rD V c t h p).1), vMax.read (Elt F) (vMax.writes (Elt F) vMax.junk (rD V c t h p).2.1), vDen.read (Elt F) (vDen.writes (Elt F) vDen.junk (rD V c t h p).2.2.1), vNum.read (Elt F) (vNum.writes (Elt F) vNum.junk (rD V c t h p).2.2.2.1))

/-- The state after the body at position n: the case of n modulo 4, over what position n - 1 left where the case
    reads it. -/
def outsAt (c : Dev nD) : (n : ℕ) → n < cfg1.N → St F
  | 0, hn => stA V c ⟨0, hn⟩ (Nat.zero_mod 4)
  | n + 1, hn =>
    if h0 : (n + 1) % 4 = 0 then stA V c ⟨n + 1, hn⟩ h0
    else if h1 : (n + 1) % 4 = 1 then stB V c ⟨n + 1, hn⟩ h1 (outsAt c n (Nat.lt_of_succ_lt hn))
    else if h2 : (n + 1) % 4 = 2 then stC V c ⟨n + 1, hn⟩ h2
    else stD V c ⟨n + 1, hn⟩ (show (n + 1) % 4 = 3 by omega) (outsAt c n (Nat.lt_of_succ_lt hn))

theorem outsAt_A (c : Dev nD) (t : Fin cfg1.N) (h : t.val % 4 = 0) : outsAt V c t.val t.isLt = stA V c t h := by
  obtain ⟨n, hn⟩ := t
  cases n with
  | zero => rfl
  | succ n => exact dif_pos h
theorem outsAt_B (c : Dev nD) (t : Fin cfg1.N) (h : t.val % 4 = 1) :
    outsAt V c t.val t.isLt = stB V c t h (outsAt V c (t.val - 1) (Nat.lt_of_le_of_lt (Nat.sub_le _ _) t.isLt)) := by
  obtain ⟨n, hn⟩ := t
  cases n with
  | zero => exact absurd (show (0 : ℕ) % 4 = 1 from h) (by decide)
  | succ n =>
    have h' : (n + 1) % 4 = 1 := h
    exact (dif_neg (by omega)).trans (dif_pos h')
theorem outsAt_C (c : Dev nD) (t : Fin cfg1.N) (h : t.val % 4 = 2) : outsAt V c t.val t.isLt = stC V c t h := by
  obtain ⟨n, hn⟩ := t
  cases n with
  | zero => exact absurd (show (0 : ℕ) % 4 = 2 from h) (by decide)
  | succ n =>
    have h' : (n + 1) % 4 = 2 := h
    exact (dif_neg (by omega)).trans ((dif_neg (by omega)).trans (dif_pos h'))
theorem outsAt_D (c : Dev nD) (t : Fin cfg1.N) (h : t.val % 4 = 3) :
    outsAt V c t.val t.isLt = stD V c t h (outsAt V c (t.val - 1) (Nat.lt_of_le_of_lt (Nat.sub_le _ _) t.isLt)) := by
  obtain ⟨n, hn⟩ := t
  cases n with
  | zero => exact absurd (show (0 : ℕ) % 4 = 3 from h) (by decide)
  | succ n =>
    have h' : (n + 1) % 4 = 3 := h
    exact (dif_neg (by omega)).trans ((dif_neg (by omega)).trans (dif_neg (by omega)))

/-! ## The invariant between two points -/

/-- Before the first point: the scoped buffers the region does not stage, at anything, and the generator register.
    Afterwards: the other kernel's five staging buffers at anything, the three scratch buffers at the state the point
    before left, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare (outsAt V c n hn).2.1 ∗ owns (c : Thread nD τ) scDen fullShare (outsAt V c n hn).2.2.1 ∗ owns (c : Thread nD τ) scNum fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare (outsAt V c n hn).2.1 ∗ owns (c : Thread nD τ) scDen fullShare (outsAt V c n hn).2.2.1 ∗ owns (c : Thread nD τ) scNum fullShare (outsAt V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare (outsAt V c (n - 1) (by omega)).2.1 ∗ owns (c : Thread nD τ) scDen fullShare (outsAt V c (n - 1) (by omega)).2.2.1 ∗ owns (c : Thread nD τ) scNum fullShare (outsAt V c (n - 1) (by omega)).2.2.2) ∗ (∃ r, prngReg c r)) := by
  cases n with
  | zero => exact absurd rfl hz
  | succ n => rfl

/-- The class's invariant with the scratch buffers as memrefs owned at some contents. -/
theorem PhiA_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

/-! ## The proof data -/

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem dat_A (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_v (c : Dev nD) (t : Fin cfg1.N) : (dat V c).after 2 t = blockAt V c 2 t := by dsimp only [dat]
theorem after_o (c : Dev nD) (t : Fin cfg1.N) : (dat V c).after 3 t = (outsAt V c t.val t.isLt).1 := by dsimp only [dat]

/-- Each input window's current staging buffer holds its block at every point, fetched there or not: where it is not
    fetched its block index has not moved (the key and value windows stay on row tile min(ki, qi)). -/
theorem before_q (c : Dev nD) (t : Fin cfg1.N) (d) : (dat V c).before 0 t d = blockAt V c 0 t :=
  ((dat V c).before_in_eq_fetched 0 rfl (fun _ => rfl) (fun _ _ _ => rfl)
      (fun t => by rw [after_q]; unfold Dat.blockOf blockAt; rw [dat_A]; try rfl) t d).trans
    (by unfold Dat.fetched Dat.blockOf blockAt; rw [dat_A]; try rfl)
theorem before_k (c : Dev nD) (t : Fin cfg1.N) (d) : (dat V c).before 1 t d = blockAt V c 1 t :=
  ((dat V c).before_in_eq_fetched 1 rfl (fun _ => rfl) (fun _ _ _ => rfl)
      (fun t => by rw [after_k]; unfold Dat.blockOf blockAt; rw [dat_A]; try rfl) t d).trans
    (by unfold Dat.fetched Dat.blockOf blockAt; rw [dat_A]; try rfl)
theorem before_v (c : Dev nD) (t : Fin cfg1.N) (d) : (dat V c).before 2 t d = blockAt V c 2 t :=
  ((dat V c).before_in_eq_fetched 2 rfl (fun _ => rfl) (fun _ _ _ => rfl)
      (fun t => by rw [after_v]; unfold Dat.blockOf blockAt; rw [dat_A]; try rfl) t d).trans
    (by unfold Dat.fetched Dat.blockOf blockAt; rw [dat_A]; try rfl)

/-! ## The obligation at a point -/

def bodyPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mv t) fullShare ((dat V c).before 2 t d))
    ∗ (∃ d, owns (c : Thread nD τ) (mo t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
/-- The body at any point. The inputs' buffers hold their blocks; the point's number modulo 4 says which case it is in;
    the invariant hands the body the three scratch buffers at what the point before left (at anything before the first
    point) and takes them back at this point's state; where the output block is idle its buffer is handed back as it was
    found, elsewhere it holds the point's store; the other kernel's buffers, the generator register and the core's dues pass
    through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mk t) fullShare ((dat V c).after 1 t) from by
    unfold Dat.leavesExact; rw [live_k t], after_k]
  rw [show (dat V c).leavesExact 2 t = owns (c : Thread nD τ) (mv t) fullShare ((dat V c).after 2 t) from by
    unfold Dat.leavesExact; rw [live_v t], after_v]
  have hN : t.val < 32 := lt_of_lt_of_eq t.isLt N_1
  by_cases h : t.val % 4 = 0
  · rw [Dat.leavesExact_idle (dat V c) 3 t (idle_o t (caseA t h).2.2.2) (noFlush_o t (caseA t h).2.2.2)]
    rw [outsAt_A V c t h]
    unfold stA; dsimp only
    by_cases hz : t.val = 0
    · rw [PhiS_castSucc V c t, PhiS_zero V c _ _ hz, PhiA_eq]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((rA V c t h).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [Ho1 Ho2 Ho3 Ho4 Ho5 HS0 HS1 HS2 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [HS0]
        · unfold owns; iexists _; isplitr
          swap; · iexact HS0
          ipureintro; exact View.read_writes_of_cover _ _ _ _ _ (covA_max _ _ _ _ _ _ _ _ _ _ _ _ _ _ _ _ _ _ _ _ _ _ _)
        isplitl [HS1]
        · unfold owns; iexists _; isplitr
          swap; · iexact HS1
          ipureintro; exact View.read_writes_of_cover _ _ _ _ _ (covA_den _ _ _ _ _ _ _ _ _ _ _ _ _ _ _ _ _ _ _ _ _ _ _)
        · unfold owns; iexists _; isplitr
          swap; · iexact HS2
          ipureintro; exact View.read_writes_of_cover _ _ _ _ _ (covA_num _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((rA V c t h).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [Ho1 Ho2 Ho3 Ho4 Ho5 HS0 HS1 HS2 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [HS0]
        · unfold owns; iexists _; isplitr
          swap; · iexact HS0
          ipureintro; exact View.read_writes_of_cover _ _ _ _ _ (covA_max _ _ _ _ _ _ _ _ _ _ _ _ _ _ _ _ _ _ _ _ _ _ _)
        isplitl [HS1]
        · unfold owns; iexists _; isplitr
          swap; · iexact HS1
          ipureintro; exact View.read_writes_of_cover _ _ _ _ _ (covA_den _ _ _ _ _ _ _ _ _ _ _ _ _ _ _ _ _ _ _ _ _ _ _)
        · unfold owns; iexists _; isplitr
          swap; · iexact HS2
          ipureintro; exact View.read_writes_of_cover _ _ _ _ _ (covA_num _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · by_cases h1 : t.val % 4 = 1
    · have hz : t.val ≠ 0 := by omega
      rw [show (dat V c).leavesExact 3 t = owns (c : Thread nD τ) (mo t) fullShare ((dat V c).after 3 t) from by
        unfold Dat.leavesExact; rw [live_o t (caseB t h1).2.2.2], after_o]
      rw [outsAt_B V c t h1]
      unfold stB; dsimp only
      rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((rB V c t h1 (outsAt V c (t.val - 1) (Nat.lt_of_le_of_lt (Nat.sub_le _ _) t.isLt))).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Ho1 Ho2 Ho3 Ho4 Ho5 HS0 HS1 HS2 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [HS0]; · iexact HS0
        isplitl [HS1]; · iexact HS1
        iexact HS2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covB_out _ _ _ _ _ _ _ _ _ _ _ _ _ _ _ _ _ _ _ _ _ _ _ _ _ _)
    · by_cases h2 : t.val % 4 = 2
      · have hz : t.val ≠ 0 := by omega
        have h := h2
        rw [Dat.leavesExact_idle (dat V c) 3 t (idle_o t (caseC t h).2.2.2) (noFlush_o t (caseC t h).2.2.2)]
        rw [outsAt_C V c t h]
        unfold stC; dsimp only
        rw [PhiS_castSucc V c t, PhiS_pos V c _ _ hz]
        iintro ⟨⟨⟨Ho1, Ho2, Ho3, Ho4, Ho5, HS0, HS1, HS2⟩, Hg⟩, Ho, ⟨%d0, H0⟩, ⟨%d1, H1⟩, ⟨%d2, H2⟩, ⟨%d3, H3⟩⟩
        iapply ((rC V c t h).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%e0, HS0⟩, ⟨%e1, HS1⟩, ⟨%e2, HS2⟩⟩
        isplitl [Ho1 Ho2 Ho3 Ho4 Ho5 HS0 HS1 HS2 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (covC_max _ _ _ _ _ _ _ _ _ _ _ _ _ _ _ _ _ _ _ _ _ _ _)
          isplitl [HS1]
          · unfold owns; iexists _; isplitr
            swap; · iexact HS1
            ipureintro; exact View.read_writes_of_cover _ _ _ _ _ (covC_den _ _ _ _ _ _ _ _ _ _ _ _ _ _ _ _ _ _ _ _ _ _ _)
          · unfold owns; iexists _; isplitr
            swap; · iexact HS2
            ipureintro; exact View.read_writes_of_cover _ _ _ _ _ (covC_num _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3
      · have h3 : t.val % 4 = 3 := by omega
        have hz : t.val ≠ 0 := by omega
        rw [show (dat V c).leavesExact 3 t = owns (c : Thread nD τ) (mo t) fullShare ((dat V c).after 3 t) from by
          unfold Dat.leavesExact; rw [live_o t (caseD t h3).2.2.2], after_o]
        rw [outsAt_D V c t h3]
        unfold stD; dsimp only
        rw [PhiS_castSucc V c t, PhiS_pos V c _ _ hz]
        iintro ⟨⟨⟨Ho1, Ho2, Ho3, Ho4, Ho5, HS0, HS1, HS2⟩, Hg⟩, Ho, ⟨%d0, H0⟩, ⟨%d1, H1⟩, ⟨%d2, H2⟩, ⟨%d3, H3⟩⟩
        iapply ((rD V c t h3 (outsAt V c (t.val - 1) (Nat.lt_of_le_of_lt (Nat.sub_le _ _) t.isLt))).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [Ho1 Ho2 Ho3 Ho4 Ho5 HS0 HS1 HS2 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (covD_max _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (covD_den _ _ _ _ _ _ _ _ _ _ _ _ _ _ _ _ _ _ _ _ _ _ _ _ _ _)
          · unfold owns; iexists _; isplitr
            swap; · iexact HS2
            ipureintro; exact View.read_writes_of_cover _ _ _ _ _ (covD_num _ _ _ _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (covD_out _ _ _ _ _ _ _ _ _ _ _ _ _ _ _ _ _ _ _ _ _ _ _ _ _ _)

/-- The pipeline's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch buffers' named contents are forgotten. -/
theorem phi_out (c : Dev nD) : (dat V c).Φ (Fin.last cfg1.N) ⊢ Pipeline.ΦA spec1 c := by
  have hne : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨Ho1, Ho2, Ho3, Ho4, Ho5, HS0, HS1, HS2⟩, Hg⟩
  isplitr [Hg]
  swap; · iexact Hg
  isplitl [Ho1]; · iexact Ho1
  isplitl [Ho2]; · iexact Ho2
  isplitl [Ho3]; · iexact Ho3
  isplitl [Ho4]; · iexact Ho4
  isplitl [Ho5]; · iexact Ho5
  isplitl [HS0]; · iexists _; iexact HS0
  isplitl [HS1]; · iexists _; iexact HS1
  iexists _; iexact HS2

end Cert.Kernel.Attn

end
-- ==== Proof.WholeBits.lean ====
/-
  The whole program: one host operation (the three weight arrays laid side by side), then the two kernel regions.

  Between two items a core holds every unscoped buffer at a known valuation: the launch contents; after the host operation;
  after the first region, whose output array holds what its write-backs leave; after the second, whose output array holds
  what its write-backs leave and whose three input windows, all on the first region's output array, leave that array as it
  was. On entering the second region the array's full share is dealt left / right-left / right-right among the three
  windows; on leaving, the three shares, still at the entry contents, are joined again.
  The run ends with every unscoped buffer at the last valuation: the four arguments as launched, and the result array at
  what the second region's write-backs leave.
-/
import proofs.«108889_j8942121910998_2_alg».proof.Proof.Region0Bits
import proofs.«108889_j8942121910998_2_alg».proof.Proof.Region1DataBits
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- At launch. -/
abbrev W0 : Dev nD → Valuation τ sig (Elt F) := fun c b => m (c, b)
/-- After the host operation. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (Proj.dat (V1 m) c).arrAt w cfg0.N
theorem W2_arr (c : Dev nD) (w : Fin cfg0.W) :
    W2 m c (Proc.devRef .tc (Pipeline.arrRef spec0 w)) = (Proj.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Proj.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- What the second region leaves in the result array. -/
def result (c : Dev nD) : Buf (Elt F) ((c : Thread nD τ).loc main_v2) := (Attn.dat (V2 m) c).arrAt 3 cfg1.N

/-- After the second region: the result array at what the pipeline leaves, every other buffer as entered. -/
def W3 (c : Dev nD) : Valuation τ sig (Elt F) := Function.update (W2 m c) (Proc.devRef .tc main_v2) (result m c)
abbrev V3 : (c : Dev nD) → (b : Ref sig .tc) → Buf (Elt F) ((c : Thread nD τ).loc b) := fun c b => W3 m c b
theorem W3_result (c : Dev nD) : W3 m c (Proc.devRef .tc main_v2) = result m c := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The arguments end as launched -/

theorem W1_of_not_written (c : Dev nD) (b : Ref sig .tc) (hb : b ≠ main_v0) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Proj.dat (V1 m) c).arrAt_in 0 rfl _).trans (Proj.dat_A (V1 m) c 0))
    _ = W0 m c (Proc.devRef .tc main_arg0) := W1_of_not_written m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl

/-! ## The second region's arrays: one array under three windows -/

/-- The distinct buffers behind the second region's windows are the first region's output array and the result array. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- A core's unscoped buffers are the two buffers behind the second region's windows and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ (cfgs := cfgs) (p := 1) winFacts₀1.arr_unscoped c V

variable (V : (c : Dev nD) → (b : Ref sig .tc) → Buf (Elt F) ((c : Thread nD τ).loc b))

theorem share_q (c : Dev nD) : (Attn.dat V c).share 0 = fullShare.left := by
  unfold Dat.share; rw [if_neg (by decide)]; rfl
theorem share_k (c : Dev nD) : (Attn.dat V c).share 1 = fullShare.right.left := by
  unfold Dat.share; rw [if_neg (by decide)]; rfl
theorem share_v (c : Dev nD) : (Attn.dat V c).share 2 = fullShare.right.right := by
  unfold Dat.share; rw [if_neg (by decide)]; rfl
theorem share_o (c : Dev nD) : (Attn.dat V c).share 3 = fullShare := by
  unfold Dat.share; rw [if_pos (by decide)]

/-- The second region's arrays, window by window: three shares of one array, and the result array outright. -/
theorem arrays1_eq (c : Dev nD) (G : (w : Fin cfg1.W) → Buf (Elt F) ((cfg1.win w).arr.view.loc (c : Thread nD τ))) :
    ((Attn.dat V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1, (arr_whole1 0).set_eq_univ, (arr_whole1 3).set_eq_univ, share_q, share_k, share_v, share_o]

/-! ## Entering and leaving the second region -/

/-- The buffers no window of the second region stages are the same before and after it: only the result array changes. -/
theorem rest1_eq (c : Dev nD) :
    (Pipeline.unscopedRest (Ix := Unit) (Name := ℕ) (U := UR sig nD τ) (Lvl := ℕ) spec1 c (V3 m c) : sProp 𝕄)
      = Pipeline.unscopedRest spec1 c (V2 m c) := by
  unfold Pipeline.unscopedRest
  refine bigSep_congr fun b hb => ?_
  have hne : b ≠ main_v2 := fun h => (Finset.mem_sdiff.mp hb).2 (h ▸ Finset.mem_image.mpr ⟨3, Finset.mem_univ _, rfl⟩)
  rw [show V3 m c b = V2 m c b from W3_of_ne m c b hne]

/-- Entering: every unscoped buffer at the contents the first region left gives the second region's arrays at their
    entry contents — the shared array's full share dealt among its three windows — and the buffers that bypass it. -/
theorem enter1 (c : Dev nD) :
    (StableHlo.held (c : Thread nD τ) (Pipeline.ucRefs τ sig) (W2 m c) : sProp 𝕄)
      ⊢ iprop((Attn.dat (V2 m) c).arrays ((Attn.dat (V2 m) c).arrAt · 0)
          ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c),
    split1 c (V2 m c), arrBufs1_eq, arrays1_eq]
  iintro ⟨⟨H1, H2⟩, Hrest⟩
  isplitr [Hrest]
  swap; · iexact Hrest
  ihave H1' := (pointsTo_share (PosShare.mem_left_op_right fullShare)).1 $$ H1
  icases H1' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H2

/-- Leaving: the arrays at what the pipeline leaves — the three input windows' array as entered, its shares joined
    again; the result array at its write-backs — with the bypassing buffers give every unscoped buffer at the contents
    after the second region. -/
theorem leave1 (c : Dev nD) :
    iprop((Attn.dat (V2 m) c).arrays ((Attn.dat (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    split1 c (V3 m c), arrBufs1_eq, arrays1_eq, rest1_eq,
    (Attn.dat (V2 m) c).arrAt_in 0 rfl cfg1.N, (Attn.dat (V2 m) c).arrAt_in 1 rfl cfg1.N, (Attn.dat (V2 m) c).arrAt_in 2 rfl cfg1.N,
    show V3 m c main_v1 = V2 m c main_v1 from W3_of_ne m c main_v1 (by decide),
    show V3 m c main_v2 = result m c from W3_result m c]
  iintro ⟨⟨Hl, Hrl, Hrr, H2⟩, Hrest⟩
  isplitr [Hrest]
  swap; · iexact Hrest
  isplitr [H2]
  swap; · iexact H2
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m) c
  | ⟨1, _⟩ => fun c => Attn.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at the contents after the host operation,
    left at the contents with its output array written. Its three arrays are distinct buffers. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents the first region left,
    left at the contents with the result array written. Its three input windows share one array (`enter1`, `leave1`);
    the generator register and the scoped buffers it does not stage go into its invariant and come back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.phi_in (V2 m) c)
    unfold Pipeline.ΦA
    iintro ⟨Hp, -, Hr⟩
    isplitl [Hr]; · iexact Hr
    iexact Hp
  hout c := by
    rw [Pipeline.ownSems0_none]
    refine BIBase.Entails.trans (Attn.phi_out (V2 m) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (leave1 m c)
        isplitl [Ha]; · iexact Ha
        iexact Hrest
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state holds the result array at what the second region's write-backs leave and the four
    argument arrays as launched. -/
theorem run : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_result m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c)⟩)

/-- The frame: the run with the statement about the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Whole

end
-- ==== Proof.Region0Ideal.lean ====
/-
  The first kernel region: one point per (batch, row tile), sixteen in all. At a point the body loads the point's
  1024×1024 tile of x and the whole 1024×384 weight array [Wq | Wk | Wv], multiplies them into a zero accumulator and stores
  the 1024×384 product, rounded to bf16, over its whole output block. Nothing is kept between points.

  Stated at any entry contents V of the core's buffers: what each window's staging buffer holds after the body at a
  point — an input's its block, fetched there or not (the weights are fetched once, their block index never moves), the
  output's the one store's value at the two input blocks —, the body's triple, and the obligation the pipeline asks at
  every point.
-/
import proofs.«108889_j8942121910998_2_alg».proof.Proof.Gen.KernelIdeal.Launch
import proofs.«108889_j8942121910998_2_alg».proof.Proof.Gen.KernelIdeal.Skeleton
import proofs.«108889_j8942121910998_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1x1024x1024 := Rect.unit (s := S1x1024x1024) ![0, 0, 0] S1x1024x1024.size inb_S1x1024x1024_S1x1024x1024_0_0_0
abbrev rW : Rect S1024x384 := Rect.unit (s := S1024x384) ![0, 0] S1024x384.size inb_S1024x384_S1024x384_0_0
abbrev rO : Rect S1x1024x384 := Rect.unit (s := S1x1024x384) ![0, 0, 0] S1x1024x384.size inb_S1x1024x384_S1x1024x384_0_0_0

/-- What the body leaves in the output's staging buffer: its one store, of the product of the two loaded blocks. -/
def outBlock (x0 : Vec F S1x1024x1024 .f32) (x1 : Vec F S1024x384 .f32) : Vec F S1x1024x384 .bf16 :=
  View.canon [⟨rO, k0_pay1 (View.ld x0 rX) (View.ld x1 rW)⟩]

/-- The one store covers the whole block. -/
theorem outCover (p0 : Vec F S1x1024x384 .bf16) (y : S1x1024x384.Idx) :
    ∃ pc ∈ ([⟨rO, p0⟩] : List (View.Piece (Elt F) S1x1024x384 .bf16)), y ∈ pc.1.set :=
  View.cover_of_tiled [⟨rO, p0⟩] S1x1024x384.size (by rfl) y

set_option maxHeartbeats 1000000 in
/-- The body on whole staging memrefs — the two inputs at contents x0, x1, the output at anything — runs to its return
    holding the inputs as they were and the output at the product block. -/
theorem bodyTriple (c : Dev nD) (E : Set ℕ) (i : grid0.Coords)
    (arg2 : Memref sig .tc .vmem S1x1024x1024 .f32) (harg2 : arg2.IsWhole)
    (arg3 : Memref sig .tc .vmem S1024x384 .f32) (harg3 : arg3.IsWhole)
    (arg4 : Memref sig .tc .vmem S1x1024x384 .bf16) (harg4 : arg4.IsWhole)
    (x0 : Vec F S1x1024x1024 .f32) (x1 : Vec F S1024x384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc0_qkv_proj_kernel i arg2 harg2 arg3 harg3 arg4 harg4) K := by
  simp only [cc0_qkv_proj_kernel_eq_skeleton]; unfold cc0_qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- The region's proof data on core c: the arrays as the region finds them; after the body at a point each input's
    buffer at its block, the output's at the product of the two input blocks; the invariant the scoped buffers the
    region does not stage and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => outBlock (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_w (c : Dev nD) (t : Fin cfg0.N) : (dat V c).after 1 t = blockAt V c 1 t := by dsimp only [dat]
theorem after_o (c : Dev nD) (t : Fin cfg0.N) :
    (dat V c).after 2 t = outBlock (blockAt V c 0 t) (blockAt V c 1 t) := by dsimp only [dat]

/-- The x window's current staging buffer holds its block at every point. -/
theorem before_x (c : Dev nD) (t : Fin cfg0.N) (d) : (dat V c).before 0 t d = blockAt V c 0 t :=
  ((dat V c).before_in_eq_fetched 0 rfl (fun _ => rfl) (fun _ _ _ => rfl)
      (fun t => by rw [after_x]; unfold Dat.blockOf blockAt; rw [dat_A]; try rfl) t d).trans
    (by unfold Dat.fetched Dat.blockOf blockAt; rw [dat_A]; try rfl)

/-- The weight window's current staging buffer holds its block at every point: fetched once, and its block index
    never moves. -/
theorem before_w (c : Dev nD) (t : Fin cfg0.N) (d) : (dat V c).before 1 t d = blockAt V c 1 t :=
  ((dat V c).before_in_eq_fetched 1 rfl (fun _ => rfl) (fun _ _ _ => rfl)
      (fun t => by rw [after_w]; unfold Dat.blockOf blockAt; rw [dat_A]; try rfl) t d).trans
    (by unfold Dat.fetched Dat.blockOf blockAt; rw [dat_A]; try rfl)

/-! ## The obligation at a point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (bodyTriple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.Region1CommonIdeal.lean ====
/-
  The second kernel region, what its four control cases share. A point is (batch b, query tile qi, key tile ki),
  thirty-two in all, point number 4·b + 2·qi + ki. The body's four conditionals read only qi and ki:
  "first key tile" (ki = 0: reset the running maximum, denominator and numerator), "below the diagonal" (ki < qi: a full
  tile), "on the diagonal" (ki = qi: a masked tile), "last key tile" (ki = 1: divide and store the output block).
  So a point's case is its number modulo 4: 0 reset and masked tile, 1 output only, 2 reset and full tile, 3 masked tile
  and output. The output block is idle, and not written back, exactly where ki = 0.
-/
import proofs.«108889_j8942121910998_2_alg».proof.Proof.Gen.KernelIdeal.Launch
import proofs.«108889_j8942121910998_2_alg».proof.Proof.Gen.KernelIdeal.Skeleton
import proofs.«108889_j8942121910998_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The four conditions, decided over the grid -/

/-- First key tile. -/
abbrev condInit (i : grid1.Coords) : Prop :=
  (Scalar.cmpi .ne (Scalar.extui (Scalar.cmpi .eq (BitVec.ofNat 32 (i 2).val) 0#32)) 0#32) = 1#1
theorem hInit : ∀ t : Fin cfg1.N, condInit (grid1.coords t) ↔ t.val % 2 = 0 :=
  (by decide +kernel : ∀ t : Fin grid1.N, condInit (grid1.coords t) ↔ t.val % 2 = 0)

/-- Key tile strictly below the query tile. -/
abbrev condBelow (i : grid1.Coords) : Prop :=
  (Scalar.cmpi .ne (Scalar.extui (Scalar.cmpi .slt (BitVec.ofNat 32 (i 2).val) (BitVec.ofNat 32 (i 1).val))) 0#32) = 1#1
theorem hBelow : ∀ t : Fin cfg1.N, condBelow (grid1.coords t) ↔ t.val % 4 = 2 :=
  (by decide +kernel : ∀ t : Fin grid1.N, condBelow (grid1.coords t) ↔ t.val % 4 = 2)

/-- Key tile on the diagonal. -/
abbrev condDiag (i : grid1.Coords) : Prop :=
  (Scalar.cmpi .ne (Scalar.extui (Scalar.cmpi .eq (BitVec.ofNat 32 (i 2).val) (BitVec.ofNat 32 (i 1).val))) 0#32) = 1#1
theorem hDiag : ∀ t : Fin cfg1.N, condDiag (grid1.coords t) ↔ (t.val % 4 = 0 ∨ t.val % 4 = 3) :=
  (by decide +kernel : ∀ t : Fin grid1.N, condDiag (grid1.coords t) ↔ (t.val % 4 = 0 ∨ t.val % 4 = 3))

/-- Last key tile. -/
abbrev condLast (i : grid1.Coords) : Prop := k1_cond4 i = 1#1
theorem hLast : ∀ t : Fin cfg1.N, condLast (grid1.coords t) ↔ t.val % 2 = 1 :=
  (by decide +kernel : ∀ t : Fin grid1.N, condLast (grid1.coords t) ↔ t.val % 2 = 1)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Away from the last key tile the output block is idle and is not written back. -/
theorem idle_o : ∀ t : Fin cfg1.N, ¬condLast (grid1.coords t) → cfg1.idle 3 (grid1.coords t) = true := by decide +kernel
theorem noFlush_o : ∀ t : Fin cfg1.N, ¬condLast (grid1.coords t) → (cfg1.win 3).flush t = false := by decide +kernel
/-- At the last key tile it is live. -/
theorem live_o : ∀ t : Fin cfg1.N, condLast (grid1.coords t) → cfg1.idle 3 (grid1.coords t) = false := by decide +kernel

/-! ## The memrefs the body is called with -/

abbrev mq (t : Fin cfg1.N) : Memref sig .tc .vmem S1x1024x128 .bf16 := win1_0.stage (cfg1.slots t 0)
abbrev hq (t : Fin cfg1.N) : (mq t).IsWhole := hstage1_0 ((cfg1.slots t 0).cast nbuf1_0)
abbrev mk (t : Fin cfg1.N) : Memref sig .tc .vmem S1x1024x128 .bf16 := win1_1.stage (cfg1.slots t 1)
abbrev hk (t : Fin cfg1.N) : (mk t).IsWhole := hstage1_1 ((cfg1.slots t 1).cast nbuf1_1)
abbrev mv (t : Fin cfg1.N) : Memref sig .tc .vmem S1x1024x128 .bf16 := win1_2.stage (cfg1.slots t 2)
abbrev hv (t : Fin cfg1.N) : (mv t).IsWhole := hstage1_2 ((cfg1.slots t 2).cast nbuf1_2)
abbrev mo (t : Fin cfg1.N) : Memref sig .tc .vmem S1x1024x128 .f32 := win1_3.stage (cfg1.slots t 3)
abbrev ho (t : Fin cfg1.N) : (mo t).IsWhole := hstage1_3 ((cfg1.slots t 3).cast nbuf1_3)
/-- The three scratch buffers the kernel carries between points: running maximum, denominator, numerator. -/
abbrev scMax : Memref sig .tc .vmem S1024x1 .f32 := Memref.whole cc1_scratch0
abbrev scDen : Memref sig .tc .vmem S1024x1 .f32 := Memref.whole cc1_scratch1
abbrev scNum : Memref sig .tc .vmem S1024x128 .f32 := Memref.whole cc1_scratch2
abbrev vMax : View sig .tc .vmem S1024x1 .f32 := scMax.view
abbrev vDen : View sig .tc .vmem S1024x1 .f32 := scDen.view
abbrev vNum : View sig .tc .vmem S1024x128 .f32 := scNum.view
/-- One staging buffer of the output window, through which its contents are stated. -/
abbrev vOut : View sig .tc .vmem S1x1024x128 .f32 := (Memref.whole cc1_stg3_0 : Memref sig .tc .vmem S1x1024x128 .f32).view

end Cert.KernelIdeal.Attn

end
-- ==== Proof.Region1RunAIdeal.lean ====
/-
  The second kernel region at a point on the first key tile and on the diagonal (query tile 0, key tile 0): the body resets
  the running maximum to minus infinity and the denominator and numerator to zero, then folds the masked diagonal tile into
  them. It stores nothing into the output block. What each scratch buffer ends with is found by running the body.
-/
import proofs.«108889_j8942121910998_2_alg».proof.Proof.Region1CommonIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Reset, then the masked diagonal tile: on whole memrefs — the three inputs at their contents, the output at contents handed back untouched, the scratch buffers at anything — the body runs to its return with each scratch buffer at its stores written. -/
noncomputable def runA (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : condInit i) (hc2 : ¬condBelow i) (hc3 : condDiag i) (hc4 : ¬condLast i)
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, ?_, ?_, fun xi3 E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Attn

end
-- ==== Proof.Region1RunBIdeal.lean ====
/-
  The second kernel region at a point past the diagonal (query tile 0, key tile 1): no key of this tile is visible to any
  query of the tile, so the body folds nothing in; it divides the numerator by the denominator and stores the output block.
  The scratch buffers are read and left as they were.
-/
import proofs.«108889_j8942121910998_2_alg».proof.Proof.Region1CommonIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Output only: on whole memrefs — the inputs and the three scratch buffers at their contents, the output at anything — the body runs to its return with the scratch buffers as they were and the output at its store written. -/
noncomputable def runB (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : ¬condInit i) (hc2 : ¬condBelow i) (hc3 : ¬condDiag i) (hc4 : condLast i)
    (x0 x1 x2 : Vec F S1x1024x128 .bf16) (xs0 : Vec F S1024x1 .f32) (xs1 : Vec F S1024x1 .f32) (xs2 : Vec F S1024x128 .f32) :
    { L3 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, fun E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Attn

end
-- ==== Proof.Region1RunCIdeal.lean ====
/-
  The second kernel region at a point on the first key tile and below the diagonal (query tile 1, key tile 0): the body
  resets the running maximum, denominator and numerator, then folds the full, unmasked tile into them. It stores nothing
  into the output block.
-/
import proofs.«108889_j8942121910998_2_alg».proof.Proof.Region1CommonIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Reset, then the full tile below the diagonal: on whole memrefs — the three inputs at their contents, the output at contents handed back untouched, the scratch buffers at anything — the body runs to its return with each scratch buffer at its stores written. -/
noncomputable def runC (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : condInit i) (hc2 : condBelow i) (hc3 : ¬condDiag i) (hc4 : ¬condLast i)
    (x0 x1 x2 : Vec F S1x1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, ?_, ?_, fun xi3 E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Attn

end
-- ==== Proof.Region1RunDIdeal.lean ====
/-
  The second kernel region at a point on the diagonal and on the last key tile (query tile 1, key tile 1): the body folds
  the masked diagonal tile into the running maximum, denominator and numerator the point before left, then divides the
  numerator by the denominator and stores the output block.
-/
import proofs.«108889_j8942121910998_2_alg».proof.Proof.Region1CommonIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The masked diagonal tile, then the output: on whole memrefs — the inputs and the three scratch buffers at their contents, the output at anything — the body runs to its return with each scratch buffer and the output at its stores written. -/
noncomputable def runD (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc1 : ¬condInit i) (hc2 : ¬condBelow i) (hc3 : condDiag i) (hc4 : condLast i)
    (x0 x1 x2 : Vec F S1x1024x128 .bf16) (xs0 : Vec F S1024x1 .f32) (xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_causal_attn_kernel i arg3 harg3 arg4 harg4 arg5 harg5 arg6 harg6 arg7 harg7 arg8 harg8 arg9 harg9) K } := by
  refine ⟨?_, ?_, ?_, ?_, fun E K => ?run⟩
  case run =>
    simp only [cc1_causal_attn_kernel_eq_skeleton]; unfold cc1_causal_attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.KernelIdeal.Attn

end
-- ==== Proof.Region1DataIdeal.lean ====
/-
  The second kernel region: what it holds point by point, and the obligation the pipeline asks at every point.

  A state is (output block, running maximum, running denominator, running numerator). After a point it is what the point's
  case leaves: on the first key tile the three scratch buffers are rewritten whatever they held; on the last key tile the
  output block is stored from the numerator and the denominator; a case that folds a tile in reads what the point before
  left. The invariant between two points holds the three scratch buffers at the state's components (before the first point:
  at anything), beside the other kernel's staging buffers and the generator register, untouched.
  The three input windows read one array; its full share is dealt left / right-left / right-right among them.
-/
import proofs.«108889_j8942121910998_2_alg».proof.Proof.Region1RunAIdeal
import proofs.«108889_j8942121910998_2_alg».proof.Proof.Region1RunBIdeal
import proofs.«108889_j8942121910998_2_alg».proof.Proof.Region1RunCIdeal
import proofs.«108889_j8942121910998_2_alg».proof.Proof.Region1RunDIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Output block, running maximum, denominator, numerator. -/
abbrev St (F : FTy → Type) : Type :=
  Vec F S1x1024x128 .f32 × Vec F S1024x1 .f32 × Vec F S1024x1 .f32 × Vec F S1024x128 .f32

/-! ## A point's case from its number modulo 4 -/

theorem caseA (t : Fin cfg1.N) (h : t.val % 4 = 0) :
    condInit (grid1.coords t) ∧ ¬condBelow (grid1.coords t) ∧ condDiag (grid1.coords t) ∧ ¬condLast (grid1.coords t) :=
  ⟨(hInit t).mpr (by omega), fun hh => absurd ((hBelow t).mp hh) (by omega), (hDiag t).mpr (Or.inl h),
    fun hh => absurd ((hLast t).mp hh) (by omega)⟩
theorem caseB (t : Fin cfg1.N) (h : t.val % 4 = 1) :
    ¬condInit (grid1.coords t) ∧ ¬condBelow (grid1.coords t) ∧ ¬condDiag (grid1.coords t) ∧ condLast (grid1.coords t) :=
  ⟨fun hh => absurd ((hInit t).mp hh) (by omega), fun hh => absurd ((hBelow t).mp hh) (by omega),
    fun hh => absurd ((hDiag t).mp hh) (by omega), (hLast t).mpr (by omega)⟩
theorem caseC (t : Fin cfg1.N) (h : t.val % 4 = 2) :
    condInit (grid1.coords t) ∧ condBelow (grid1.coords t) ∧ ¬condDiag (grid1.coords t) ∧ ¬condLast (grid1.coords t) :=
  ⟨(hInit t).mpr (by omega), (hBelow t).mpr h, fun hh => absurd ((hDiag t).mp hh) (by omega),
    fun hh => absurd ((hLast t).mp hh) (by omega)⟩
theorem caseD (t : Fin cfg1.N) (h : t.val % 4 = 3) :
    ¬condInit (grid1.coords t) ∧ ¬condBelow (grid1.coords t) ∧ condDiag (grid1.coords t) ∧ condLast (grid1.coords t) :=
  ⟨fun hh => absurd ((hInit t).mp hh) (by omega), fun hh => absurd ((hBelow t).mp hh) (by omega),
    (hDiag t).mpr (Or.inr h), (hLast t).mpr (by omega)⟩

/-! ## The stores of each case cover the buffers they rewrite -/

theorem covA_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : ¬condBelow i) (hc3 : condDiag i) (hc4 : ¬condLast i)
    (x0 x1 x2 : Vec F S1x1024x128 .bf16) (y : S1024x1.Idx) :
    ∃ pc ∈ (runA c i arg3 harg3 arg4 harg4 arg5 harg5 arg6 harg6 arg7 harg7 arg8 harg8 arg9 harg9 hc1 hc2 hc3 hc4 x0 x1 x2).1, y ∈ pc.1.set :=
  View.cover_of_tiledL _ S1024x1.size (by sl_kernel_rfl) y
theorem covA_den (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : ¬condBelow i) (hc3 : condDiag i) (hc4 : ¬condLast i)
    (x0 x1 x2 : Vec F S1x1024x128 .bf16) (y : S1024x1.Idx) :
    ∃ pc ∈ (runA c i arg3 harg3 arg4 harg4 arg5 harg5 arg6 harg6 arg7 harg7 arg8 harg8 arg9 harg9 hc1 hc2 hc3 hc4 x0 x1 x2).2.1, y ∈ pc.1.set :=
  View.cover_of_tiledL _ S1024x1.size (by sl_kernel_rfl) y
theorem covA_num (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : ¬condBelow i) (hc3 : condDiag i) (hc4 : ¬condLast i)
    (x0 x1 x2 : Vec F S1x1024x128 .bf16) (y : S1024x128.Idx) :
    ∃ pc ∈ (runA c i arg3 harg3 arg4 harg4 arg5 harg5 arg6 harg6 arg7 harg7 arg8 harg8 arg9 harg9 hc1 hc2 hc3 hc4 x0 x1 x2).2.2.1, y ∈ pc.1.set :=
  View.cover_of_tiledL _ S1024x128.size (by sl_kernel_rfl) y

theorem covC_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : condBelow i) (hc3 : ¬condDiag i) (hc4 : ¬condLast i)
    (x0 x1 x2 : Vec F S1x1024x128 .bf16) (y : S1024x1.Idx) :
    ∃ pc ∈ (runC c i arg3 harg3 arg4 harg4 arg5 harg5 arg6 harg6 arg7 harg7 arg8 harg8 arg9 harg9 hc1 hc2 hc3 hc4 x0 x1 x2).1, y ∈ pc.1.set :=
  View.cover_of_tiledL _ S1024x1.size (by sl_kernel_rfl) y
theorem covC_den (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : condBelow i) (hc3 : ¬condDiag i) (hc4 : ¬condLast i)
    (x0 x1 x2 : Vec F S1x1024x128 .bf16) (y : S1024x1.Idx) :
    ∃ pc ∈ (runC c i arg3 harg3 arg4 harg4 arg5 harg5 arg6 harg6 arg7 harg7 arg8 harg8 arg9 harg9 hc1 hc2 hc3 hc4 x0 x1 x2).2.1, y ∈ pc.1.set :=
  View.cover_of_tiledL _ S1024x1.size (by sl_kernel_rfl) y
theorem covC_num (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : condInit i) (hc2 : condBelow i) (hc3 : ¬condDiag i) (hc4 : ¬condLast i)
    (x0 x1 x2 : Vec F S1x1024x128 .bf16) (y : S1024x128.Idx) :
    ∃ pc ∈ (runC c i arg3 harg3 arg4 harg4 arg5 harg5 arg6 harg6 arg7 harg7 arg8 harg8 arg9 harg9 hc1 hc2 hc3 hc4 x0 x1 x2).2.2.1, y ∈ pc.1.set :=
  View.cover_of_tiledL _ S1024x128.size (by sl_kernel_rfl) y

theorem covB_out (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : ¬condDiag i) (hc4 : condLast i)
    (x0 x1 x2 : Vec F S1x1024x128 .bf16) (xs0 xs1 : Vec F S1024x1 .f32) (xs2 : Vec F S1024x128 .f32) (y : S1x1024x128.Idx) :
    ∃ pc ∈ (runB c i arg3 harg3 arg4 harg4 arg5 harg5 arg6 harg6 arg7 harg7 arg8 harg8 arg9 harg9 hc1 hc2 hc3 hc4 x0 x1 x2 xs0 xs1 xs2).1, y ∈ pc.1.set :=
  View.cover_of_tiledL _ S1x1024x128.size (by sl_kernel_rfl) y

theorem covD_out (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1x1024x128.Idx) :
    ∃ pc ∈ (runD c i arg3 harg3 arg4 harg4 arg5 harg5 arg6 harg6 arg7 harg7 arg8 harg8 arg9 harg9 hc1 hc2 hc3 hc4 x0 x1 x2 xs0 xs1 xs2).1, y ∈ pc.1.set :=
  View.cover_of_tiledL _ S1x1024x128.size (by sl_kernel_rfl) y
theorem covD_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1024x1.Idx) :
    ∃ pc ∈ (runD c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL _ S1024x1.size (by sl_kernel_rfl) y
theorem covD_den (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1024x1.Idx) :
    ∃ pc ∈ (runD c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL _ S1024x1.size (by sl_kernel_rfl) y
theorem covD_num (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc1 : ¬condInit i) (hc2 : ¬condBelow i) (hc3 : condDiag i) (hc4 : condLast i)
    (x0 x1 x2 : Vec F S1x1024x128 .bf16) (xs0 xs1 : Vec F S1024x1 .f32) (xs2 : Vec F S1024x128 .f32) (y : S1024x128.Idx) :
    ∃ pc ∈ (runD c i arg3 harg3 arg4 harg4 arg5 harg5 arg6 harg6 arg7 harg7 arg8 harg8 arg9 harg9 hc1 hc2 hc3 hc4 x0 x1 x2 xs0 xs1 xs2).2.2.2.1, y ∈ pc.1.set :=
  View.cover_of_tiledL _ S1024x128.size (by sl_kernel_rfl) y

/-! ## The state after a point -/

/-- The body's run at a point of each case, on the memrefs the pipeline passes and the point's input blocks. -/
def rA (c : Dev nD) (t : Fin cfg1.N) (h : t.val % 4 = 0) :=
  runA (F := F) c (grid1.coords t) (mq t) (hq t) (mk t) (hk t) (mv t) (hv t) (mo t) (ho t) scMax (Memref.isWhole_whole _) scDen (Memref.isWhole_whole _) scNum (Memref.isWhole_whole _) (caseA t h).1 (caseA t h).2.1 (caseA t h).2.2.1 (caseA t h).2.2.2 (blockAt V c 0 t) (blockAt V c 1 t) (blockAt V c 2 t)
def rB (c : Dev nD) (t : Fin cfg1.N) (h : t.val % 4 = 1) (p : St F) :=
  runB (F := F) c (grid1.coords t) (mq t) (hq t) (mk t) (hk t) (mv t) (hv t) (mo t) (ho t) scMax (Memref.isWhole_whole _) scDen (Memref.isWhole_whole _) scNum (Memref.isWhole_whole _) (caseB t h).1 (caseB t h).2.1 (caseB t h).2.2.1 (caseB t h).2.2.2 (blockAt V c 0 t) (blockAt V c 1 t) (blockAt V c 2 t) p.2.1 p.2.2.1 p.2.2.2
def rC (c : Dev nD) (t : Fin cfg1.N) (h : t.val % 4 = 2) :=
  runC (F := F) c (grid1.coords t) (mq t) (hq t) (mk t) (hk t) (mv t) (hv t) (mo t) (ho t) scMax (Memref.isWhole_whole _) scDen (Memref.isWhole_whole _) scNum (Memref.isWhole_whole _) (caseC t h).1 (caseC t h).2.1 (caseC t h).2.2.1 (caseC t h).2.2.2 (blockAt V c 0 t) (blockAt V c 1 t) (blockAt V c 2 t)
def rD (c : Dev nD) (t : Fin cfg1.N) (h : t.val % 4 = 3) (p : St F) :=
  runD (F := F) c (grid1.coords t) (mq t) (hq t) (mk t) (hk t) (mv t) (hv t) (mo t) (ho t) scMax (Memref.isWhole_whole _) scDen (Memref.isWhole_whole _) scNum (Memref.isWhole_whole _) (caseD t h).1 (caseD t h).2.1 (caseD t h).2.2.1 (caseD t h).2.2.2 (blockAt V c 0 t) (blockAt V c 1 t) (blockAt V c 2 t) p.2.1 p.2.2.1 p.2.2.2

/-- After a reset and the masked diagonal tile: the output block is idle (a placeholder nothing consults), the three
    scratch buffers hold their stores. -/
def stA (c : Dev nD) (t : Fin cfg1.N) (h : t.val % 4 = 0) : St F :=
  (vOut.read (Elt F) vOut.junk, vMax.read (Elt F) (vMax.writes (Elt F) vMax.junk (rA V c t h).1), vDen.read (Elt F) (vDen.writes (Elt F) vDen.junk (rA V c t h).2.1), vNum.read (Elt F) (vNum.writes (Elt F) vNum.junk (rA V c t h).2.2.1))
/-- After an output-only point: the output block holds its store, the scratch buffers are what the point before left. -/
def stB (c : Dev nD) (t : Fin cfg1.N) (h : t.val % 4 = 1) (p : St F) : St F :=
  (vOut.read (Elt F) (vOut.writes (Elt F) vOut.junk (rB V c t h p).1), p.2.1, p.2.2.1, p.2.2.2)
/-- After a reset and the full tile below the diagonal. -/
def stC (c : Dev nD) (t : Fin cfg1.N) (h : t.val % 4 = 2) : St F :=
  (vOut.read (Elt F) vOut.junk, vMax.read (Elt F) (vMax.writes (Elt F) vMax.junk (rC V c t h).1), vDen.read (Elt F) (vDen.writes (Elt F) vDen.junk (rC V c t h).2.1), vNum.read (Elt F) (vNum.writes (Elt F) vNum.junk (rC V c t h).2.2.1))
/-- After the masked diagonal tile and the output. -/
def stD (c : Dev nD) (t : Fin cfg1.N) (h : t.val % 4 = 3) (p : St F) : St F :=
  (vOut.read (Elt F) (vOut.writes (Elt F) vOut.junk (rD V c t h p).1), vMax.read (Elt F) (vMax.writes (Elt F) vMax.junk (rD V c t h p).2.1), vDen.read (Elt F) (vDen.writes (Elt F) vDen.junk (rD V c t h p).2.2.1), vNum.read (Elt F) (vNum.writes (Elt F) vNum.junk (rD V c t h p).2.2.2.1))

/-- The state after the body at position n: the case of n modulo 4, over what position n - 1 left where the case
    reads it. -/
def outsAt (c : Dev nD) : (n : ℕ) → n < cfg1.N → St F
  | 0, hn => stA V c ⟨0, hn⟩ (Nat.zero_mod 4)
  | n + 1, hn =>
    if h0 : (n + 1) % 4 = 0 then stA V c ⟨n + 1, hn⟩ h0
    else if h1 : (n + 1) % 4 = 1 then stB V c ⟨n + 1, hn⟩ h1 (outsAt c n (Nat.lt_of_succ_lt hn))
    else if h2 : (n + 1) % 4 = 2 then stC V c ⟨n + 1, hn⟩ h2
    else stD V c ⟨n + 1, hn⟩ (show (n + 1) % 4 = 3 by omega) (outsAt c n (Nat.lt_of_succ_lt hn))

theorem outsAt_A (c : Dev nD) (t : Fin cfg1.N) (h : t.val % 4 = 0) : outsAt V c t.val t.isLt = stA V c t h := by
  obtain ⟨n, hn⟩ := t
  cases n with
  | zero => rfl
  | succ n => exact dif_pos h
theorem outsAt_B (c : Dev nD) (t : Fin cfg1.N) (h : t.val % 4 = 1) :
    outsAt V c t.val t.isLt = stB V c t h (outsAt V c (t.val - 1) (Nat.lt_of_le_of_lt (Nat.sub_le _ _) t.isLt)) := by
  obtain ⟨n, hn⟩ := t
  cases n with
  | zero => exact absurd (show (0 : ℕ) % 4 = 1 from h) (by decide)
  | succ n =>
    have h' : (n + 1) % 4 = 1 := h
    exact (dif_neg (by omega)).trans (dif_pos h')
theorem outsAt_C (c : Dev nD) (t : Fin cfg1.N) (h : t.val % 4 = 2) : outsAt V c t.val t.isLt = stC V c t h := by
  obtain ⟨n, hn⟩ := t
  cases n with
  | zero => exact absurd (show (0 : ℕ) % 4 = 2 from h) (by decide)
  | succ n =>
    have h' : (n + 1) % 4 = 2 := h
    exact (dif_neg (by omega)).trans ((dif_neg (by omega)).trans (dif_pos h'))
theorem outsAt_D (c : Dev nD) (t : Fin cfg1.N) (h : t.val % 4 = 3) :
    outsAt V c t.val t.isLt = stD V c t h (outsAt V c (t.val - 1) (Nat.lt_of_le_of_lt (Nat.sub_le _ _) t.isLt)) := by
  obtain ⟨n, hn⟩ := t
  cases n with
  | zero => exact absurd (show (0 : ℕ) % 4 = 3 from h) (by decide)
  | succ n =>
    have h' : (n + 1) % 4 = 3 := h
    exact (dif_neg (by omega)).trans ((dif_neg (by omega)).trans (dif_neg (by omega)))

/-! ## The invariant between two points -/

/-- Before the first point: the scoped buffers the region does not stage, at anything, and the generator register.
    Afterwards: the other kernel's five staging buffers at anything, the three scratch buffers at the state the point
    before left, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare (outsAt V c n hn).2.1 ∗ owns (c : Thread nD τ) scDen fullShare (outsAt V c n hn).2.2.1 ∗ owns (c : Thread nD τ) scNum fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare (outsAt V c n hn).2.1 ∗ owns (c : Thread nD τ) scDen fullShare (outsAt V c n hn).2.2.1 ∗ owns (c : Thread nD τ) scNum fullShare (outsAt V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare (outsAt V c (n - 1) (by omega)).2.1 ∗ owns (c : Thread nD τ) scDen fullShare (outsAt V c (n - 1) (by omega)).2.2.1 ∗ owns (c : Thread nD τ) scNum fullShare (outsAt V c (n - 1) (by omega)).2.2.2) ∗ (∃ r, prngReg c r)) := by
  cases n with
  | zero => exact absurd rfl hz
  | succ n => rfl

/-- The class's invariant with the scratch buffers as memrefs owned at some contents. -/
theorem PhiA_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

/-! ## The proof data -/

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem dat_A (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_v (c : Dev nD) (t : Fin cfg1.N) : (dat V c).after 2 t = blockAt V c 2 t := by dsimp only [dat]
theorem after_o (c : Dev nD) (t : Fin cfg1.N) : (dat V c).after 3 t = (outsAt V c t.val t.isLt).1 := by dsimp only [dat]

/-- Each input window's current staging buffer holds its block at every point, fetched there or not: where it is not
    fetched its block index has not moved (the key and value windows stay on row tile min(ki, qi)). -/
theorem before_q (c : Dev nD) (t : Fin cfg1.N) (d) : (dat V c).before 0 t d = blockAt V c 0 t :=
  ((dat V c).before_in_eq_fetched 0 rfl (fun _ => rfl) (fun _ _ _ => rfl)
      (fun t => by rw [after_q]; unfold Dat.blockOf blockAt; rw [dat_A]; try rfl) t d).trans
    (by unfold Dat.fetched Dat.blockOf blockAt; rw [dat_A]; try rfl)
theorem before_k (c : Dev nD) (t : Fin cfg1.N) (d) : (dat V c).before 1 t d = blockAt V c 1 t :=
  ((dat V c).before_in_eq_fetched 1 rfl (fun _ => rfl) (fun _ _ _ => rfl)
      (fun t => by rw [after_k]; unfold Dat.blockOf blockAt; rw [dat_A]; try rfl) t d).trans
    (by unfold Dat.fetched Dat.blockOf blockAt; rw [dat_A]; try rfl)
theorem before_v (c : Dev nD) (t : Fin cfg1.N) (d) : (dat V c).before 2 t d = blockAt V c 2 t :=
  ((dat V c).before_in_eq_fetched 2 rfl (fun _ => rfl) (fun _ _ _ => rfl)
      (fun t => by rw [after_v]; unfold Dat.blockOf blockAt; rw [dat_A]; try rfl) t d).trans
    (by unfold Dat.fetched Dat.blockOf blockAt; rw [dat_A]; try rfl)

/-! ## The obligation at a point -/

def bodyPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mv t) fullShare ((dat V c).before 2 t d))
    ∗ (∃ d, owns (c : Thread nD τ) (mo t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
/-- The body at any point. The inputs' buffers hold their blocks; the point's number modulo 4 says which case it is in;
    the invariant hands the body the three scratch buffers at what the point before left (at anything before the first
    point) and takes them back at this point's state; where the output block is idle its buffer is handed back as it was
    found, elsewhere it holds the point's store; the other kernel's buffers, the generator register and the core's dues pass
    through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mq t) fullShare ((dat V c).after 0 t) from by
    unfold Dat.leavesExact; rw [live_q t], after_q]
  rw [show (dat V c).leavesExact 1 t = owns (c : Thread nD τ) (mk t) fullShare ((dat V c).after 1 t) from by
    unfold Dat.leavesExact; rw [live_k t], after_k]
  rw [show (dat V c).leavesExact 2 t = owns (c : Thread nD τ) (mv t) fullShare ((dat V c).after 2 t) from by
    unfold Dat.leavesExact; rw [live_v t], after_v]
  have hN : t.val < 32 := lt_of_lt_of_eq t.isLt N_1
  by_cases h : t.val % 4 = 0
  · rw [Dat.leavesExact_idle (dat V c) 3 t (idle_o t (caseA t h).2.2.2) (noFlush_o t (caseA t h).2.2.2)]
    rw [outsAt_A V c t h]
    unfold stA; dsimp only
    by_cases hz : t.val = 0
    · rw [PhiS_castSucc V c t, PhiS_zero V c _ _ hz, PhiA_eq]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((rA V c t h).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [Ho1 Ho2 Ho3 Ho4 Ho5 HS0 HS1 HS2 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [HS0]
        · unfold owns; iexists _; isplitr
          swap; · iexact HS0
          ipureintro; exact View.read_writes_of_cover _ _ _ _ _ (covA_max _ _ _ _ _ _ _ _ _ _ _ _ _ _ _ _ _ _ _ _ _ _ _)
        isplitl [HS1]
        · unfold owns; iexists _; isplitr
          swap; · iexact HS1
          ipureintro; exact View.read_writes_of_cover _ _ _ _ _ (covA_den _ _ _ _ _ _ _ _ _ _ _ _ _ _ _ _ _ _ _ _ _ _ _)
        · unfold owns; iexists _; isplitr
          swap; · iexact HS2
          ipureintro; exact View.read_writes_of_cover _ _ _ _ _ (covA_num _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((rA V c t h).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [Ho1 Ho2 Ho3 Ho4 Ho5 HS0 HS1 HS2 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [HS0]
        · unfold owns; iexists _; isplitr
          swap; · iexact HS0
          ipureintro; exact View.read_writes_of_cover _ _ _ _ _ (covA_max _ _ _ _ _ _ _ _ _ _ _ _ _ _ _ _ _ _ _ _ _ _ _)
        isplitl [HS1]
        · unfold owns; iexists _; isplitr
          swap; · iexact HS1
          ipureintro; exact View.read_writes_of_cover _ _ _ _ _ (covA_den _ _ _ _ _ _ _ _ _ _ _ _ _ _ _ _ _ _ _ _ _ _ _)
        · unfold owns; iexists _; isplitr
          swap; · iexact HS2
          ipureintro; exact View.read_writes_of_cover _ _ _ _ _ (covA_num _ _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · by_cases h1 : t.val % 4 = 1
    · have hz : t.val ≠ 0 := by omega
      rw [show (dat V c).leavesExact 3 t = owns (c : Thread nD τ) (mo t) fullShare ((dat V c).after 3 t) from by
        unfold Dat.leavesExact; rw [live_o t (caseB t h1).2.2.2], after_o]
      rw [outsAt_B V c t h1]
      unfold stB; dsimp only
      rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((rB V c t h1 (outsAt V c (t.val - 1) (Nat.lt_of_le_of_lt (Nat.sub_le _ _) t.isLt))).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Ho1 Ho2 Ho3 Ho4 Ho5 HS0 HS1 HS2 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [HS0]; · iexact HS0
        isplitl [HS1]; · iexact HS1
        iexact HS2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covB_out _ _ _ _ _ _ _ _ _ _ _ _ _ _ _ _ _ _ _ _ _ _ _ _ _ _)
    · by_cases h2 : t.val % 4 = 2
      · have hz : t.val ≠ 0 := by omega
        have h := h2
        rw [Dat.leavesExact_idle (dat V c) 3 t (idle_o t (caseC t h).2.2.2) (noFlush_o t (caseC t h).2.2.2)]
        rw [outsAt_C V c t h]
        unfold stC; dsimp only
        rw [PhiS_castSucc V c t, PhiS_pos V c _ _ hz]
        iintro ⟨⟨⟨Ho1, Ho2, Ho3, Ho4, Ho5, HS0, HS1, HS2⟩, Hg⟩, Ho, ⟨%d0, H0⟩, ⟨%d1, H1⟩, ⟨%d2, H2⟩, ⟨%d3, H3⟩⟩
        iapply ((rC V c t h).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%e0, HS0⟩, ⟨%e1, HS1⟩, ⟨%e2, HS2⟩⟩
        isplitl [Ho1 Ho2 Ho3 Ho4 Ho5 HS0 HS1 HS2 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (covC_max _ _ _ _ _ _ _ _ _ _ _ _ _ _ _ _ _ _ _ _ _ _ _)
          isplitl [HS1]
          · unfold owns; iexists _; isplitr
            swap; · iexact HS1
            ipureintro; exact View.read_writes_of_cover _ _ _ _ _ (covC_den _ _ _ _ _ _ _ _ _ _ _ _ _ _ _ _ _ _ _ _ _ _ _)
          · unfold owns; iexists _; isplitr
            swap; · iexact HS2
            ipureintro; exact View.read_writes_of_cover _ _ _ _ _ (covC_num _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3
      · have h3 : t.val % 4 = 3 := by omega
        have hz : t.val ≠ 0 := by omega
        rw [show (dat V c).leavesExact 3 t = owns (c : Thread nD τ) (mo t) fullShare ((dat V c).after 3 t) from by
          unfold Dat.leavesExact; rw [live_o t (caseD t h3).2.2.2], after_o]
        rw [outsAt_D V c t h3]
        unfold stD; dsimp only
        rw [PhiS_castSucc V c t, PhiS_pos V c _ _ hz]
        iintro ⟨⟨⟨Ho1, Ho2, Ho3, Ho4, Ho5, HS0, HS1, HS2⟩, Hg⟩, Ho, ⟨%d0, H0⟩, ⟨%d1, H1⟩, ⟨%d2, H2⟩, ⟨%d3, H3⟩⟩
        iapply ((rD V c t h3 (outsAt V c (t.val - 1) (Nat.lt_of_le_of_lt (Nat.sub_le _ _) t.isLt))).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [Ho1 Ho2 Ho3 Ho4 Ho5 HS0 HS1 HS2 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (covD_max _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (covD_den _ _ _ _ _ _ _ _ _ _ _ _ _ _ _ _ _ _ _ _ _ _ _ _ _ _)
          · unfold owns; iexists _; isplitr
            swap; · iexact HS2
            ipureintro; exact View.read_writes_of_cover _ _ _ _ _ (covD_num _ _ _ _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (covD_out _ _ _ _ _ _ _ _ _ _ _ _ _ _ _ _ _ _ _ _ _ _ _ _ _ _)

/-- The pipeline's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch buffers' named contents are forgotten. -/
theorem phi_out (c : Dev nD) : (dat V c).Φ (Fin.last cfg1.N) ⊢ Pipeline.ΦA spec1 c := by
  have hne : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨Ho1, Ho2, Ho3, Ho4, Ho5, HS0, HS1, HS2⟩, Hg⟩
  isplitr [Hg]
  swap; · iexact Hg
  isplitl [Ho1]; · iexact Ho1
  isplitl [Ho2]; · iexact Ho2
  isplitl [Ho3]; · iexact Ho3
  isplitl [Ho4]; · iexact Ho4
  isplitl [Ho5]; · iexact Ho5
  isplitl [HS0]; · iexists _; iexact HS0
  isplitl [HS1]; · iexists _; iexact HS1
  iexists _; iexact HS2

end Cert.KernelIdeal.Attn

end
-- ==== Proof.WholeIdeal.lean ====
/-
  The whole program: one host operation (the three weight arrays laid side by side), then the two kernel regions.

  Between two items a core holds every unscoped buffer at a known valuation: the launch contents; after the host operation;
  after the first region, whose output array holds what its write-backs leave; after the second, whose output array holds
  what its write-backs leave and whose three input windows, all on the first region's output array, leave that array as it
  was. On entering the second region the array's full share is dealt left / right-left / right-right among the three
  windows; on leaving, the three shares, still at the entry contents, are joined again.
  The run ends with every unscoped buffer at the last valuation: the four arguments as launched, and the result array at
  what the second region's write-backs leave.
-/
import proofs.«108889_j8942121910998_2_alg».proof.Proof.Region0Ideal
import proofs.«108889_j8942121910998_2_alg».proof.Proof.Region1DataIdeal
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents between items -/

/-- At launch. -/
abbrev W0 : Dev nD → Valuation τ sig (Elt F) := fun c b => m (c, b)
/-- After the host operation. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (Proj.dat (V1 m) c).arrAt w cfg0.N
theorem W2_arr (c : Dev nD) (w : Fin cfg0.W) :
    W2 m c (Proc.devRef .tc (Pipeline.arrRef spec0 w)) = (Proj.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Proj.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- What the second region leaves in the result array. -/
def result (c : Dev nD) : Buf (Elt F) ((c : Thread nD τ).loc main_v2) := (Attn.dat (V2 m) c).arrAt 3 cfg1.N

/-- After the second region: the result array at what the pipeline leaves, every other buffer as entered. -/
def W3 (c : Dev nD) : Valuation τ sig (Elt F) := Function.update (W2 m c) (Proc.devRef .tc main_v2) (result m c)
abbrev V3 : (c : Dev nD) → (b : Ref sig .tc) → Buf (Elt F) ((c : Thread nD τ).loc b) := fun c b => W3 m c b
theorem W3_result (c : Dev nD) : W3 m c (Proc.devRef .tc main_v2) = result m c := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The arguments end as launched -/

theorem W1_of_not_written (c : Dev nD) (b : Ref sig .tc) (hb : b ≠ main_v0) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Proj.dat (V1 m) c).arrAt_in 0 rfl _).trans (Proj.dat_A (V1 m) c 0))
    _ = W0 m c (Proc.devRef .tc main_arg0) := W1_of_not_written m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl

/-! ## The second region's arrays: one array under three windows -/

/-- The distinct buffers behind the second region's windows are the first region's output array and the result array. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- A core's unscoped buffers are the two buffers behind the second region's windows and the rest. -/
theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ (cfgs := cfgs) (p := 1) winFacts₀1.arr_unscoped c V

variable (V : (c : Dev nD) → (b : Ref sig .tc) → Buf (Elt F) ((c : Thread nD τ).loc b))

theorem share_q (c : Dev nD) : (Attn.dat V c).share 0 = fullShare.left := by
  unfold Dat.share; rw [if_neg (by decide)]; rfl
theorem share_k (c : Dev nD) : (Attn.dat V c).share 1 = fullShare.right.left := by
  unfold Dat.share; rw [if_neg (by decide)]; rfl
theorem share_v (c : Dev nD) : (Attn.dat V c).share 2 = fullShare.right.right := by
  unfold Dat.share; rw [if_neg (by decide)]; rfl
theorem share_o (c : Dev nD) : (Attn.dat V c).share 3 = fullShare := by
  unfold Dat.share; rw [if_pos (by decide)]

/-- The second region's arrays, window by window: three shares of one array, and the result array outright. -/
theorem arrays1_eq (c : Dev nD) (G : (w : Fin cfg1.W) → Buf (Elt F) ((cfg1.win w).arr.view.loc (c : Thread nD τ))) :
    ((Attn.dat V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1, (arr_whole1 0).set_eq_univ, (arr_whole1 3).set_eq_univ, share_q, share_k, share_v, share_o]

/-! ## Entering and leaving the second region -/

/-- The buffers no window of the second region stages are the same before and after it: only the result array changes. -/
theorem rest1_eq (c : Dev nD) :
    (Pipeline.unscopedRest (Ix := Unit) (Name := ℕ) (U := UR sig nD τ) (Lvl := ℕ) spec1 c (V3 m c) : sProp 𝕄)
      = Pipeline.unscopedRest spec1 c (V2 m c) := by
  unfold Pipeline.unscopedRest
  refine bigSep_congr fun b hb => ?_
  have hne : b ≠ main_v2 := fun h => (Finset.mem_sdiff.mp hb).2 (h ▸ Finset.mem_image.mpr ⟨3, Finset.mem_univ _, rfl⟩)
  rw [show V3 m c b = V2 m c b from W3_of_ne m c b hne]

/-- Entering: every unscoped buffer at the contents the first region left gives the second region's arrays at their
    entry contents — the shared array's full share dealt among its three windows — and the buffers that bypass it. -/
theorem enter1 (c : Dev nD) :
    (StableHlo.held (c : Thread nD τ) (Pipeline.ucRefs τ sig) (W2 m c) : sProp 𝕄)
      ⊢ iprop((Attn.dat (V2 m) c).arrays ((Attn.dat (V2 m) c).arrAt · 0)
          ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c),
    split1 c (V2 m c), arrBufs1_eq, arrays1_eq]
  iintro ⟨⟨H1, H2⟩, Hrest⟩
  isplitr [Hrest]
  swap; · iexact Hrest
  ihave H1' := (pointsTo_share (PosShare.mem_left_op_right fullShare)).1 $$ H1
  icases H1' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  iexact H2

/-- Leaving: the arrays at what the pipeline leaves — the three input windows' array as entered, its shares joined
    again; the result array at its write-backs — with the bypassing buffers give every unscoped buffer at the contents
    after the second region. -/
theorem leave1 (c : Dev nD) :
    iprop((Attn.dat (V2 m) c).arrays ((Attn.dat (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    split1 c (V3 m c), arrBufs1_eq, arrays1_eq, rest1_eq,
    (Attn.dat (V2 m) c).arrAt_in 0 rfl cfg1.N, (Attn.dat (V2 m) c).arrAt_in 1 rfl cfg1.N, (Attn.dat (V2 m) c).arrAt_in 2 rfl cfg1.N,
    show V3 m c main_v1 = V2 m c main_v1 from W3_of_ne m c main_v1 (by decide),
    show V3 m c main_v2 = result m c from W3_result m c]
  iintro ⟨⟨Hl, Hrl, Hrr, H2⟩, Hrest⟩
  isplitr [Hrest]
  swap; · iexact Hrest
  isplitr [H2]
  swap; · iexact H2
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m) c
  | ⟨1, _⟩ => fun c => Attn.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at the contents after the host operation,
    left at the contents with its output array written. Its three arrays are distinct buffers. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents the first region left,
    left at the contents with the result array written. Its three input windows share one array (`enter1`, `leave1`);
    the generator register and the scoped buffers it does not stage go into its invariant and come back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.phi_in (V2 m) c)
    unfold Pipeline.ΦA
    iintro ⟨Hp, -, Hr⟩
    isplitl [Hr]; · iexact Hr
    iexact Hp
  hout c := by
    rw [Pipeline.ownSems0_none]
    refine BIBase.Entails.trans (Attn.phi_out (V2 m) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (leave1 m c)
        isplitl [Ha]; · iexact Ha
        iexact Hrest
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state holds the result array at what the second region's write-backs leave and the four
    argument arrays as launched. -/
theorem run : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_result m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c)⟩)

/-- The frame: the run with the statement about the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Whole

end
-- ==== Proof.AttnSpec.lean ====
/-
  Causal softmax attention over projected rows, index by index.

  The inputs are a batch of 8 sequences of 2048 rows with 1024 features, `x`, and three matrices `Wq`, `Wk`, `Wv` taking
  1024 features to 128. Every number is an extended real and every operation the exact one. A row `i` of sequence `b` is
  projected to a query, a key and a value (`proj`); the score of row `i` against row `j` is the inner product of `i`'s
  query with `j`'s key, times a fixed scale (`score`); row `i` sees the rows `j ≤ i` and no others (`masked`: a hidden score
  is minus infinity); the scores a row sees are shifted by their maximum (`rowMax`), exponentiated (`expo`: a hidden
  entry becomes 0), and divided by their sum (`rowSum`); the result row is the combination of the value rows with
  these weights (`out`). `G` is the whole result array as one function of the four input arrays.

  The scale is the 32-bit float word `0x3DB504F3` read as the real it denotes (about 128 ^ (-1/2)); nothing here depends
  on its value, so it is kept as the word.
-/
import Idealize.ShloMosaic.PureOps.Ideal
import Idealize.ShloMosaic.Lib.ValueIdx

noncomputable section

open scoped BigOperators

namespace Cert.Attn

open Idealize.ShloMosaic Idealize.ShloMosaic.ValueIdx

/-- Row `i` of sequence `b` projected by the matrix `W`, component `e`: `∑ c, x[b, i, c] · W[c, e]`. -/
def proj (x : (⟨3, ![8, 2048, 1024]⟩ : Shape).Idx → EReal) (W : (⟨2, ![1024, 128]⟩ : Shape).Idx → EReal)
    (b : Fin 8) (i : Fin 2048) (e : Fin 128) : EReal :=
  ∑ c : Fin 1024, x (ix3 b i c) * W (ix2 c e)

/-- The scaled score of row `i` against row `j` in sequence `b`: the inner product of `i`'s query with `j`'s key, times
    the scale word. -/
def score (x : (⟨3, ![8, 2048, 1024]⟩ : Shape).Idx → EReal) (Wq Wk : (⟨2, ![1024, 128]⟩ : Shape).Idx → EReal)
    (b : Fin 8) (i j : Fin 2048) : EReal :=
  (∑ e : Fin 128, proj x Wq b i e * proj x Wk b j e) * Ideal.ofBits .f32 0x3DB504F3#32

/-- The causal mask: row `i` sees row `j` exactly when `j ≤ i`; a hidden score is minus infinity. -/
def masked (x : (⟨3, ![8, 2048, 1024]⟩ : Shape).Idx → EReal) (Wq Wk : (⟨2, ![1024, 128]⟩ : Shape).Idx → EReal)
    (b : Fin 8) (i j : Fin 2048) : EReal :=
  if j.val ≤ i.val then score x Wq Wk b i j else ⊥

/-- The largest masked score of row `i`. -/
def rowMax (x : (⟨3, ![8, 2048, 1024]⟩ : Shape).Idx → EReal) (Wq Wk : (⟨2, ![1024, 128]⟩ : Shape).Idx → EReal)
    (b : Fin 8) (i : Fin 2048) : EReal :=
  Finset.univ.sup fun j : Fin 2048 => masked x Wq Wk b i j

/-- The exponential of a masked score shifted by its row's maximum; the exponential of minus infinity is 0. -/
def expo (x : (⟨3, ![8, 2048, 1024]⟩ : Shape).Idx → EReal) (Wq Wk : (⟨2, ![1024, 128]⟩ : Shape).Idx → EReal)
    (b : Fin 8) (i j : Fin 2048) : EReal :=
  Ideal.exp (masked x Wq Wk b i j - rowMax x Wq Wk b i)

/-- The sum of row `i`'s exponentials. -/
def rowSum (x : (⟨3, ![8, 2048, 1024]⟩ : Shape).Idx → EReal) (Wq Wk : (⟨2, ![1024, 128]⟩ : Shape).Idx → EReal)
    (b : Fin 8) (i : Fin 2048) : EReal :=
  ∑ j : Fin 2048, expo x Wq Wk b i j

/-- Component `d` of result row `i`: the value rows combined with the normalised exponentials,
    `∑ j, (expo[i, j] / rowSum[i]) · v[j, d]`. -/
def out (x : (⟨3, ![8, 2048, 1024]⟩ : Shape).Idx → EReal) (Wq Wk Wv : (⟨2, ![1024, 128]⟩ : Shape).Idx → EReal)
    (b : Fin 8) (i : Fin 2048) (d : Fin 128) : EReal :=
  ∑ j : Fin 2048, Ideal.div (expo x Wq Wk b i j) (rowSum x Wq Wk b i) * proj x Wv b j d

/-- The result array `[8, 2048, 128]` as one function of the four input arrays. -/
def G (x : (⟨3, ![8, 2048, 1024]⟩ : Shape).Idx → EReal) (Wq Wk Wv : (⟨2, ![1024, 128]⟩ : Shape).Idx → EReal) :
    (⟨3, ![8, 2048, 128]⟩ : Shape).Idx → EReal :=
  fun t => out x Wq Wk Wv (t 0) (t 1) (t 2)

/-- The result at the index with coordinates `(b, i, d)` is `out` at those coordinates. -/
theorem G_ix3 (x : (⟨3, ![8, 2048, 1024]⟩ : Shape).Idx → EReal) (Wq Wk Wv : (⟨2, ![1024, 128]⟩ : Shape).Idx → EReal)
    (b : Fin 8) (i : Fin 2048) (d : Fin 128) : G x Wq Wk Wv (ix3 b i d) = out x Wq Wk Wv b i d := rfl

/-- A hidden entry: above the diagonal the masked score is minus infinity. -/
theorem masked_of_lt (x : (⟨3, ![8, 2048, 1024]⟩ : Shape).Idx → EReal) (Wq Wk : (⟨2, ![1024, 128]⟩ : Shape).Idx → EReal)
    (b : Fin 8) {i j : Fin 2048} (h : i.val < j.val) : masked x Wq Wk b i j = ⊥ :=
  if_neg (Nat.not_le.mpr h)

/-- A visible entry: on and below the diagonal the masked score is the score. -/
theorem masked_of_le (x : (⟨3, ![8, 2048, 1024]⟩ : Shape).Idx → EReal) (Wq Wk : (⟨2, ![1024, 128]⟩ : Shape).Idx → EReal)
    (b : Fin 8) {i j : Fin 2048} (h : j.val ≤ i.val) : masked x Wq Wk b i j = score x Wq Wk b i j :=
  if_pos h

end Cert.Attn

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Region0Value.lean ====
/-
  The first kernel region's output array, index by index, over the extended reals.

  The region multiplies each 1024-row tile of `x` (one per batch and row tile, sixteen in all) by the whole 1024×384 array
  of weights — the three 1024×128 weight arrays laid side by side by the one host operation before the region — and writes
  the product over the matching 1024×384 tile of its output. So the output array `[8, 2048, 384]` ends holding, at batch
  `b`, row `i`, column `e'`, the sum over `k` of `x[b, i, k] · W[k, e']`; and since columns 0–127 of `W` are `Wq`, 128–255
  `Wk` and 256–383 `Wv`, the three column bands of the output are the three projections of the rows of `x`.

  In order: the stored block read at a row and a column (a shape cast, a product into the zero matrix, a shape cast; the
  changes of float format are the identity); the array `allProj` the output ends holding; the printed index maps compared
  over the grid; each input block read where the output block's rectangle says; what a point writes back is its block of
  `allProj`; the blocks cover the array; the host's concatenation read at a column of each band; the three theorems.
-/
import proofs.«108889_j8942121910998_2_alg».proof.Proof.WholeIdeal
import proofs.«108889_j8942121910998_2_alg».proof.Proof.AttnSpec
import proofs.«108889_j8942121910998_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat)

/-! ## The stored block at a row and a column -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block the body stores, at row `q` and column `o`: the sum over `k` of the `x` tile at `(q, k)` times the weight
    array at `(k, o)`. The leading unit axis is dropped and put back by shape casts, the product is accumulated into the
    zero matrix, and every change of float format is the identity on extended reals. -/
theorem product_apply (x0 : FVec Ideal S1x1024x1024 .f32) (x1 : FVec Ideal S1024x384 .f32)
    (u : Fin 1) (q : Fin 1024) (o : Fin 384) :
    k0_pay1 (F := Ideal) x0 x1 (ix3 u q o) = ∑ k : Fin 1024, x0 (ix3 (0 : Fin 1) q k) * x1 (ix2 k o) := by
  unfold k0_pay1
  rw [shapeCast_ab_1ab_apply, truncf_apply]
  refine (Cert.PointConv.plainMatmul_zero_apply dot_S1024x1024_S1024x384_S1024x384_1_0_0_1_n_n_wf none _ _ q o).trans ?_
  refine Finset.sum_congr rfl fun k _ => ?_
  rw [truncf_apply, truncf_apply, shapeCast_1ab_ab_apply, shapeCast_self]

/-! ## The array the output ends holding -/

/-- Every row of `x` against every column of the weight array: at `(b, i, e')` the sum over `k` of
    `X (b, i, k) * W (k, e')`. -/
def allProj (X : S8x2048x1024.Idx → EReal) (W : S1024x384.Idx → EReal) : S8x2048x384.Idx → EReal :=
  fun j => ∑ k : Fin 1024, X (ix3 (j 0 : Fin 8) (j 1 : Fin 2048) k) * W (ix2 k (j 2 : Fin 384))

theorem allProj_ix3 (X : S8x2048x1024.Idx → EReal) (W : S1024x384.Idx → EReal) (b : Fin 8) (i : Fin 2048) (e' : Fin 384) :
    allProj X W (ix3 b i e') = ∑ k : Fin 1024, X (ix3 b i k) * W (ix2 k e') := rfl

variable (V : (c : Dev nD) → (b : Ref sig .tc) → Buf (Elt Ideal) ((c : Thread nD τ).loc b))

/-! ## The printed index maps over the grid -/

/-- Decided over the sixteen points: the `x` window moves with the output window on the batch and row-tile axes and
    stays at block 0 on the feature axis; the weight window never moves; the output window stays at block 0 on the
    column axis, and its batch and row-tile block indices at point `t` are `t / 2` and `t % 2`. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0 ∧ win0_1.index t (1 : Fin 2) = 0
    ∧ win0_2.index t (2 : Fin 3) = 0
    ∧ win0_2.index t (0 : Fin 3) = t.val / 2 ∧ win0_2.index t (1 : Fin 3) = t.val % 2 :=
  (by decide +kernel : ∀ t : Fin grid0.N, _)

/-! ## Each input block read where the output block's rectangle says -/

/-- The `x` block at point `t`, at row `q` and feature `k`, is `x` at the batch and row the output block's rectangle
    gives that row: the batch is the output's batch block index, the row its row-tile block index times 1024 plus `q`. -/
theorem xBlock_apply (c : Dev nD) (t : Fin cfg0.N) (u : Fin 1) (q k : Fin 1024) (b : Fin 8) (i : Fin 2048)
    (hb : b.val = win0_2.index t (0 : Fin 3)) (hi : i.val = win0_2.index t (1 : Fin 3) * 1024 + q.val) :
    (Proj.blockAt V c 0 t : S1x1024x1024.Idx → EReal) (ix3 u q k) = (V c main_arg0 : S8x2048x1024.Idx → EReal) (ix3 b i k) := by
  obtain ⟨e0, e1, e2, -⟩ := index_facts t
  have hu : u.val = 0 := by omega
  unfold Proj.blockAt
  rw [View.read_apply]
  show (V c main_arg0 : S8x2048x1024.Idx → EReal) _ = (V c main_arg0 : S8x2048x1024.Idx → EReal) _
  congr 1
  funext a
  apply Fin.ext
  match a with
  | ⟨0, _⟩ => show win0_0.index t (0 : Fin 3) * 1 + 1 * u.val = b.val; omega
  | ⟨1, _⟩ => show win0_0.index t (1 : Fin 3) * 1024 + 1 * q.val = i.val; omega
  | ⟨2, _⟩ => show win0_0.index t (2 : Fin 3) * 1024 + 1 * k.val = k.val; omega

/-- The weight block at any point is the whole weight array. -/
theorem wBlock_apply (c : Dev nD) (t : Fin cfg0.N) (k : Fin 1024) (o e' : Fin 384) (he : e'.val = o.val) :
    (Proj.blockAt V c 1 t : S1024x384.Idx → EReal) (ix2 k o) = (V c main_v0 : S1024x384.Idx → EReal) (ix2 k e') := by
  obtain ⟨-, -, -, e3, e4, -⟩ := index_facts t
  unfold Proj.blockAt
  rw [View.read_apply]
  show (V c main_v0 : S1024x384.Idx → EReal) _ = (V c main_v0 : S1024x384.Idx → EReal) _
  congr 1
  funext a
  apply Fin.ext
  match a with
  | ⟨0, _⟩ => show win0_1.index t (0 : Fin 2) * 1024 + 1 * k.val = k.val; omega
  | ⟨1, _⟩ => show win0_1.index t (1 : Fin 2) * 384 + 1 * o.val = e'.val; omega

/-! ## What a point writes back, and the cover -/

/-- What point `t` writes back is its block of `allProj` of `x` and the weight array as the region finds them: the one
    store leaves the product of the two loaded blocks, and each block is its array read where the output block's
    rectangle says. -/
theorem flushed_eq (c : Dev nD) (t : Fin cfg0.N) :
    (Proj.dat V c).flushed 2 t
      = ((cfg0.win 2).blk t).view.read (Elt Ideal) (allProj (V c main_arg0) (V c main_v0)) := by
  show (cfg0.win 2).cut (grid0.coords t) ((Proj.dat V c).after 2 t) = _
  rw [Proj.after_o]
  unfold Proj.outBlock
  rw [View.canon_unit_zero zeros3]
  simp only [View.ld_unit_zero (S := S1x1024x1024) zeros3, View.ld_unit_zero (S := S1024x384) zeros2]
  funext j
  obtain ⟨u, q, o, rfl⟩ : ∃ (u : Fin 1) (q : Fin 1024) (o : Fin 384), j = ix3 u q o := ⟨j 0, j 1, j 2, eq_ix3 j⟩
  show k0_pay1 (F := Ideal) (Proj.blockAt V c 0 t) (Proj.blockAt V c 1 t) (ix3 u q o)
    = allProj (V c main_arg0) (V c main_v0) (((cfg0.win 2).blk t).view.emb (ix3 u q o))
  refine (product_apply (Proj.blockAt V c 0 t) (Proj.blockAt V c 1 t) u q o).trans ?_
  obtain ⟨-, -, -, -, -, e5, -⟩ := index_facts t
  have hu : u.val = 0 := by omega
  unfold allProj
  refine Finset.sum_congr rfl fun k _ => ?_
  refine congrArg₂ (· * ·) ?_ ?_
  · refine xBlock_apply V c t 0 q k _ _ ?_ ?_
    · show win0_2.index t (0 : Fin 3) * 1 + 1 * u.val = win0_2.index t (0 : Fin 3); omega
    · show win0_2.index t (1 : Fin 3) * 1024 + 1 * q.val = win0_2.index t (1 : Fin 3) * 1024 + q.val; omega
  · refine wBlock_apply V c t k o _ ?_
    show win0_2.index t (2 : Fin 3) * 384 + 1 * o.val = o.val; omega

/-- An index of the output array is in point `t`'s block iff each coordinate is in the block's range on its axis. -/
theorem mem_block (t : Fin cfg0.N) (i : S8x2048x384.Idx) :
    i ∈ ((cfg0.win 2).blk t).view.set
      ↔ ∀ a : Fin 3, win0_2.index t a * S1x1024x384.size a ≤ (i a).val
          ∧ (i a).val < win0_2.index t a * S1x1024x384.size a + S1x1024x384.size a := by
  show i ∈ ((View.whole main_v1).slice (win0_2.rect t)).set ↔ _
  rw [View.set_slice_whole, Rect.mem_set_unit]
  exact Iff.rfl

/-- Every index of the output array is in some point's block: row `i` of batch `b` in that of point `2 b + i / 1024`. -/
theorem cover (i : S8x2048x384.Idx) :
    ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 384 := (i 2).isLt
  have hN : cfg0.N = 16 := N_0
  have ht : 2 * (i 0).val + (i 1).val / 1024 < cfg0.N := by rw [hN]; omega
  obtain ⟨-, -, -, -, -, e5, e6, e7⟩ := index_facts ⟨2 * (i 0).val + (i 1).val / 1024, ht⟩
  have e6' : win0_2.index ⟨2 * (i 0).val + (i 1).val / 1024, ht⟩ (0 : Fin 3) = (2 * (i 0).val + (i 1).val / 1024) / 2 := e6
  have e7' : win0_2.index ⟨2 * (i 0).val + (i 1).val / 1024, ht⟩ (1 : Fin 3) = (2 * (i 0).val + (i 1).val / 1024) % 2 := e7
  refine ⟨⟨2 * (i 0).val + (i 1).val / 1024, ht⟩, flush0_2 _, ?_⟩
  rw [mem_block]
  intro a
  match a with
  | ⟨0, _⟩ =>
    show win0_2.index ⟨2 * (i 0).val + (i 1).val / 1024, ht⟩ (0 : Fin 3) * 1 ≤ (i 0).val
      ∧ (i 0).val < win0_2.index ⟨2 * (i 0).val + (i 1).val / 1024, ht⟩ (0 : Fin 3) * 1 + 1
    omega
  | ⟨1, _⟩ =>
    show win0_2.index ⟨2 * (i 0).val + (i 1).val / 1024, ht⟩ (1 : Fin 3) * 1024 ≤ (i 1).val
      ∧ (i 1).val < win0_2.index ⟨2 * (i 0).val + (i 1).val / 1024, ht⟩ (1 : Fin 3) * 1024 + 1024
    omega
  | ⟨2, _⟩ =>
    show win0_2.index ⟨2 * (i 0).val + (i 1).val / 1024, ht⟩ (2 : Fin 3) * 384 ≤ (i 2).val
      ∧ (i 2).val < win0_2.index ⟨2 * (i 0).val + (i 1).val / 1024, ht⟩ (2 : Fin 3) * 384 + 384
    omega

/-- The output array after the region is `allProj` of `x` and the weight array as the region finds them. -/
theorem final (c : Dev nD) : (Proj.dat V c).arrAt 2 cfg0.N = allProj (V c main_arg0) (V c main_v0) :=
  (Proj.dat V c).arrAt_eq_of_cover 2 (allProj (V c main_arg0) (V c main_v0)) (fun t _ => flushed_eq V c t) cover

/-! ## The weight array: the host's concatenation, read at a column of each band -/

variable (m : (ℓ : Loc nD τ sig) → Buf (Elt Ideal) ℓ)

/-- The weight array the region finds is the three weight arguments laid side by side along the column axis. -/
theorem weights_eq (c : Dev nD) :
    (Whole.V1 m c main_v0 : S1024x384.Idx → EReal)
      = concatenate S1024x384 1
          [⟨S1024x128, (m ((c.tc : Thread nD τ).loc main_arg1) : S1024x128.Idx → EReal)⟩,
           ⟨S1024x128, (m ((c.tc : Thread nD τ).loc main_arg2) : S1024x128.Idx → EReal)⟩,
           ⟨S1024x128, (m ((c.tc : Thread nD τ).loc main_arg3) : S1024x128.Idx → EReal)⟩]
          concatenates_S1024x128_S1024x128_S1024x128_S1024x384_d1 := by
  dsimp only [Whole.V1, Whole.W1, hostOps0]
  after_results
  rfl

/-- The `x` array the region finds is the first argument: the host operation does not write it. -/
theorem x_eq (c : Dev nD) : Whole.V1 m c main_arg0 = m ((c.tc : Thread nD τ).loc main_arg0) :=
  Whole.W1_of_not_written m c main_arg0 (by decide)

/-- Three arrays of 128 columns side by side, at a column of the first band: the first array there. -/
theorem bands_q (A B C : S1024x128.Idx → EReal)
    (h : Shape.Concatenates (([⟨S1024x128, A⟩, ⟨S1024x128, B⟩, ⟨S1024x128, C⟩] : List ((s : Shape) × (s.Idx → EReal))).map (·.1)) S1024x384 1)
    (k : Fin 1024) (e : Fin 128) (e' : Fin 384) (he : e'.val = e.val) :
    concatenate S1024x384 1 [⟨S1024x128, A⟩, ⟨S1024x128, B⟩, ⟨S1024x128, C⟩] h (ix2 k e') = A (ix2 k e) :=
  concatenate_apply_piece (1 : Fin 2) _ h (ix2 k e') 0 (by show (0 : Nat) < 3; omega) S1024x128 A rfl rfl 0 rfl (ix2 k e)
    (fun b hb => by
      match b with
      | ⟨0, _⟩ => rfl
      | ⟨1, _⟩ => exact absurd rfl hb)
    (by show 0 + e.val = e'.val; omega)

/-- At a column of the second band: the second array, 128 columns back. -/
theorem bands_k (A B C : S1024x128.Idx → EReal)
    (h : Shape.Concatenates (([⟨S1024x128, A⟩, ⟨S1024x128, B⟩, ⟨S1024x128, C⟩] : List ((s : Shape) × (s.Idx → EReal))).map (·.1)) S1024x384 1)
    (k : Fin 1024) (e : Fin 128) (e' : Fin 384) (he : e'.val = 128 + e.val) :
    concatenate S1024x384 1 [⟨S1024x128, A⟩, ⟨S1024x128, B⟩, ⟨S1024x128, C⟩] h (ix2 k e') = B (ix2 k e) :=
  concatenate_apply_piece (1 : Fin 2) _ h (ix2 k e') 1 (by show (1 : Nat) < 3; omega) S1024x128 B rfl rfl 128 rfl (ix2 k e)
    (fun b hb => by
      match b with
      | ⟨0, _⟩ => rfl
      | ⟨1, _⟩ => exact absurd rfl hb)
    (by show 128 + e.val = e'.val; omega)

/-- At a column of the third band: the third array, 256 columns back. -/
theorem bands_v (A B C : S1024x128.Idx → EReal)
    (h : Shape.Concatenates (([⟨S1024x128, A⟩, ⟨S1024x128, B⟩, ⟨S1024x128, C⟩] : List ((s : Shape) × (s.Idx → EReal))).map (·.1)) S1024x384 1)
    (k : Fin 1024) (e : Fin 128) (e' : Fin 384) (he : e'.val = 256 + e.val) :
    concatenate S1024x384 1 [⟨S1024x128, A⟩, ⟨S1024x128, B⟩, ⟨S1024x128, C⟩] h (ix2 k e') = C (ix2 k e) :=
  concatenate_apply_piece (1 : Fin 2) _ h (ix2 k e') 2 (by show (2 : Nat) < 3; omega) S1024x128 C rfl rfl 256 rfl (ix2 k e)
    (fun b hb => by
      match b with
      | ⟨0, _⟩ => rfl
      | ⟨1, _⟩ => exact absurd rfl hb)
    (by show 256 + e.val = e'.val; omega)

/-! ## The output array's three column bands -/

/-- The first region's output array after the region: every row of the first argument against every column of the three
    weight arguments laid side by side. -/
theorem out_eq (c : Dev nD) :
    Whole.V2 m c main_v1
      = allProj (m ((c.tc : Thread nD τ).loc main_arg0))
          (concatenate S1024x384 1
            [⟨S1024x128, (m ((c.tc : Thread nD τ).loc main_arg1) : S1024x128.Idx → EReal)⟩,
             ⟨S1024x128, (m ((c.tc : Thread nD τ).loc main_arg2) : S1024x128.Idx → EReal)⟩,
             ⟨S1024x128, (m ((c.tc : Thread nD τ).loc main_arg3) : S1024x128.Idx → EReal)⟩]
            concatenates_S1024x128_S1024x128_S1024x128_S1024x384_d1) := by
  refine ((Whole.W2_arr m c 2).trans (final (Whole.V1 m) c)).trans ?_
  rw [x_eq m c, weights_eq m c]

/-- Columns 0–127 of the first region's output: at batch `b`, row `i`, column `e`, the projection of row `i` of
    sequence `b` by the query weights, `∑ k, x[b, i, k] · Wq[k, e]`. -/
theorem qkv_q (c : Dev nD) (b : Fin 8) (i : Fin 2048) (e : Fin 128) :
    (Whole.V2 m c main_v1 : S8x2048x384.Idx → EReal) (ix3 b i (⟨e.val, by omega⟩ : Fin 384))
      = Cert.Attn.proj (m ((c.tc : Thread nD τ).loc main_arg0)) (m ((c.tc : Thread nD τ).loc main_arg1)) b i e := by
  rw [out_eq m c, allProj_ix3]
  unfold Cert.Attn.proj
  show @Eq EReal _ _
  refine Finset.sum_congr rfl fun k _ => ?_
  rw [bands_q _ _ _ _ k e _ rfl]

/-- Columns 128–255: at column `128 + e`, the projection by the key weights, `∑ k, x[b, i, k] · Wk[k, e]`. -/
theorem qkv_k (c : Dev nD) (b : Fin 8) (i : Fin 2048) (e : Fin 128) :
    (Whole.V2 m c main_v1 : S8x2048x384.Idx → EReal) (ix3 b i (⟨128 + e.val, by omega⟩ : Fin 384))
      = Cert.Attn.proj (m ((c.tc : Thread nD τ).loc main_arg0)) (m ((c.tc : Thread nD τ).loc main_arg2)) b i e := by
  rw [out_eq m c, allProj_ix3]
  unfold Cert.Attn.proj
  show @Eq EReal _ _
  refine Finset.sum_congr rfl fun k _ => ?_
  rw [bands_k _ _ _ _ k e _ rfl]

/-- Columns 256–383: at column `256 + e`, the projection by the value weights, `∑ k, x[b, i, k] · Wv[k, e]`. -/
theorem qkv_v (c : Dev nD) (b : Fin 8) (i : Fin 2048) (e : Fin 128) :
    (Whole.V2 m c main_v1 : S8x2048x384.Idx → EReal) (ix3 b i (⟨256 + e.val, by omega⟩ : Fin 384))
      = Cert.Attn.proj (m ((c.tc : Thread nD τ).loc main_arg0)) (m ((c.tc : Thread nD τ).loc main_arg3)) b i e := by
  rw [out_eq m c, allProj_ix3]
  unfold Cert.Attn.proj
  show @Eq EReal _ _
  refine Finset.sum_congr rfl fun k _ => ?_
  rw [bands_v _ _ _ _ k e _ rfl]

end Cert.KernelIdeal.ProjValue

end
-- ==== Proof.Region1PiecesIdeal.lean ====
/-
  The second kernel region: the state after a point of each case, component by component, as the body's arithmetic —
  the skeleton's payloads — of the point's three input blocks and, where the case reads them, of the running maximum,
  denominator and numerator the point before left. A reset stores minus infinity, zero, zero first, so a case that begins
  with one reads those; every store and load goes through the whole buffer, so a load after a store reads the store's value.
-/
import proofs.«108889_j8942121910998_2_alg».proof.Proof.Region1DataIdeal
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by funext a; fin_cases a <;> rfl
theorem hz3 : (![0, 0, 0] : Fin 3 → ℕ) = fun _ => 0 := by funext a; fin_cases a <;> rfl

/-- A whole scratch buffer read back at the contents it was handed at. -/
theorem read_max (h : (scMax : Memref sig .tc .vmem S1024x1 .f32).IsWhole) (X : Vec F S1024x1 .f32) :
    View.read (Elt F) (View.whole cc1_scratch0) (h.unread X) = X := h.read_unread X
theorem read_den (h : (scDen : Memref sig .tc .vmem S1024x1 .f32).IsWhole) (X : Vec F S1024x1 .f32) :
    View.read (Elt F) (View.whole cc1_scratch1) (h.unread X) = X := h.read_unread X
theorem read_num (h : (scNum : Memref sig .tc .vmem S1024x128 .f32).IsWhole) (X : Vec F S1024x128 .f32) :
    View.read (Elt F) (View.whole cc1_scratch2) (h.unread X) = X := h.read_unread X

/-- The two grid words the masked tile's row and column numbers are computed from. -/
abbrev wq (t : Fin cfg1.N) : BitVec 32 := BitVec.ofNat 32 ((grid1.coords t) 1).val
abbrev wk (t : Fin cfg1.N) : BitVec 32 := BitVec.ofNat 32 ((grid1.coords t) 2).val

/-! ## Reset, then the masked diagonal tile -/

theorem stA_max (c : Dev nD) (t : Fin cfg1.N) (h : t.val % 4 = 0) :
    (stA V c t h).2.1 = k1_pay6 (k1_pay15 (wq t) (wk t) (blockAt V c 0 t) (blockAt V c 1 t) k1_pay1) := by
  unfold stA; dsimp only
  rw [View.read_writes_junk_eq_canon]
  unfold rA runA; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stA_den (c : Dev nD) (t : Fin cfg1.N) (h : t.val % 4 = 0) :
    (stA V c t h).2.2.1 = k1_pay18 (wq t) (wk t) (blockAt V c 0 t) (blockAt V c 1 t) k1_pay1 k1_pay2 := by
  unfold stA; dsimp only
  rw [View.read_writes_junk_eq_canon]
  unfold rA runA; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stA_num (c : Dev nD) (t : Fin cfg1.N) (h : t.val % 4 = 0) :
    (stA V c t h).2.2.2 = k1_pay5 (k1_pay17 (wq t) (wk t) (blockAt V c 0 t) (blockAt V c 1 t) k1_pay1) (k1_pay19 (wq t) (wk t) (blockAt V c 0 t) (blockAt V c 1 t) k1_pay1 k1_pay3) (blockAt V c 2 t) := by
  unfold stA; dsimp only
  rw [View.read_writes_junk_eq_canon]
  unfold rA runA; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]

/-! ## Reset, then the full tile below the diagonal -/

theorem stC_max (c : Dev nD) (t : Fin cfg1.N) (h : t.val % 4 = 2) :
    (stC V c t h).2.1 = k1_pay4 (k1_pay9 (blockAt V c 0 t) (blockAt V c 1 t) k1_pay1) := by
  unfold stC; dsimp only
  rw [View.read_writes_junk_eq_canon]
  unfold rC runC; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stC_den (c : Dev nD) (t : Fin cfg1.N) (h : t.val % 4 = 2) :
    (stC V c t h).2.2.1 = k1_pay12 (blockAt V c 0 t) (blockAt V c 1 t) k1_pay1 k1_pay2 := by
  unfold stC; dsimp only
  rw [View.read_writes_junk_eq_canon]
  unfold rC runC; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stC_num (c : Dev nD) (t : Fin cfg1.N) (h : t.val % 4 = 2) :
    (stC V c t h).2.2.2 = k1_pay13 (blockAt V c 0 t) (blockAt V c 1 t) k1_pay1 k1_pay3 (blockAt V c 2 t) := by
  unfold stC; dsimp only
  rw [View.read_writes_junk_eq_canon]
  unfold rC runC; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]

/-! ## Output only -/

theorem stB_out (c : Dev nD) (t : Fin cfg1.N) (h : t.val % 4 = 1) (p : St F) :
    (stB V c t h p).1 = k1_pay7 p.2.2.2 p.2.2.1 := by
  unfold stB; dsimp only
  rw [View.read_writes_junk_eq_canon]
  unfold rB runB; dsimp only
  sl_unfold_words
  rw [View.canon_cons_unit_zero hz3]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stB_max (c : Dev nD) (t : Fin cfg1.N) (h : t.val % 4 = 1) (p : St F) : (stB V c t h p).2.1 = p.2.1 := rfl
theorem stB_den (c : Dev nD) (t : Fin cfg1.N) (h : t.val % 4 = 1) (p : St F) : (stB V c t h p).2.2.1 = p.2.2.1 := rfl
theorem stB_num (c : Dev nD) (t : Fin cfg1.N) (h : t.val % 4 = 1) (p : St F) : (stB V c t h p).2.2.2 = p.2.2.2 := rfl

/-! ## The masked diagonal tile, then the output -/

theorem stD_max (c : Dev nD) (t : Fin cfg1.N) (h : t.val % 4 = 3) (p : St F) :
    (stD V c t h p).2.1 = k1_pay6 (k1_pay15 (wq t) (wk t) (blockAt V c 0 t) (blockAt V c 1 t) p.2.1) := by
  unfold stD; dsimp only
  rw [View.read_writes_junk_eq_canon]
  unfold rD runD; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stD_den (c : Dev nD) (t : Fin cfg1.N) (h : t.val % 4 = 3) (p : St F) :
    (stD V c t h p).2.2.1 = k1_pay18 (wq t) (wk t) (blockAt V c 0 t) (blockAt V c 1 t) p.2.1 p.2.2.1 := by
  unfold stD; dsimp only
  rw [View.read_writes_junk_eq_canon]
  unfold rD runD; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stD_num (c : Dev nD) (t : Fin cfg1.N) (h : t.val % 4 = 3) (p : St F) :
    (stD V c t h p).2.2.2 = k1_pay5 (k1_pay17 (wq t) (wk t) (blockAt V c 0 t) (blockAt V c 1 t) p.2.1) (k1_pay19 (wq t) (wk t) (blockAt V c 0 t) (blockAt V c 1 t) p.2.1 p.2.2.2) (blockAt V c 2 t) := by
  unfold stD; dsimp only
  rw [View.read_writes_junk_eq_canon]
  unfold rD runD; dsimp only
  sl_unfold_words
  rw [View.canon_cons_unit_zero hz2]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]
theorem stD_out (c : Dev nD) (t : Fin cfg1.N) (h : t.val % 4 = 3) (p : St F) :
    (stD V c t h p).1 = k1_pay7 (k1_pay5 (k1_pay17 (wq t) (wk t) (blockAt V c 0 t) (blockAt V c 1 t) p.2.1) (k1_pay19 (wq t) (wk t) (blockAt V c 0 t) (blockAt V c 1 t) p.2.1 p.2.2.2) (blockAt V c 2 t))
      (k1_pay18 (wq t) (wk t) (blockAt V c 0 t) (blockAt V c 1 t) p.2.1 p.2.2.1) := by
  unfold stD; dsimp only
  rw [View.read_writes_junk_eq_canon]
  unfold rD runD; dsimp only
  sl_unfold_words
  rw [View.canon_cons_unit_zero hz3]
  simp only [View.readAt_eq_ld, Memref.IsWhole.read_unread, View.ld_unit_zero (S := S1x1024x128) hz3,
    View.ld_unit_zero (S := S1024x128) hz2, View.ld_unit_zero (S := S1024x1) hz2,
    View.readCov_unit_zero (S := S1024x1) _ hz2, View.readCov_unit_zero (S := S1024x128) _ hz2]
  try simp only [read_max, read_den, read_num]

end Cert.KernelIdeal.Attn

end
-- ==== Proof.Region1BlocksIdeal.lean ====
/-
  The second kernel region's blocks, read by coordinates. At point t = 4·b + 2·qi + ki the query window's block is
  rows qi·1024 … of batch b, columns 0–127 of the first region's output array; the key window's block is rows
  min(ki, qi)·1024 …, columns 128–255; the value window's the same rows, columns 256–383; the output window's block is
  rows qi·1024 … of batch b of the result array.
-/
import proofs.«108889_j8942121910998_2_alg».proof.Proof.Region1DataIdeal
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The windows' block indices, decided over the grid. -/
theorem idx_q : ∀ t : Fin cfg1.N, win1_0.index t 0 = t.val / 4 ∧ win1_0.index t 1 = t.val / 2 % 2 ∧ win1_0.index t 2 = 0 :=
  (by decide +kernel : ∀ t : Fin grid1.N, win1_0.index t 0 = t.val / 4 ∧ win1_0.index t 1 = t.val / 2 % 2 ∧ win1_0.index t 2 = 0)
theorem idx_k : ∀ t : Fin cfg1.N, win1_1.index t 0 = t.val / 4 ∧ win1_1.index t 1 = min (t.val % 2) (t.val / 2 % 2) ∧ win1_1.index t 2 = 1 :=
  (by decide +kernel : ∀ t : Fin grid1.N, win1_1.index t 0 = t.val / 4 ∧ win1_1.index t 1 = min (t.val % 2) (t.val / 2 % 2) ∧ win1_1.index t 2 = 1)
theorem idx_v : ∀ t : Fin cfg1.N, win1_2.index t 0 = t.val / 4 ∧ win1_2.index t 1 = min (t.val % 2) (t.val / 2 % 2) ∧ win1_2.index t 2 = 2 :=
  (by decide +kernel : ∀ t : Fin grid1.N, win1_2.index t 0 = t.val / 4 ∧ win1_2.index t 1 = min (t.val % 2) (t.val / 2 % 2) ∧ win1_2.index t 2 = 2)
theorem idx_o : ∀ t : Fin cfg1.N, win1_3.index t 0 = t.val / 4 ∧ win1_3.index t 1 = t.val / 2 % 2 ∧ win1_3.index t 2 = 0 :=
  (by decide +kernel : ∀ t : Fin grid1.N, win1_3.index t 0 = t.val / 4 ∧ win1_3.index t 1 = t.val / 2 % 2 ∧ win1_3.index t 2 = 0)

/-- The query block's entry is the array's at batch b, row qi·1024 + its row, its own column. -/
theorem q_block (c : Dev nD) (t : Fin cfg1.N) (y : S1x1024x128.Idx) (k : S8x2048x384.Idx)
    (h0 : (k 0).val = t.val / 4) (h1 : (k 1).val = t.val / 2 % 2 * 1024 + (y 1).val) (h2 : (k 2).val = (y 2).val) :
    (blockAt V c 0 t : Vec F S1x1024x128 .bf16) y = (V c main_v1 : S8x2048x384.Idx → Elt F .bf16) k := by
  obtain ⟨i0, i1, i2⟩ := idx_q t
  have hy0 : (y 0).val < 1 := (y 0).isLt
  unfold blockAt
  rw [View.read_apply]
  show V c main_v1 _ = V c main_v1 _
  congr 1
  funext a
  apply Fin.ext
  match a with
  | ⟨0, _⟩ => show win1_0.index t 0 * 1 + 1 * (y 0).val = (k 0).val; rw [i0, h0]; omega
  | ⟨1, _⟩ => show win1_0.index t 1 * 1024 + 1 * (y 1).val = (k 1).val; rw [i1, h1]; omega
  | ⟨2, _⟩ => show win1_0.index t 2 * 128 + 1 * (y 2).val = (k 2).val; rw [i2, h2]; omega

/-- The key block's entry: row min(ki, qi)·1024 + its row, column 128 + its column. -/
theorem k_block (c : Dev nD) (t : Fin cfg1.N) (y : S1x1024x128.Idx) (k : S8x2048x384.Idx)
    (h0 : (k 0).val = t.val / 4) (h1 : (k 1).val = min (t.val % 2) (t.val / 2 % 2) * 1024 + (y 1).val) (h2 : (k 2).val = 128 + (y 2).val) :
    (blockAt V c 1 t : Vec F S1x1024x128 .bf16) y = (V c main_v1 : S8x2048x384.Idx → Elt F .bf16) k := by
  obtain ⟨i0, i1, i2⟩ := idx_k t
  have hy0 : (y 0).val < 1 := (y 0).isLt
  unfold blockAt
  rw [View.read_apply]
  show V c main_v1 _ = V c main_v1 _
  congr 1
  funext a
  apply Fin.ext
  match a with
  | ⟨0, _⟩ => show win1_1.index t 0 * 1 + 1 * (y 0).val = (k 0).val; rw [i0, h0]; omega
  | ⟨1, _⟩ => show win1_1.index t 1 * 1024 + 1 * (y 1).val = (k 1).val; rw [i1, h1]; omega
  | ⟨2, _⟩ => show win1_1.index t 2 * 128 + 1 * (y 2).val = (k 2).val; rw [i2, h2]; omega

/-- The value block's entry: the same rows, column 256 + its column. -/
theorem v_block (c : Dev nD) (t : Fin cfg1.N) (y : S1x1024x128.Idx) (k : S8x2048x384.Idx)
    (h0 : (k 0).val = t.val / 4) (h1 : (k 1).val = min (t.val % 2) (t.val / 2 % 2) * 1024 + (y 1).val) (h2 : (k 2).val = 256 + (y 2).val) :
    (blockAt V c 2 t : Vec F S1x1024x128 .bf16) y = (V c main_v1 : S8x2048x384.Idx → Elt F .bf16) k := by
  obtain ⟨i0, i1, i2⟩ := idx_v t
  have hy0 : (y 0).val < 1 := (y 0).isLt
  unfold blockAt
  rw [View.read_apply]
  show V c main_v1 _ = V c main_v1 _
  congr 1
  funext a
  apply Fin.ext
  match a with
  | ⟨0, _⟩ => show win1_2.index t 0 * 1 + 1 * (y 0).val = (k 0).val; rw [i0, h0]; omega
  | ⟨1, _⟩ => show win1_2.index t 1 * 1024 + 1 * (y 1).val = (k 1).val; rw [i1, h1]; omega
  | ⟨2, _⟩ => show win1_2.index t 2 * 128 + 1 * (y 2).val = (k 2).val; rw [i2, h2]; omega

end Cert.KernelIdeal.Attn

end
-- ==== Proof.Region1ValueIdeal.lean ====
/-
  The second kernel region's result array as one function of the index, given what each row of each output block holds.

  The output window writes its block back at the points on the last key tile; point t = 4·b + 2·qi + 1 writes rows
  qi·1024 … qi·1024 + 1023 of batch b, all 128 columns; those sixteen blocks tile the [8, 2048, 128] array. So if, at every
  such point, row r and column d of the stored block is a function G at (b, qi·1024 + r, d), the array ends holding G.
  The three input blocks of a point are slices of the first region's output array, whose columns 0–127, 128–255, 256–383
  are the query, key and value projections.
-/
import proofs.«108889_j8942121910998_2_alg».proof.Proof.Region1PiecesIdeal
import proofs.«108889_j8942121910998_2_alg».proof.Proof.Region1BlocksIdeal
import proofs.«108889_j8942121910998_2_alg».proof.Proof.AttnSpec
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The grid coordinates of a point: query tile and key tile. -/
theorem coords_qk : ∀ t : Fin cfg1.N, ((grid1.coords t) 1).val = t.val / 2 % 2 ∧ ((grid1.coords t) 2).val = t.val % 2 :=
  (by decide +kernel : ∀ t : Fin grid1.N, ((grid1.coords t) 1).val = t.val / 2 % 2 ∧ ((grid1.coords t) 2).val = t.val % 2)

/-! ## The input blocks as projections -/

section Entries
variable (x : (⟨3, ![8, 2048, 1024]⟩ : Shape).Idx → EReal) (Wq Wk Wv : (⟨2, ![1024, 128]⟩ : Shape).Idx → EReal)
variable (hq : ∀ (b : Fin 8) (i : Fin 2048) (e : Fin 128),
    (V c main_v1 : S8x2048x384.Idx → EReal) (ix3 b i (⟨e.val, by omega⟩ : Fin 384)) = Cert.Attn.proj x Wq b i e)
variable (hk : ∀ (b : Fin 8) (i : Fin 2048) (e : Fin 128),
    (V c main_v1 : S8x2048x384.Idx → EReal) (ix3 b i (⟨128 + e.val, by omega⟩ : Fin 384)) = Cert.Attn.proj x Wk b i e)
variable (hv : ∀ (b : Fin 8) (i : Fin 2048) (e : Fin 128),
    (V c main_v1 : S8x2048x384.Idx → EReal) (ix3 b i (⟨256 + e.val, by omega⟩ : Fin 384)) = Cert.Attn.proj x Wv b i e)

include hq in
theorem q_entry (t : Fin cfg1.N) (b : Fin 8) (i : Fin 2048) (r : Fin 1024) (e : Fin 128)
    (hb : b.val = t.val / 4) (hi : i.val = t.val / 2 % 2 * 1024 + r.val) :
    (blockAt V c 0 t : Vec Ideal S1x1024x128 .bf16) (ix3 (0 : Fin 1) r e) = Cert.Attn.proj x Wq b i e :=
  (q_block V c t (ix3 (0 : Fin 1) r e) (ix3 b i (⟨e.val, by omega⟩ : Fin 384)) hb hi rfl).trans (hq b i e)

include hk in
theorem k_entry (t : Fin cfg1.N) (b : Fin 8) (j : Fin 2048) (r : Fin 1024) (e : Fin 128)
    (hb : b.val = t.val / 4) (hj : j.val = min (t.val % 2) (t.val / 2 % 2) * 1024 + r.val) :
    (blockAt V c 1 t : Vec Ideal S1x1024x128 .bf16) (ix3 (0 : Fin 1) r e) = Cert.Attn.proj x Wk b j e :=
  (k_block V c t (ix3 (0 : Fin 1) r e) (ix3 b j (⟨128 + e.val, by omega⟩ : Fin 384)) hb hj rfl).trans (hk b j e)

include hv in
theorem v_entry (t : Fin cfg1.N) (b : Fin 8) (j : Fin 2048) (r : Fin 1024) (e : Fin 128)
    (hb : b.val = t.val / 4) (hj : j.val = min (t.val % 2) (t.val / 2 % 2) * 1024 + r.val) :
    (blockAt V c 2 t : Vec Ideal S1x1024x128 .bf16) (ix3 (0 : Fin 1) r e) = Cert.Attn.proj x Wv b j e :=
  (v_block V c t (ix3 (0 : Fin 1) r e) (ix3 b j (⟨256 + e.val, by omega⟩ : Fin 384)) hb hj rfl).trans (hv b j e)
end Entries

/-! ## From the output blocks to the result array -/

/-- An index of the result array is in point t's block iff each coordinate is in the block's range on its axis. -/
theorem mem_blk_o (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v2).slice (win1_3.rect t)).set ↔ _
  rw [View.set_slice_whole, Rect.mem_set_unit]
  exact Iff.rfl

/-- Every index of the result array is in the block of the point on the last key tile of its batch and query tile. -/
theorem cover_o (i : S8x2048x128.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 128 := (i 2).isLt
  have hN : cfg1.N = 32 := N_1
  let t : Fin cfg1.N := ⟨4 * (i 0).val + 2 * ((i 1).val / 1024) + 1, by omega⟩
  have htv : t.val = 4 * (i 0).val + 2 * ((i 1).val / 1024) + 1 := rfl
  obtain ⟨e0, e1, e2⟩ := idx_o t
  refine ⟨t, (flush1_3 t).mpr (by omega), ?_⟩
  rw [mem_blk_o]
  intro a
  match a with
  | ⟨0, _⟩ => show win1_3.index t 0 * 1 ≤ (i 0).val ∧ (i 0).val < win1_3.index t 0 * 1 + 1; rw [e0, htv]; omega
  | ⟨1, _⟩ => show win1_3.index t 1 * 1024 ≤ (i 1).val ∧ (i 1).val < win1_3.index t 1 * 1024 + 1024; rw [e1, htv]; omega
  | ⟨2, _⟩ => show win1_3.index t 2 * 128 ≤ (i 2).val ∧ (i 2).val < win1_3.index t 2 * 128 + 128; rw [e2]; omega

variable (G : S8x2048x128.Idx → EReal)
variable (hrow : ∀ (t : Fin cfg1.N), t.val % 2 = 1 → ∀ (r : Fin 1024) (d : Fin 128) (b : Fin 8) (i : Fin 2048),
    b.val = t.val / 4 → i.val = t.val / 2 % 2 * 1024 + r.val →
    (outsAt V c t.val t.isLt).1 (ix3 (0 : Fin 1) r d) = G (ix3 b i d))

include hrow in
/-- What a point on the last key tile writes back is its block of G. -/
theorem flushed_o (t : Fin cfg1.N) (hf : (cfg1.win 3).flush t = true) :
    (dat V c).flushed 3 t = ((cfg1.win 3).blk t).view.read (Elt Ideal) G := by
  show (cfg1.win 3).cut (grid1.coords t) ((dat V c).after 3 t) = _
  rw [after_o]
  have ht : t.val % 2 = 1 := (flush1_3 t).mp hf
  have hN : cfg1.N = 32 := N_1
  obtain ⟨e0, e1, e2⟩ := idx_o t
  funext y
  have hy0 : (y 0).val < 1 := (y 0).isLt
  have hy1 : (y 1).val < 1024 := (y 1).isLt
  have hy : y = ix3 (0 : Fin 1) (y 1) (y 2) := by
    funext a; match a with
    | ⟨0, _⟩ => exact Fin.ext (by show (y 0).val = 0; omega)
    | ⟨1, _⟩ => rfl
    | ⟨2, _⟩ => rfl
  rw [View.read_apply]
  show (outsAt V c t.val t.isLt).1 y = G _
  rw [hy]
  refine (hrow t ht (y 1) (y 2) ⟨t.val / 4, by omega⟩ ⟨t.val / 2 % 2 * 1024 + (y 1).val, by omega⟩ rfl rfl).trans (congrArg G ?_)
  funext a
  apply Fin.ext
  match a with
  | ⟨0, _⟩ => show t.val / 4 = win1_3.index t 0 * 1 + 1 * 0; rw [e0]; omega
  | ⟨1, _⟩ => show t.val / 2 % 2 * 1024 + (y 1).val = win1_3.index t 1 * 1024 + 1 * (y 1).val; rw [e1]; omega
  | ⟨2, _⟩ => show (y 2).val = win1_3.index t 2 * 128 + 1 * (y 2).val; rw [e2]; omega

include hrow in
/-- The result array after the run is G. -/
theorem result_is (hG : True := trivial) : (dat V c).arrAt 3 cfg1.N = G :=
  (dat V c).arrAt_eq_of_cover 3 G (fun t hf => flushed_o V c G hrow t hf) (cover_o)

end Cert.KernelIdeal.AttnValue

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.PayloadReads.lean ====
/-
  The values a flash-attention body stores, read one index at a time over the extended reals.

  The body works on a 1024 × 1024 tile of scores: the query block times the transposed key block, scaled; on a
  diagonal tile the entries whose key comes after the query are replaced by minus infinity. From the scores it updates a
  running row maximum, rescales the running denominator and numerator by the exponential of the old maximum minus the new
  one, and adds the tile's exponentials (for the numerator, their product with the value block). Each lemma below says
  what one stored value is at one index, by coordinates: a matrix product is a finite sum, a row maximum from minus
  infinity a supremum, a row sum from zero a finite sum, a column copied along the rows its entry, and the causal mask
  the comparison of the two offsets inside the tile, since the signed words it compares do not wrap.
-/
import proofs.«108889_j8942121910998_2_alg».proof.Proof.Gen.KernelIdeal.Skeleton
import proofs.«108889_j8942121910998_2_alg».proof.Proof.LibRowsTimesRows
import proofs.«108889_j8942121910998_2_alg».proof.Proof.LibPlainMatmul
import proofs.«108889_j8942121910998_2_alg».proof.Proof.LibRowForms
import proofs.«108889_j8942121910998_2_alg».proof.Proof.LibColumnForms
import Idealize.ShloMosaic.Lib.ValueIdx
import Idealize.ShloMosaic.Lib.Pipeline.Value
import Idealize.ShloMosaic.Lib.ValueLayout
import Idealize.ShloMosaic.PureOps.Ideal.Laws
import Idealize.ShloMosaic.Lib.WordArith

noncomputable section

namespace Cert.KernelIdeal.Tile

open Idealize.ShloMosaic Idealize.ShloMosaic.ValueIdx Cert.KernelIdeal Cert.KernelIdeal.Gen
open scoped BigOperators

/-- The scaled score of query row `r` against key row `j`: their inner product over the 128 features, times the scale. -/
def sc (x0 x1 : Vec Ideal S1x1024x128 .bf16) (r j : Fin 1024) : EReal :=
  (∑ e : Fin 128, x0 (ix3 (0 : Fin 1) r e) * x1 (ix3 (0 : Fin 1) j e)) * Ideal.ofBits .f32 0x3DB504F3#32

/-- The causally masked score on a diagonal tile: the score where the key is not after the query, minus infinity elsewhere. -/
def msc (x0 x1 : Vec Ideal S1x1024x128 .bf16) (r j : Fin 1024) : EReal :=
  if j.val ≤ r.val then sc x0 x1 r j else ⊥

/-- The word of minus infinity denotes the bottom extended real. -/
theorem ofBits_neg_inf : Ideal.ofBits .f32 0xFF800000#32 = (⊥ : EReal) := by simp [Ideal.ofBits, Ideal.ieee]

/-- The named masking constant denotes minus infinity. -/
theorem neg_big_eq : Named.named (F := Ideal) κ "neg_big" (φ := .f32) 0xF149F2CA#32 = (⊥ : EReal) :=
  IdealRules.named_const.ideal_named_scalar _ _ _ _ rfl

/-- A fold of `max` from the bottom element is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- A select on a bit that encodes a decidable proposition is the `if` on that proposition. -/
theorem select_of_bit {α : Type} (c : BitVec 1) (P : Prop) [Decidable P] (h : c = 1#1 ↔ P) (a b : α) :
    Scalar.select c a b = if P then a else b := by
  unfold Scalar.select
  by_cases hp : P
  · rw [if_pos hp]; exact if_pos (h.mpr hp)
  · rw [if_neg hp]; exact if_neg (fun hc => hp (h.mp hc))

/-- The word `q · 1024 + r` for a tile number `q < 2` and an offset `r < 1024`, read signed, is that natural number: nothing wraps. -/
theorem word_toInt (q : ℕ) (hq : q < 2) (r : Fin 1024) :
    (IntOp.addi (Scalar.muli (BitVec.ofNat 32 q) 1024#32) (BitVec.ofNat 32 r.val)).toInt = ((q * 1024 + r.val : ℕ) : ℤ) := by
  have hr := r.isLt
  have hq' : (BitVec.ofNat 32 q).toInt = q := WordArith.toInt_ofNat_small q (by omega)
  have hr' : (BitVec.ofNat 32 r.val).toInt = r.val := WordArith.toInt_ofNat_small _ (by omega)
  have hk : (1024#32 : BitVec 32).toInt = 1024 := by decide
  have hm : (BitVec.ofNat 32 q * 1024#32).toInt = q * 1024 := by
    rw [WordArith.toInt_mul_of_bounds _ _ (by rw [hq', hk]; omega) (by rw [hq', hk]; omega), hq', hk]
  show (BitVec.ofNat 32 q * 1024#32 + BitVec.ofNat 32 r.val).toInt = _
  rw [WordArith.toInt_add_of_bounds _ _ (by rw [hm, hr']; omega) (by rw [hm, hr']; omega), hm, hr']
  push_cast; rfl

/-- On a diagonal tile the signed comparison "row word ≥ column word" holds exactly when the column offset is at most the row offset. -/
theorem mask_bit (q : ℕ) (hq : q < 2) (r j : Fin 1024) :
    IntOp.cmpi .sge (IntOp.addi (Scalar.muli (BitVec.ofNat 32 q) 1024#32) (BitVec.ofNat 32 r.val))
        (IntOp.addi (Scalar.muli (BitVec.ofNat 32 q) 1024#32) (BitVec.ofNat 32 j.val)) = 1#1 ↔ j.val ≤ r.val := by
  show BitVec.ofBool (BitVec.sle _ _) = 1#1 ↔ _
  rw [WordArith.ofBool_eq_one_iff, BitVec.sle_eq_decide, decide_eq_true_eq, word_toInt q hq r, word_toInt q hq j]
  omega

/-- The product of the query block with the transposed key block, read at `(r, j)`: the inner product of the two rows. -/
theorem qk_read (x0 x1 : FVec Ideal S1x1024x128 .bf16) (r j : Fin 1024) :
    matmul (F := Ideal) dot_S1024x128_S1024x128_S1024x1024_1_1_0_0_n_n none
        (shapeCast S1024x128 x0 shapeCasts_S1x1024x128_S1024x128) (shapeCast S1024x128 x1 shapeCasts_S1x1024x128_S1024x128)
        (constant S1024x1024 .f32 0x00000000#32) (ix2 r j)
      = ∑ e : Fin 128, x0 (ix3 (0 : Fin 1) r e) * x1 (ix3 (0 : Fin 1) j e) := by
  refine (Cert.RowsTimesRows.rowsMatmul_zero_apply dot_S1024x128_S1024x128_S1024x1024_1_1_0_0_n_n_wf none _ _ r j).trans ?_
  refine Finset.sum_congr rfl fun e _ => ?_
  rw [shapeCast_1ab_ab_apply, shapeCast_1ab_ab_apply]

/-- A row maximum of a square tile, from minus infinity, laid out as a column: at `(r, u)` the supremum of row `r`. -/
theorem rowmax_col (src : FVec Ideal S1024x1024 .f32) (r : Fin 1024) (u : Fin 1) :
    shapeCast S1024x1 (multiReduction (F := Ideal) .maximumf [1] S1024 src 0xFF800000#32 reduces_S1024x1024_S1024 (.inl rfl) rfl)
        shapeCasts_S1024_S1024x1 (ix2 r u)
      = Finset.univ.sup fun j : Fin 1024 => src (ix2 r j) := by
  refine (Cert.ColumnForms.shapeCast_a_a1_apply _ _ r u).trans ?_
  refine (Cert.RowForms.multiReduction_max_rows src _ r).trans ?_
  rw [ofBits_neg_inf, fold_max_bot]

/-- The output block: the numerator divided by the denominator of its row. -/
theorem pay7_read (acc : Vec Ideal S1024x128 .f32) (l : Vec Ideal S1024x1 .f32) (r : Fin 1024) (d : Fin 128) :
    k1_pay7 (F := Ideal) acc l (ix3 (0 : Fin 1) r d) = Ideal.div (acc (ix2 r d)) (l (ix2 r (0 : Fin 1))) := by
  unfold k1_pay7
  refine (shapeCast_ab_1ab_apply _ _ (0 : Fin 1) r d).trans ?_
  rw [divf_apply]
  exact congrArg (Ideal.div (acc (ix2 r d))) (Cert.ColumnForms.broadcastTo_a1_ab_apply l _ r d)

/-- The scores of an unmasked tile. -/
theorem pay8_read (x0 x1 : Vec Ideal S1x1024x128 .bf16) (r j : Fin 1024) :
    k1_pay8 (F := Ideal) x0 x1 (ix2 r j) = sc x0 x1 r j := by
  unfold k1_pay8 sc
  rw [mulf_apply, broadcast_apply]
  exact congrArg (· * Ideal.ofBits .f32 0x3DB504F3#32) (qk_read x0 x1 r j)

/-- The scores of a diagonal tile: masked where the key comes after the query. -/
theorem pay14_read (q : ℕ) (hq : q < 2) (x0 x1 : Vec Ideal S1x1024x128 .bf16) (r j : Fin 1024) :
    k1_pay14 (F := Ideal) (BitVec.ofNat 32 q) (BitVec.ofNat 32 q) x0 x1 (ix2 r j) = msc x0 x1 r j := by
  unfold k1_pay14 msc
  rw [select_apply]
  refine (select_of_bit _ (j.val ≤ r.val) ?_ _ _).trans ?_
  · show IntOp.cmpi .sge (IntOp.addi _ (iota .tc S1024x1024 32 [0] _ (ix2 r j))) (IntOp.addi _ (iota .tc S1024x1024 32 [1] _ (ix2 r j))) = 1#1 ↔ _
    rw [iota_single_apply, iota_single_apply]
    exact mask_bit q hq r j
  · rw [mulf_apply, broadcast_apply, broadcast_apply, neg_big_eq]
    unfold sc
    rw [← qk_read x0 x1 r j]
    rfl

/-- The new running maximum of an unmasked tile. -/
theorem pay9_read (x0 x1 : Vec Ideal S1x1024x128 .bf16) (xs0 : Vec Ideal S1024x1 .f32) (r : Fin 1024) :
    k1_pay9 (F := Ideal) x0 x1 xs0 (ix2 r (0 : Fin 1))
      = max (xs0 (ix2 r (0 : Fin 1))) (Finset.univ.sup fun j => sc x0 x1 r j) := by
  unfold k1_pay9
  rw [maximumf_apply]
  refine congrArg (max (xs0 (ix2 r (0 : Fin 1)))) ?_
  refine (rowmax_col _ r 0).trans ?_
  exact congrArg (Finset.sup Finset.univ) (funext fun j => pay8_read x0 x1 r j)

/-- A row sum of a square tile, from zero, laid out as a column: at `(r, u)` the sum of row `r`. -/
theorem rowsum_col (src : FVec Ideal S1024x1024 .f32) (r : Fin 1024) (u : Fin 1) :
    shapeCast S1024x1 (multiReduction (F := Ideal) .add [1] S1024 src 0x00000000#32 reduces_S1024x1024_S1024 (.inl rfl) rfl)
        shapeCasts_S1024_S1024x1 (ix2 r u)
      = ∑ j : Fin 1024, src (ix2 r j) :=
  (Cert.ColumnForms.shapeCast_a_a1_apply _ _ r u).trans (Cert.RowForms.multiReduction_add_rows src _ r)

/-- The product of a square tile of weights with the value block, read at `(r, d)`: the weighted sum of the values' column `d`. -/
theorem pv_read (p : FVec Ideal S1024x1024 .bf16) (x2 : FVec Ideal S1x1024x128 .bf16) (r : Fin 1024) (d : Fin 128) :
    matmul (F := Ideal) dot_S1024x1024_S1024x128_S1024x128_1_0_0_1_n_n none p
        (shapeCast S1024x128 x2 shapeCasts_S1x1024x128_S1024x128) (constant S1024x128 .f32 0x00000000#32) (ix2 r d)
      = ∑ j : Fin 1024, p (ix2 r j) * x2 (ix3 (0 : Fin 1) j d) := by
  refine (Cert.PointConv.plainMatmul_zero_apply dot_S1024x1024_S1024x128_S1024x128_1_0_0_1_n_n_wf none _ _ r d).trans ?_
  refine Finset.sum_congr rfl fun j _ => ?_
  rw [shapeCast_1ab_ab_apply]

/-- The factor that rescales the running sums of an unmasked tile: the exponential of the old maximum minus the new one. -/
theorem pay10_read (x0 x1 : Vec Ideal S1x1024x128 .bf16) (xs0 : Vec Ideal S1024x1 .f32) (r : Fin 1024) :
    k1_pay10 (F := Ideal) x0 x1 xs0 (ix2 r (0 : Fin 1))
      = Ideal.exp (xs0 (ix2 r (0 : Fin 1)) - k1_pay9 (F := Ideal) x0 x1 xs0 (ix2 r (0 : Fin 1))) := by
  unfold k1_pay10
  rfl

/-- The weights of an unmasked tile: the exponential of each score minus its row's new maximum. -/
theorem pay11_read (x0 x1 : Vec Ideal S1x1024x128 .bf16) (xs0 : Vec Ideal S1024x1 .f32) (r j : Fin 1024) :
    k1_pay11 (F := Ideal) x0 x1 xs0 (ix2 r j)
      = Ideal.exp (sc x0 x1 r j - k1_pay9 (F := Ideal) x0 x1 xs0 (ix2 r (0 : Fin 1))) := by
  unfold k1_pay11
  show Ideal.exp (k1_pay8 (F := Ideal) x0 x1 (ix2 r j)
      - broadcastTo S1024x1024 (k1_pay9 (F := Ideal) x0 x1 xs0) broadcasts_S1024x1_S1024x1024 (ix2 r j)) = _
  rw [pay8_read, Cert.ColumnForms.broadcastTo_a1_ab_apply]

/-- The new running denominator of an unmasked tile: the old one rescaled, plus the row's weights. -/
theorem pay12_read (x0 x1 : Vec Ideal S1x1024x128 .bf16) (xs0 xs1 : Vec Ideal S1024x1 .f32) (r : Fin 1024) :
    k1_pay12 (F := Ideal) x0 x1 xs0 xs1 (ix2 r (0 : Fin 1))
      = k1_pay10 (F := Ideal) x0 x1 xs0 (ix2 r (0 : Fin 1)) * xs1 (ix2 r (0 : Fin 1))
        + ∑ j : Fin 1024, k1_pay11 (F := Ideal) x0 x1 xs0 (ix2 r j) := by
  unfold k1_pay12
  rw [shapeCast_self, addf_apply, mulf_apply]
  exact congrArg (k1_pay10 (F := Ideal) x0 x1 xs0 (ix2 r (0 : Fin 1)) * xs1 (ix2 r (0 : Fin 1)) + ·) (rowsum_col _ r 0)

/-- The new running numerator of an unmasked tile: the old one rescaled, plus the weights times the value block. -/
theorem pay13_read (x0 x1 : Vec Ideal S1x1024x128 .bf16) (xs0 : Vec Ideal S1024x1 .f32) (xs2 : Vec Ideal S1024x128 .f32)
    (x2 : Vec Ideal S1x1024x128 .bf16) (r : Fin 1024) (d : Fin 128) :
    k1_pay13 (F := Ideal) x0 x1 xs0 xs2 x2 (ix2 r d)
      = k1_pay10 (F := Ideal) x0 x1 xs0 (ix2 r (0 : Fin 1)) * xs2 (ix2 r d)
        + ∑ j : Fin 1024, k1_pay11 (F := Ideal) x0 x1 xs0 (ix2 r j) * x2 (ix3 (0 : Fin 1) j d) := by
  unfold k1_pay13
  rw [shapeCast_self, addf_apply, mulf_apply, Cert.ColumnForms.broadcastTo_a1_ab_apply]
  exact congrArg (k1_pay10 (F := Ideal) x0 x1 xs0 (ix2 r (0 : Fin 1)) * xs2 (ix2 r d) + ·) (pv_read _ x2 r d)

/-- The new running maximum of a diagonal tile. -/
theorem pay15_read (q : ℕ) (hq : q < 2) (x0 x1 : Vec Ideal S1x1024x128 .bf16) (xs0 : Vec Ideal S1024x1 .f32) (r : Fin 1024) :
    k1_pay15 (F := Ideal) (BitVec.ofNat 32 q) (BitVec.ofNat 32 q) x0 x1 xs0 (ix2 r (0 : Fin 1))
      = max (xs0 (ix2 r (0 : Fin 1))) (Finset.univ.sup fun j => msc x0 x1 r j) := by
  unfold k1_pay15
  rw [maximumf_apply]
  refine congrArg (max (xs0 (ix2 r (0 : Fin 1)))) ?_
  refine (rowmax_col _ r 0).trans ?_
  exact congrArg (Finset.sup Finset.univ) (funext fun j => pay14_read q hq x0 x1 r j)

/-- The factor that rescales the running sums of a diagonal tile. -/
theorem pay16_read (a1 a2 : BitVec 32) (x0 x1 : Vec Ideal S1x1024x128 .bf16) (xs0 : Vec Ideal S1024x1 .f32) (r : Fin 1024) :
    k1_pay16 (F := Ideal) a1 a2 x0 x1 xs0 (ix2 r (0 : Fin 1))
      = Ideal.exp (xs0 (ix2 r (0 : Fin 1)) - k1_pay15 (F := Ideal) a1 a2 x0 x1 xs0 (ix2 r (0 : Fin 1))) := by
  unfold k1_pay16
  rfl

/-- The weights of a diagonal tile: the exponential of each masked score minus its row's new maximum. -/
theorem pay17_read (q : ℕ) (hq : q < 2) (x0 x1 : Vec Ideal S1x1024x128 .bf16) (xs0 : Vec Ideal S1024x1 .f32) (r j : Fin 1024) :
    k1_pay17 (F := Ideal) (BitVec.ofNat 32 q) (BitVec.ofNat 32 q) x0 x1 xs0 (ix2 r j)
      = Ideal.exp (msc x0 x1 r j
          - k1_pay15 (F := Ideal) (BitVec.ofNat 32 q) (BitVec.ofNat 32 q) x0 x1 xs0 (ix2 r (0 : Fin 1))) := by
  unfold k1_pay17
  show Ideal.exp (k1_pay14 (F := Ideal) (BitVec.ofNat 32 q) (BitVec.ofNat 32 q) x0 x1 (ix2 r j)
      - broadcastTo S1024x1024 (k1_pay15 (F := Ideal) (BitVec.ofNat 32 q) (BitVec.ofNat 32 q) x0 x1 xs0)
          broadcasts_S1024x1_S1024x1024 (ix2 r j)) = _
  rw [pay14_read q hq, Cert.ColumnForms.broadcastTo_a1_ab_apply]

/-- The new running denominator of a diagonal tile. -/
theorem pay18_read (a1 a2 : BitVec 32) (x0 x1 : Vec Ideal S1x1024x128 .bf16) (xs0 xs1 : Vec Ideal S1024x1 .f32) (r : Fin 1024) :
    k1_pay18 (F := Ideal) a1 a2 x0 x1 xs0 xs1 (ix2 r (0 : Fin 1))
      = k1_pay16 (F := Ideal) a1 a2 x0 x1 xs0 (ix2 r (0 : Fin 1)) * xs1 (ix2 r (0 : Fin 1))
        + ∑ j : Fin 1024, k1_pay17 (F := Ideal) a1 a2 x0 x1 xs0 (ix2 r j) := by
  unfold k1_pay18
  rw [shapeCast_self, addf_apply, mulf_apply]
  exact congrArg (k1_pay16 (F := Ideal) a1 a2 x0 x1 xs0 (ix2 r (0 : Fin 1)) * xs1 (ix2 r (0 : Fin 1)) + ·) (rowsum_col _ r 0)

/-- The running numerator of a diagonal tile, rescaled (the weighted values are added by the next store). -/
theorem pay19_read (a1 a2 : BitVec 32) (x0 x1 : Vec Ideal S1x1024x128 .bf16) (xs0 : Vec Ideal S1024x1 .f32)
    (xs2 : Vec Ideal S1024x128 .f32) (r : Fin 1024) (d : Fin 128) :
    k1_pay19 (F := Ideal) a1 a2 x0 x1 xs0 xs2 (ix2 r d)
      = k1_pay16 (F := Ideal) a1 a2 x0 x1 xs0 (ix2 r (0 : Fin 1)) * xs2 (ix2 r d) := by
  unfold k1_pay19
  rw [mulf_apply, Cert.ColumnForms.broadcastTo_a1_ab_apply]

/-- A numerator plus a tile of weights times the value block. -/
theorem pay5_read (v38 : FVec Ideal S1024x1024 .f32) (v49 : FVec Ideal S1024x128 .f32) (x2 : Vec Ideal S1x1024x128 .bf16)
    (r : Fin 1024) (d : Fin 128) :
    k1_pay5 (F := Ideal) v38 v49 x2 (ix2 r d) = v49 (ix2 r d) + ∑ j : Fin 1024, v38 (ix2 r j) * x2 (ix3 (0 : Fin 1) j d) := by
  unfold k1_pay5
  rw [shapeCast_self, addf_apply]
  exact congrArg (v49 (ix2 r d) + ·) (pv_read _ x2 r d)

/-- The running maximum is reset to minus infinity. -/
theorem pay1_read (r : Fin 1024) : k1_pay1 (F := Ideal) (ix2 r (0 : Fin 1)) = (⊥ : EReal) := by
  unfold k1_pay1
  rw [shapeCast_self, broadcast_apply]
  exact ofBits_neg_inf

/-- The running denominator is reset to zero. -/
theorem pay2_read (r : Fin 1024) : k1_pay2 (F := Ideal) (ix2 r (0 : Fin 1)) = (0 : EReal) := by
  unfold k1_pay2
  rw [shapeCast_self, broadcast_apply]
  exact Ideal.ofBits_zero_f32

/-- The running numerator is reset to zero. -/
theorem pay3_read (r : Fin 1024) (d : Fin 128) : k1_pay3 (F := Ideal) (ix2 r d) = (0 : EReal) := by
  unfold k1_pay3
  rw [shapeCast_self, broadcast_apply]
  exact Ideal.ofBits_zero_f32

/-- A column stored back unchanged. -/
theorem pay4_read (v : FVec Ideal S1024x1 .f32) (r : Fin 1024) : k1_pay4 (F := Ideal) v (ix2 r (0 : Fin 1)) = v (ix2 r (0 : Fin 1)) := by
  unfold k1_pay4
  rw [shapeCast_self]

/-- A column stored back unchanged. -/
theorem pay6_read (v : FVec Ideal S1024x1 .f32) (r : Fin 1024) : k1_pay6 (F := Ideal) v (ix2 r (0 : Fin 1)) = v (ix2 r (0 : Fin 1)) := by
  unfold k1_pay6
  rw [shapeCast_self]

/-- The projection kernel: a block of activations times the weight matrix, read at `(0, r, e)`. -/
theorem k0_pay1_read (v0 : Vec Ideal S1x1024x1024 .f32) (v3 : Vec Ideal S1024x384 .f32) (r : Fin 1024) (e : Fin 384) :
    k0_pay1 (F := Ideal) v0 v3 (ix3 (0 : Fin 1) r e) = ∑ c : Fin 1024, v0 (ix3 (0 : Fin 1) r c) * v3 (ix2 c e) := by
  unfold k0_pay1
  refine (shapeCast_ab_1ab_apply _ _ (0 : Fin 1) r e).trans ?_
  rw [truncf_apply]
  refine (Cert.PointConv.plainMatmul_zero_apply dot_S1024x1024_S1024x384_S1024x384_1_0_0_1_n_n_wf none _ _ r e).trans ?_
  refine Finset.sum_congr rfl fun c _ => ?_
  rw [truncf_apply, truncf_apply, shapeCast_1ab_ab_apply, shapeCast_self]

end Cert.KernelIdeal.Tile

end
-- ==== Proof.LibOnlineSoftmax.lean ====
/-
  The online (blockwise) softmax at the extended reals.

  A row of scores s is walked block by block keeping the running maximum m, the running
  denominator l = sum of exp (s j - m) and the running numerator acc = sum of exp (s j - m) * v j;
  at each new block both are rescaled by exp (m_old - m_new).  The laws below say that this walk
  computes the same extended reals as the one-pass softmax: the maximum of a union is the maximum of
  the maxima, the rescaled sums of two disjoint blocks add up to the sum over their union, and
  dividing the numerator by the denominator at the end is the weighted sum of the normalised
  weights.  Every score is a real or the bottom element (a masked position), every value is a real;
  the laws hold because of that finiteness, which is why each carries these hypotheses.
-/
import Idealize.ShloMosaic.PureOps.Ideal

noncomputable section

namespace Cert.Lib.OnlineSoftmax

open Idealize.ShloMosaic
open scoped BigOperators

variable {ι : Type*} [DecidableEq ι]

/-- The maximum of the scores over a finite index set; the bottom element on the empty set. -/
def rowMax (A : Finset ι) (s : ι → EReal) : EReal := A.sup s

/-- The sum over the set of the exponentials of the scores shifted by m. -/
def expSum (A : Finset ι) (s : ι → EReal) (m : EReal) : EReal := ∑ j ∈ A, Ideal.exp (s j - m)

/-- The sum over the set of the exponentials of the shifted scores, each weighted by its value. -/
def expDot (A : Finset ι) (s v : ι → EReal) (m : EReal) : EReal :=
  ∑ j ∈ A, Ideal.exp (s j - m) * v j

/-! ### Real sums inside the extended reals -/

/-- The embedding of the reals commutes with a finite sum. -/
theorem coe_sum {κ : Type*} (A : Finset κ) (f : κ → ℝ) :
    ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- The real number e^(x - c) for an extended real x below the top and a real c: zero at the
    bottom element. -/
def expShift (x : EReal) (c : ℝ) : ℝ := if x = ⊥ then 0 else Real.exp (x.toReal - c)

/-- e^(x - c) is nonnegative. -/
theorem expShift_nonneg (x : EReal) (c : ℝ) : 0 ≤ expShift x c := by
  unfold expShift
  split_ifs
  · exact le_refl 0
  · exact (Real.exp_pos _).le

/-- At a real x, e^(x - c) is the real exponential. -/
theorem expShift_coe (a c : ℝ) : expShift (a : EReal) c = Real.exp (a - c) := by
  unfold expShift
  rw [if_neg (EReal.coe_ne_bot a), EReal.toReal_coe]

/-- e^(x - x) = 1 at a real x. -/
theorem expShift_self (a : ℝ) : expShift (a : EReal) a = 1 := by
  rw [expShift_coe, sub_self, Real.exp_zero]

/-- The exponential of an extended real below the top, shifted by a real, is the real e^(x - c). -/
theorem exp_sub_coe {x : EReal} (hx : x ≠ ⊤) (c : ℝ) :
    Ideal.exp (x - (c : EReal)) = (expShift x c : EReal) := by
  induction x using EReal.rec with
  | bot => rw [EReal.bot_sub, Ideal.exp_bot]; unfold expShift; rw [if_pos rfl]; rfl
  | coe a => rw [← EReal.coe_sub, Ideal.exp_coe, expShift_coe]
  | top => exact absurd rfl hx

/-- Changing the shift from a to c multiplies by e^(a - c): e^(a - c) * e^(x - a) = e^(x - c). -/
theorem expShift_mul (x : EReal) (a c : ℝ) :
    Real.exp (a - c) * expShift x a = expShift x c := by
  unfold expShift
  split_ifs
  · exact mul_zero _
  · rw [← Real.exp_add]; congr 1; ring

/-- The shifted exponential sum against a real shift is the embedding of a real sum. -/
theorem expSum_coe {s : ι → EReal} (hs : ∀ j, s j ≠ ⊤) (A : Finset ι) (c : ℝ) :
    expSum A s (c : EReal) = ((∑ j ∈ A, expShift (s j) c : ℝ) : EReal) := by
  rw [coe_sum]
  exact Finset.sum_congr rfl (fun j _ => exp_sub_coe (hs j) c)

/-- The weighted shifted exponential sum against a real shift, with real values, is the
    embedding of a real sum. -/
theorem expDot_coe {s v : ι → EReal} (hs : ∀ j, s j ≠ ⊤) {vr : ι → ℝ}
    (hvr : ∀ j, v j = (vr j : EReal)) (A : Finset ι) (c : ℝ) :
    expDot A s v (c : EReal) = ((∑ j ∈ A, expShift (s j) c * vr j : ℝ) : EReal) := by
  rw [coe_sum]
  refine Finset.sum_congr rfl (fun j _ => ?_)
  rw [exp_sub_coe (hs j) c, hvr j, ← EReal.coe_mul]

/-! ### The maximum -/

/-- The maximum over the empty set is the bottom element: the starting state of the walk. -/
theorem rowMax_empty (s : ι → EReal) : rowMax (∅ : Finset ι) s = ⊥ := Finset.sup_empty

/-- The maximum over a union is the maximum of the two maxima. -/
theorem rowMax_union (A B : Finset ι) (s : ι → EReal) :
    max (rowMax A s) (rowMax B s) = rowMax (A ∪ B) s := by
  unfold rowMax
  rw [Finset.sup_union]

/-- Every score of the set is at most the maximum. -/
theorem le_rowMax {A : Finset ι} (s : ι → EReal) {j : ι} (hj : j ∈ A) : s j ≤ rowMax A s :=
  Finset.le_sup hj

/-- Scores below the top have their maximum below the top. -/
theorem rowMax_ne_top {s : ι → EReal} (hs : ∀ j, s j ≠ ⊤) (A : Finset ι) : rowMax A s ≠ ⊤ := by
  have h : A.sup s < ⊤ :=
    (Finset.sup_lt_iff bot_lt_top).mpr (fun j _ => lt_top_iff_ne_top.mpr (hs j))
  exact h.ne

/-- A maximum that is the bottom element means every score of the set is masked. -/
theorem eq_bot_of_rowMax_eq_bot {A : Finset ι} {s : ι → EReal} (h : rowMax A s = ⊥) {j : ι}
    (hj : j ∈ A) : s j = ⊥ :=
  le_bot_iff.mp (h ▸ le_rowMax s hj)

/-- A maximum of scores below the top that is not the bottom element is a real, and it is
    attained at a position of the set. -/
theorem rowMax_attained {s : ι → EReal} (hs : ∀ j, s j ≠ ⊤) {A : Finset ι}
    (hM : rowMax A s ≠ ⊥) : ∃ a : ℝ, rowMax A s = (a : EReal) ∧ ∃ j ∈ A, s j = (a : EReal) := by
  rcases A.eq_empty_or_nonempty with rfl | hne
  · exact absurd (rowMax_empty s) hM
  · obtain ⟨j, hj, hsup⟩ := Finset.exists_mem_eq_sup A hne s
    refine ⟨(rowMax A s).toReal, (EReal.coe_toReal (rowMax_ne_top hs A) hM).symm, j, hj, ?_⟩
    rw [EReal.coe_toReal (rowMax_ne_top hs A) hM]
    exact hsup.symm

/-! ### The starting state -/

/-- The denominator over the empty set is zero. -/
theorem expSum_empty (s : ι → EReal) (m : EReal) : expSum (∅ : Finset ι) s m = 0 :=
  Finset.sum_empty

/-- The numerator over the empty set is zero. -/
theorem expDot_empty (s v : ι → EReal) (m : EReal) : expDot (∅ : Finset ι) s v m = 0 :=
  Finset.sum_empty

/-- Over a set all of whose scores are masked, the denominator is zero whatever the shift:
    every term is the exponential of the bottom element. -/
theorem expSum_eq_zero_of_masked {A : Finset ι} {s : ι → EReal} (h : ∀ j ∈ A, s j = ⊥)
    (m : EReal) : expSum A s m = 0 :=
  Finset.sum_eq_zero (fun j hj => by rw [h j hj, EReal.bot_sub, Ideal.exp_bot])

/-- Over a set all of whose scores are masked, the numerator is zero whatever the shift. -/
theorem expDot_eq_zero_of_masked {A : Finset ι} {s : ι → EReal} (h : ∀ j ∈ A, s j = ⊥)
    (v : ι → EReal) (m : EReal) : expDot A s v m = 0 :=
  Finset.sum_eq_zero (fun j hj => by rw [h j hj, EReal.bot_sub, Ideal.exp_bot, zero_mul])

/-! ### Sums against a real shift are real -/

/-- The denominator of scores below the top against a real shift is a nonnegative real. -/
theorem expSum_isReal {s : ι → EReal} (hs : ∀ j, s j ≠ ⊤) (A : Finset ι) (c : ℝ) :
    ∃ r : ℝ, 0 ≤ r ∧ expSum A s (c : EReal) = (r : EReal) :=
  ⟨_, Finset.sum_nonneg (fun j _ => expShift_nonneg (s j) c), expSum_coe hs A c⟩

/-- The numerator of scores below the top and real values against a real shift is a real. -/
theorem expDot_isReal {s v : ι → EReal} (hs : ∀ j, s j ≠ ⊤) (hv : ∀ j, ∃ r : ℝ, v j = (r : EReal))
    (A : Finset ι) (c : ℝ) : ∃ r : ℝ, expDot A s v (c : EReal) = (r : EReal) := by
  choose vr hvr using hv
  exact ⟨_, expDot_coe hs hvr A c⟩

/-- Against its own maximum, when that is not the bottom element, the denominator is a real that
    is at least one: the maximum is attained, and that position contributes e^0 = 1. -/
theorem expSum_rowMax_isReal {s : ι → EReal} (hs : ∀ j, s j ≠ ⊤) {A : Finset ι}
    (hM : rowMax A s ≠ ⊥) : ∃ r : ℝ, 1 ≤ r ∧ expSum A s (rowMax A s) = (r : EReal) := by
  obtain ⟨a, ha, j, hj, hsj⟩ := rowMax_attained hs hM
  rw [ha]
  refine ⟨_, ?_, expSum_coe hs A a⟩
  have h1 : expShift (s j) a = 1 := by rw [hsj, expShift_self]
  rw [← h1]
  exact Finset.single_le_sum (f := fun j => expShift (s j) a)
    (fun i _ => expShift_nonneg (s i) a) hj

/-- Against its own maximum, when that is not the bottom element, the denominator is not zero. -/
theorem expSum_rowMax_ne_zero {s : ι → EReal} (hs : ∀ j, s j ≠ ⊤) {A : Finset ι}
    (hM : rowMax A s ≠ ⊥) : expSum A s (rowMax A s) ≠ 0 := by
  obtain ⟨r, hr, h⟩ := expSum_rowMax_isReal hs hM
  rw [h]
  intro h0
  have : r = 0 := EReal.coe_eq_zero.mp h0
  linarith

/-- Against its own maximum, when that is not the bottom element, the denominator is at least one. -/
theorem one_le_expSum_rowMax {s : ι → EReal} (hs : ∀ j, s j ≠ ⊤) {A : Finset ι}
    (hM : rowMax A s ≠ ⊥) : (1 : EReal) ≤ expSum A s (rowMax A s) := by
  obtain ⟨r, hr, h⟩ := expSum_rowMax_isReal hs hM
  rw [h, ← EReal.coe_one]
  exact EReal.coe_le_coe_iff.mpr hr

/-- Against a real shift, the denominator over a set that holds a real score is a positive real. -/
theorem expSum_pos_of_mem {s : ι → EReal} (hs : ∀ j, s j ≠ ⊤) {A : Finset ι} {j : ι} (hj : j ∈ A)
    (hsj : s j ≠ ⊥) (c : ℝ) : ∃ r : ℝ, 0 < r ∧ expSum A s (c : EReal) = (r : EReal) := by
  refine ⟨_, ?_, expSum_coe hs A c⟩
  have hpos : 0 < expShift (s j) c := by
    unfold expShift
    rw [if_neg hsj]
    exact Real.exp_pos _
  exact lt_of_lt_of_le hpos (Finset.single_le_sum (f := fun j => expShift (s j) c)
    (fun i _ => expShift_nonneg (s i) c) hj)

/-- Against a real shift, the denominator over a set that holds a real score is not zero. -/
theorem expSum_ne_zero_of_mem {s : ι → EReal} (hs : ∀ j, s j ≠ ⊤) {A : Finset ι} {j : ι}
    (hj : j ∈ A) (hsj : s j ≠ ⊥) (c : ℝ) : expSum A s (c : EReal) ≠ 0 := by
  obtain ⟨r, hr, h⟩ := expSum_pos_of_mem hs hj hsj c
  rw [h]
  intro h0
  exact hr.ne' (EReal.coe_eq_zero.mp h0)

/-! ### Rescaling: changing the shift -/

/-- Changing a real shift a of a denominator to a real c multiplies it by exp (a - c): term by
    term e^(a - c) * e^(s j - a) = e^(s j - c), a masked term being zero on both sides. -/
theorem rescale_sum_real {s : ι → EReal} (hs : ∀ j, s j ≠ ⊤) (A : Finset ι) (a c : ℝ) :
    Ideal.exp ((a : EReal) - (c : EReal)) * expSum A s (a : EReal) = expSum A s (c : EReal) := by
  rw [expSum_coe hs A a, expSum_coe hs A c, ← EReal.coe_sub, Ideal.exp_coe, ← EReal.coe_mul,
    Finset.mul_sum]
  exact congrArg _ (Finset.sum_congr rfl (fun j _ => expShift_mul (s j) a c))

/-- Changing a real shift a of a numerator with real values to a real c multiplies it by
    exp (a - c). -/
theorem rescale_dot_real {s v : ι → EReal} (hs : ∀ j, s j ≠ ⊤)
    (hv : ∀ j, ∃ r : ℝ, v j = (r : EReal)) (A : Finset ι) (a c : ℝ) :
    Ideal.exp ((a : EReal) - (c : EReal)) * expDot A s v (a : EReal) = expDot A s v (c : EReal) := by
  choose vr hvr using hv
  rw [expDot_coe hs hvr A a, expDot_coe hs hvr A c, ← EReal.coe_sub, Ideal.exp_coe,
    ← EReal.coe_mul, Finset.mul_sum]
  refine congrArg _ (Finset.sum_congr rfl (fun j _ => ?_))
  rw [← mul_assoc, expShift_mul]

/-- Changing the shift of a denominator from m to a real c multiplies it by exp (m - c), when m is
    an upper bound of the scores below the top: for a real m term by term
    e^(m - c) * e^(s j - m) = e^(s j - c); for m the bottom element every score is masked and both
    sides are zero. -/
theorem rescale_sum {s : ι → EReal} (hs : ∀ j, s j ≠ ⊤) {A : Finset ι} {m : EReal}
    (hmt : m ≠ ⊤) (hle : ∀ j ∈ A, s j ≤ m) (c : ℝ) :
    Ideal.exp (m - (c : EReal)) * expSum A s m = expSum A s (c : EReal) := by
  induction m using EReal.rec with
  | bot =>
    rw [EReal.bot_sub, Ideal.exp_bot, zero_mul,
      expSum_eq_zero_of_masked (fun j hj => le_bot_iff.mp (hle j hj))]
  | coe a => exact rescale_sum_real hs A a c
  | top => exact absurd rfl hmt

/-- Changing the shift of a numerator from m to a real c multiplies it by exp (m - c), under the
    same hypotheses and with real values. -/
theorem rescale_dot {s v : ι → EReal} (hs : ∀ j, s j ≠ ⊤) (hv : ∀ j, ∃ r : ℝ, v j = (r : EReal))
    {A : Finset ι} {m : EReal} (hmt : m ≠ ⊤) (hle : ∀ j ∈ A, s j ≤ m) (c : ℝ) :
    Ideal.exp (m - (c : EReal)) * expDot A s v m = expDot A s v (c : EReal) := by
  induction m using EReal.rec with
  | bot =>
    rw [EReal.bot_sub, Ideal.exp_bot, zero_mul,
      expDot_eq_zero_of_masked (fun j hj => le_bot_iff.mp (hle j hj))]
  | coe a => exact rescale_dot_real hs hv A a c
  | top => exact absurd rfl hmt

/-! ### Merging two blocks -/

/-- The merge step for the denominator, against any real new shift c: the denominator of block A
    against its own maximum, rescaled by exp (max A - c), plus the denominator of a disjoint block
    B against c, is the denominator of the union against c. -/
theorem merge_sum_real {s : ι → EReal} (hs : ∀ j, s j ≠ ⊤) {A B : Finset ι} (hAB : Disjoint A B)
    (c : ℝ) :
    Ideal.exp (rowMax A s - (c : EReal)) * expSum A s (rowMax A s) + expSum B s (c : EReal)
      = expSum (A ∪ B) s (c : EReal) := by
  rw [rescale_sum hs (rowMax_ne_top hs A) (fun j hj => le_rowMax s hj) c]
  unfold expSum
  rw [Finset.sum_union hAB]

/-- The merge step for the numerator, against any real new shift c. -/
theorem merge_dot_real {s v : ι → EReal} (hs : ∀ j, s j ≠ ⊤)
    (hv : ∀ j, ∃ r : ℝ, v j = (r : EReal)) {A B : Finset ι} (hAB : Disjoint A B) (c : ℝ) :
    Ideal.exp (rowMax A s - (c : EReal)) * expDot A s v (rowMax A s) + expDot B s v (c : EReal)
      = expDot (A ∪ B) s v (c : EReal) := by
  rw [rescale_dot hs hv (rowMax_ne_top hs A) (fun j hj => le_rowMax s hj) c]
  unfold expDot
  rw [Finset.sum_union hAB]

/-- The merge step of the online softmax for the denominator. With m the maximum over block A and
    m' the larger of m and the maximum over a disjoint block B, rescaling the running denominator
    by exp (m - m') and adding block B's denominator against m' gives the denominator of the union
    against m'. It holds for m the bottom element too (A empty or fully masked: the rescaled term
    is zero), and for m' the bottom element (every score of both blocks masked: both sides are
    zero). -/
theorem merge_sum {s : ι → EReal} (hs : ∀ j, s j ≠ ⊤) {A B : Finset ι} (hAB : Disjoint A B) :
    Ideal.exp (rowMax A s - max (rowMax A s) (rowMax B s)) * expSum A s (rowMax A s)
        + expSum B s (max (rowMax A s) (rowMax B s))
      = expSum (A ∪ B) s (max (rowMax A s) (rowMax B s)) := by
  by_cases hb : max (rowMax A s) (rowMax B s) = ⊥
  · have hA : rowMax A s = ⊥ := le_bot_iff.mp (hb ▸ le_max_left _ _)
    have hB : rowMax B s = ⊥ := le_bot_iff.mp (hb ▸ le_max_right _ _)
    have hall : ∀ j ∈ A ∪ B, s j = ⊥ := by
      intro j hj
      rcases Finset.mem_union.mp hj with h | h
      · exact eq_bot_of_rowMax_eq_bot hA h
      · exact eq_bot_of_rowMax_eq_bot hB h
    rw [expSum_eq_zero_of_masked hall,
      expSum_eq_zero_of_masked (fun j hj => eq_bot_of_rowMax_eq_bot hB hj),
      expSum_eq_zero_of_masked (fun j hj => eq_bot_of_rowMax_eq_bot hA hj), mul_zero, add_zero]
  · have ht : max (rowMax A s) (rowMax B s) ≠ ⊤ := by
      rw [rowMax_union]; exact rowMax_ne_top hs _
    rw [← EReal.coe_toReal ht hb]
    exact merge_sum_real hs hAB _

/-- The merge step of the online softmax for the numerator, with real values: the same law with
    each term weighted by its value. -/
theorem merge_dot {s v : ι → EReal} (hs : ∀ j, s j ≠ ⊤) (hv : ∀ j, ∃ r : ℝ, v j = (r : EReal))
    {A B : Finset ι} (hAB : Disjoint A B) :
    Ideal.exp (rowMax A s - max (rowMax A s) (rowMax B s)) * expDot A s v (rowMax A s)
        + expDot B s v (max (rowMax A s) (rowMax B s))
      = expDot (A ∪ B) s v (max (rowMax A s) (rowMax B s)) := by
  by_cases hb : max (rowMax A s) (rowMax B s) = ⊥
  · have hA : rowMax A s = ⊥ := le_bot_iff.mp (hb ▸ le_max_left _ _)
    have hB : rowMax B s = ⊥ := le_bot_iff.mp (hb ▸ le_max_right _ _)
    have hall : ∀ j ∈ A ∪ B, s j = ⊥ := by
      intro j hj
      rcases Finset.mem_union.mp hj with h | h
      · exact eq_bot_of_rowMax_eq_bot hA h
      · exact eq_bot_of_rowMax_eq_bot hB h
    rw [expDot_eq_zero_of_masked hall,
      expDot_eq_zero_of_masked (fun j hj => eq_bot_of_rowMax_eq_bot hB hj),
      expDot_eq_zero_of_masked (fun j hj => eq_bot_of_rowMax_eq_bot hA hj), mul_zero, add_zero]
  · have ht : max (rowMax A s) (rowMax B s) ≠ ⊤ := by
      rw [rowMax_union]; exact rowMax_ne_top hs _
    rw [← EReal.coe_toReal ht hb]
    exact merge_dot_real hs hv hAB _

/-- The merge step for the denominator with a real old shift a and a real new shift c. -/
theorem merge_sum_real_real {s : ι → EReal} (hs : ∀ j, s j ≠ ⊤) {A B : Finset ι}
    (hAB : Disjoint A B) (a c : ℝ) :
    Ideal.exp ((a : EReal) - (c : EReal)) * expSum A s (a : EReal) + expSum B s (c : EReal)
      = expSum (A ∪ B) s (c : EReal) := by
  rw [rescale_sum_real hs A a c]
  unfold expSum
  rw [Finset.sum_union hAB]

/-- The merge step for the numerator with a real old shift a and a real new shift c. -/
theorem merge_dot_real_real {s v : ι → EReal} (hs : ∀ j, s j ≠ ⊤)
    (hv : ∀ j, ∃ r : ℝ, v j = (r : EReal)) {A B : Finset ι} (hAB : Disjoint A B) (a c : ℝ) :
    Ideal.exp ((a : EReal) - (c : EReal)) * expDot A s v (a : EReal) + expDot B s v (c : EReal)
      = expDot (A ∪ B) s v (c : EReal) := by
  rw [rescale_dot_real hs hv A a c]
  unfold expDot
  rw [Finset.sum_union hAB]

/-- The merge step for the denominator with the new maximum written as the maximum over the
    union: the running state (maximum, denominator against it) of A becomes that of A ∪ B. -/
theorem merge_sum_union {s : ι → EReal} (hs : ∀ j, s j ≠ ⊤) {A B : Finset ι}
    (hAB : Disjoint A B) :
    Ideal.exp (rowMax A s - rowMax (A ∪ B) s) * expSum A s (rowMax A s)
        + expSum B s (rowMax (A ∪ B) s)
      = expSum (A ∪ B) s (rowMax (A ∪ B) s) := by
  rw [← rowMax_union]
  exact merge_sum hs hAB

/-- The merge step for the numerator with the new maximum written as the maximum over the union. -/
theorem merge_dot_union {s v : ι → EReal} (hs : ∀ j, s j ≠ ⊤)
    (hv : ∀ j, ∃ r : ℝ, v j = (r : EReal)) {A B : Finset ι} (hAB : Disjoint A B) :
    Ideal.exp (rowMax A s - rowMax (A ∪ B) s) * expDot A s v (rowMax A s)
        + expDot B s v (rowMax (A ∪ B) s)
      = expDot (A ∪ B) s v (rowMax (A ∪ B) s) := by
  rw [← rowMax_union]
  exact merge_dot hs hv hAB

/-! ### Normalising at the end -/

/-- Dividing each weight by a nonzero real denominator and then taking the weighted sum is
    dividing the numerator by the denominator: division by a nonzero real is multiplication by its
    real reciprocal, and a real factor moves across a finite sum of reals. -/
theorem normalise_real {s v : ι → EReal} (hs : ∀ j, s j ≠ ⊤)
    (hv : ∀ j, ∃ r : ℝ, v j = (r : EReal)) (A : Finset ι) (c : ℝ)
    (h0 : expSum A s (c : EReal) ≠ 0) :
    ∑ j ∈ A, Ideal.div (Ideal.exp (s j - (c : EReal))) (expSum A s (c : EReal)) * v j
      = Ideal.div (expDot A s v (c : EReal)) (expSum A s (c : EReal)) := by
  choose vr hvr using hv
  have hS : expSum A s (c : EReal) = ((∑ j ∈ A, expShift (s j) c : ℝ) : EReal) := expSum_coe hs A c
  have hS0 : (∑ j ∈ A, expShift (s j) c) ≠ 0 := by
    intro h
    apply h0
    rw [hS, h]
    rfl
  have hterm : ∀ j ∈ A,
      Ideal.div (Ideal.exp (s j - (c : EReal))) (expSum A s (c : EReal)) * v j
        = ((expShift (s j) c * (1 / ∑ k ∈ A, expShift (s k) c) * vr j : ℝ) : EReal) := by
    intro j _
    rw [hS, Ideal.div_coe hS0, exp_sub_coe (hs j) c, hvr j, ← EReal.coe_mul, ← EReal.coe_mul]
  rw [Finset.sum_congr rfl hterm, ← coe_sum, hS, expDot_coe hs hvr A c, Ideal.div_coe hS0,
    ← EReal.coe_mul, Finset.sum_mul]
  refine congrArg _ (Finset.sum_congr rfl (fun j _ => ?_))
  ring

/-- The final step of the online softmax: with M the maximum of the row, not the bottom element
    (some score is real), the weighted sum of the softmax weights exp (s j - M) / l is the
    numerator divided by the denominator l, where l is a real that is at least one. -/
theorem normalise {s v : ι → EReal} (hs : ∀ j, s j ≠ ⊤) (hv : ∀ j, ∃ r : ℝ, v j = (r : EReal))
    {A : Finset ι} (hM : rowMax A s ≠ ⊥) :
    ∑ j ∈ A, Ideal.div (Ideal.exp (s j - rowMax A s)) (expSum A s (rowMax A s)) * v j
      = Ideal.div (expDot A s v (rowMax A s)) (expSum A s (rowMax A s)) := by
  have h0 := expSum_rowMax_ne_zero hs hM
  have ht := rowMax_ne_top hs A
  rw [← EReal.coe_toReal ht hM] at h0 ⊢
  exact normalise_real hs hv A _ h0

/-- The quotient of numerator by denominator does not depend on the real shift: changing the shift
    from c to a multiplies both by the positive real e^(c - a), which cancels. -/
theorem ratio_shift {s v : ι → EReal} (hs : ∀ j, s j ≠ ⊤) (hv : ∀ j, ∃ r : ℝ, v j = (r : EReal))
    (A : Finset ι) (a c : ℝ) (h0 : expSum A s (c : EReal) ≠ 0) :
    Ideal.div (expDot A s v (a : EReal)) (expSum A s (a : EReal))
      = Ideal.div (expDot A s v (c : EReal)) (expSum A s (c : EReal)) := by
  choose vr hvr using hv
  have hk : Real.exp (c - a) ≠ 0 := (Real.exp_pos _).ne'
  have hSc0 : (∑ j ∈ A, expShift (s j) c) ≠ 0 := by
    intro h
    apply h0
    rw [expSum_coe hs A c, h]
    rfl
  have hSa : (∑ j ∈ A, expShift (s j) a) = Real.exp (c - a) * ∑ j ∈ A, expShift (s j) c := by
    rw [Finset.mul_sum]
    exact Finset.sum_congr rfl (fun j _ => (expShift_mul (s j) c a).symm)
  have hNa : (∑ j ∈ A, expShift (s j) a * vr j)
      = Real.exp (c - a) * ∑ j ∈ A, expShift (s j) c * vr j := by
    rw [Finset.mul_sum]
    refine Finset.sum_congr rfl (fun j _ => ?_)
    rw [← mul_assoc, expShift_mul]
  have hSa0 : (∑ j ∈ A, expShift (s j) a) ≠ 0 := by
    rw [hSa]
    exact mul_ne_zero hk hSc0
  rw [expSum_coe hs A a, expSum_coe hs A c, expDot_coe hs hvr A a, expDot_coe hs hvr A c,
    Ideal.div_coe hSa0, Ideal.div_coe hSc0, ← EReal.coe_mul, ← EReal.coe_mul]
  refine congrArg _ ?_
  rw [hSa, hNa]
  field_simp

end Cert.Lib.OnlineSoftmax
-- ==== Proof.RowMath.lean ====
/-
  The row mathematics of a blockwise (flash) attention kernel against one-pass softmax attention.

  One query row attends to 2048 keys, which the kernel visits as two tiles of 1024. It keeps a running
  maximum m, a running denominator l = sum of exp (s j - m) and a running numerator acc = sum of
  exp (s j - m) * v j; at each tile it raises m to the larger of m and the tile's maximum, rescales l and
  acc by exp (m_old - m_new) and adds the tile's terms; at the end it divides acc by l. On a diagonal tile
  the scores of the keys after the query are minus infinity, whose exponential is zero.

  The theorems here say that the quotient the kernel forms is the weighted sum of the softmax weights
  exp (S j - M) / (sum of exp (S j - M)), M the maximum of the whole row, for the two shapes of a walk: a
  reset followed by one masked tile (the other tile's keys all masked), and a reset, a full tile and then a
  masked tile. Both follow from the laws of the online softmax: the state after a tile is the triple
  (maximum, denominator, numerator) over the set of keys seen so far, the merge law carries it across a
  tile, and the normalisation law turns the final quotient into the weighted sum.
-/
import proofs.«108889_j8942121910998_2_alg».proof.Proof.PayloadReads
import proofs.«108889_j8942121910998_2_alg».proof.Proof.LibOnlineSoftmax

noncomputable section

namespace Cert.KernelIdeal.RowMath

open Idealize.ShloMosaic Idealize.ShloMosaic.ValueIdx Cert.KernelIdeal Cert.KernelIdeal.Gen
open Cert.KernelIdeal.Tile Cert.Lib.OnlineSoftmax
open scoped BigOperators

/-! ### The two key tiles among the 2048 keys -/

/-- The first tile of keys: key offset j of the tile is key j of the row. -/
def lo : Fin 1024 ↪ Fin 2048 :=
  ⟨fun j => ⟨j.val, by have := j.isLt; omega⟩, fun a b h => Fin.ext (by
    have h' := Fin.ext_iff.mp h
    exact h')⟩

/-- The second tile of keys: key offset j of the tile is key 1024 + j of the row. -/
def hi : Fin 1024 ↪ Fin 2048 :=
  ⟨fun j => ⟨1024 + j.val, by have := j.isLt; omega⟩, fun a b h => Fin.ext (by
    have h' : 1024 + a.val = 1024 + b.val := Fin.ext_iff.mp h
    omega)⟩

/-- The key that offset j of the first tile names. -/
theorem lo_val (j : Fin 1024) : (lo j).val = j.val := rfl

/-- The key that offset j of the second tile names. -/
theorem hi_val (j : Fin 1024) : (hi j).val = 1024 + j.val := rfl

/-- The keys of the first tile. -/
def T0 : Finset (Fin 2048) := Finset.univ.map lo

/-- The keys of the second tile. -/
def T1 : Finset (Fin 2048) := Finset.univ.map hi

/-- Every key lies in one of the two tiles. -/
theorem T0_union_T1 : T0 ∪ T1 = Finset.univ := by
  refine Finset.eq_univ_iff_forall.mpr fun k => ?_
  rw [Finset.mem_union]
  by_cases hk : k.val < 1024
  · left
    exact Finset.mem_map.mpr ⟨⟨k.val, hk⟩, Finset.mem_univ _, Fin.ext rfl⟩
  · right
    have hk2 := k.isLt
    refine Finset.mem_map.mpr ⟨⟨k.val - 1024, by omega⟩, Finset.mem_univ _, Fin.ext ?_⟩
    rw [hi_val]
    show 1024 + (k.val - 1024) = k.val
    omega

/-- No key lies in both tiles. -/
theorem T0_disjoint_T1 : Disjoint T0 T1 := by
  refine Finset.disjoint_left.mpr fun k h0 h1 => ?_
  obtain ⟨i, _, hi0⟩ := Finset.mem_map.mp h0
  obtain ⟨i', _, hi1⟩ := Finset.mem_map.mp h1
  have h : (lo i).val = (hi i').val := by rw [hi0, hi1]
  rw [lo_val, hi_val] at h
  have := i.isLt
  omega

/-- The weighted sum of the softmax weights of a row of 2048 scores: one-pass softmax attention. -/
def RHS (S v : Fin 2048 → EReal) : EReal :=
  ∑ j : Fin 2048, Ideal.div (Ideal.exp (S j - Finset.univ.sup S))
    (∑ j : Fin 2048, Ideal.exp (S j - Finset.univ.sup S)) * v j

/-! ### Sums and maxima over a tile are sums and maxima over its keys -/

/-- The maximum of a tile's scores is the maximum over the tile's keys. -/
theorem sup_tile (e : Fin 1024 ↪ Fin 2048) (S : Fin 2048 → EReal) (f : Fin 1024 → EReal)
    (hf : ∀ j, f j = S (e j)) : (Finset.univ.sup fun j => f j) = rowMax (Finset.univ.map e) S := by
  unfold rowMax
  rw [Finset.sup_map]
  exact congrArg (Finset.sup Finset.univ) (funext hf)

/-- The sum of a tile's shifted exponentials is the denominator over the tile's keys. -/
theorem expSum_tile (e : Fin 1024 ↪ Fin 2048) (S : Fin 2048 → EReal) (f : Fin 1024 → EReal)
    (hf : ∀ j, f j = S (e j)) (M : EReal) :
    ∑ j : Fin 1024, Ideal.exp (f j - M) = expSum (Finset.univ.map e) S M := by
  unfold expSum
  rw [Finset.sum_map]
  exact Finset.sum_congr rfl fun j _ => by rw [hf j]

/-- The sum of a tile's shifted exponentials times the values is the numerator over the tile's keys. -/
theorem expDot_tile (e : Fin 1024 ↪ Fin 2048) (S v : Fin 2048 → EReal) (f g : Fin 1024 → EReal)
    (hf : ∀ j, f j = S (e j)) (hg : ∀ j, g j = v (e j)) (M : EReal) :
    ∑ j : Fin 1024, Ideal.exp (f j - M) * g j = expDot (Finset.univ.map e) S v M := by
  unfold expDot
  rw [Finset.sum_map]
  exact Finset.sum_congr rfl fun j _ => by rw [hf j, hg j]

/-! ### One masked tile from a state over a set of keys -/

/-- One masked tile update. If the running maximum, denominator and numerator of row r are those of a
    set A of keys, and the masked scores and the values of the tile are those of the keys e j, none of
    them in A, then after the update they are those of A together with the tile's keys: the new maximum is
    the larger of the two maxima, and the merge law adds the rescaled old sums to the tile's. -/
theorem masked_update (q : ℕ) (hq : q < 2) (x0 x1 x2 : Vec Ideal S1x1024x128 .bf16)
    (m l : Vec Ideal S1024x1 .f32) (acc : Vec Ideal S1024x128 .f32) (r : Fin 1024) (d : Fin 128)
    (S v : Fin 2048 → EReal) (e : Fin 1024 ↪ Fin 2048) (A : Finset (Fin 2048))
    (hAB : Disjoint A (Finset.univ.map e))
    (hsc : ∀ j, msc x0 x1 r j = S (e j)) (hval : ∀ j, x2 (ix3 (0 : Fin 1) j d) = v (e j))
    (hs : ∀ j, S j ≠ ⊤) (hv : ∀ j, ∃ a : ℝ, v j = (a : EReal))
    (hm : m (ix2 r (0 : Fin 1)) = rowMax A S)
    (hl : l (ix2 r (0 : Fin 1)) = expSum A S (rowMax A S))
    (hacc : acc (ix2 r d) = expDot A S v (rowMax A S)) :
    k1_pay15 (F := Ideal) (BitVec.ofNat 32 q) (BitVec.ofNat 32 q) x0 x1 m (ix2 r (0 : Fin 1))
        = rowMax (A ∪ Finset.univ.map e) S
    ∧ k1_pay18 (F := Ideal) (BitVec.ofNat 32 q) (BitVec.ofNat 32 q) x0 x1 m l (ix2 r (0 : Fin 1))
        = expSum (A ∪ Finset.univ.map e) S (rowMax (A ∪ Finset.univ.map e) S)
    ∧ k1_pay5 (F := Ideal) (k1_pay17 (BitVec.ofNat 32 q) (BitVec.ofNat 32 q) x0 x1 m)
          (k1_pay19 (BitVec.ofNat 32 q) (BitVec.ofNat 32 q) x0 x1 m acc) x2 (ix2 r d)
        = expDot (A ∪ Finset.univ.map e) S v (rowMax (A ∪ Finset.univ.map e) S) := by
  have h15 : k1_pay15 (F := Ideal) (BitVec.ofNat 32 q) (BitVec.ofNat 32 q) x0 x1 m (ix2 r (0 : Fin 1))
      = max (rowMax A S) (rowMax (Finset.univ.map e) S) := by
    refine (pay15_read q hq x0 x1 m r).trans ?_
    rw [hm, sup_tile e S _ hsc]
  have h16 : k1_pay16 (F := Ideal) (BitVec.ofNat 32 q) (BitVec.ofNat 32 q) x0 x1 m (ix2 r (0 : Fin 1))
      = Ideal.exp (rowMax A S - max (rowMax A S) (rowMax (Finset.univ.map e) S)) := by
    refine (pay16_read _ _ x0 x1 m r).trans ?_
    rw [hm, h15]
  have h17 : ∀ j : Fin 1024,
      k1_pay17 (F := Ideal) (BitVec.ofNat 32 q) (BitVec.ofNat 32 q) x0 x1 m (ix2 r j)
        = Ideal.exp (msc x0 x1 r j - max (rowMax A S) (rowMax (Finset.univ.map e) S)) := by
    intro j
    refine (pay17_read q hq x0 x1 m r j).trans ?_
    rw [h15]
  refine ⟨h15.trans (rowMax_union A _ S), ?_, ?_⟩
  · refine (pay18_read _ _ x0 x1 m l r).trans ?_
    rw [h16, hl, Finset.sum_congr rfl fun j _ => h17 j, expSum_tile e S _ hsc, merge_sum hs hAB,
      rowMax_union]
  · refine (pay5_read _ _ x2 r d).trans ?_
    rw [pay19_read, h16, hacc, Finset.sum_congr rfl fun j _ => congrArg (· * x2 (ix3 (0 : Fin 1) j d)) (h17 j),
      expDot_tile e S v _ _ hsc hval, merge_dot hs hv hAB, rowMax_union]

/-! ### The state after a reset and a full tile -/

/-- A reset followed by one full tile over the keys e j: the running maximum, denominator and numerator
    of row r are those of the tile's keys. The reset state is minus infinity, zero and zero, so the
    rescaled old sums vanish and the new maximum is the tile's. -/
theorem reset_full (x0 x1 x2 : Vec Ideal S1x1024x128 .bf16) (r : Fin 1024) (d : Fin 128)
    (S v : Fin 2048 → EReal) (e : Fin 1024 ↪ Fin 2048)
    (hsc : ∀ j, sc x0 x1 r j = S (e j)) (hval : ∀ j, x2 (ix3 (0 : Fin 1) j d) = v (e j)) :
    k1_pay4 (F := Ideal) (k1_pay9 x0 x1 (k1_pay1 (F := Ideal))) (ix2 r (0 : Fin 1))
        = rowMax (Finset.univ.map e) S
    ∧ k1_pay12 (F := Ideal) x0 x1 (k1_pay1 (F := Ideal)) (k1_pay2 (F := Ideal)) (ix2 r (0 : Fin 1))
        = expSum (Finset.univ.map e) S (rowMax (Finset.univ.map e) S)
    ∧ k1_pay13 (F := Ideal) x0 x1 (k1_pay1 (F := Ideal)) (k1_pay3 (F := Ideal)) x2 (ix2 r d)
        = expDot (Finset.univ.map e) S v (rowMax (Finset.univ.map e) S) := by
  have h9 : k1_pay9 (F := Ideal) x0 x1 (k1_pay1 (F := Ideal)) (ix2 r (0 : Fin 1))
      = rowMax (Finset.univ.map e) S := by
    refine (pay9_read x0 x1 (k1_pay1 (F := Ideal)) r).trans ?_
    rw [pay1_read, sup_tile e S _ hsc]
    exact max_eq_right bot_le
  have h11 : ∀ j : Fin 1024, k1_pay11 (F := Ideal) x0 x1 (k1_pay1 (F := Ideal)) (ix2 r j)
      = Ideal.exp (sc x0 x1 r j - rowMax (Finset.univ.map e) S) := by
    intro j
    refine (pay11_read x0 x1 (k1_pay1 (F := Ideal)) r j).trans ?_
    rw [h9]
  refine ⟨(pay4_read _ r).trans h9, ?_, ?_⟩
  · refine (pay12_read x0 x1 (k1_pay1 (F := Ideal)) (k1_pay2 (F := Ideal)) r).trans ?_
    rw [pay2_read, mul_zero, zero_add, Finset.sum_congr rfl fun j _ => h11 j, expSum_tile e S _ hsc]
  · refine (pay13_read x0 x1 (k1_pay1 (F := Ideal)) (k1_pay3 (F := Ideal)) x2 r d).trans ?_
    rw [pay3_read, mul_zero, zero_add,
      Finset.sum_congr rfl fun j _ => congrArg (· * x2 (ix3 (0 : Fin 1) j d)) (h11 j),
      expDot_tile e S v _ _ hsc hval]

/-! ### From the state over all keys to the softmax -/

/-- The numerator over all keys divided by the denominator over all keys, both against the maximum of
    the row, is the weighted sum of the softmax weights: the normalisation law at the whole row. -/
theorem quotient_univ (S v : Fin 2048 → EReal) (hs : ∀ j, S j ≠ ⊤)
    (hv : ∀ j, ∃ a : ℝ, v j = (a : EReal)) (hM : Finset.univ.sup S ≠ ⊥) :
    Ideal.div (expDot Finset.univ S v (rowMax Finset.univ S)) (expSum Finset.univ S (rowMax Finset.univ S))
      = RHS S v := by
  have hM' : rowMax Finset.univ S ≠ ⊥ := hM
  exact (normalise hs hv hM').symm

/-- When every key of the second tile is masked, the maximum, denominator and numerator over the first
    tile are those over all keys: a masked key is below every maximum and its exponential is zero. -/
theorem state_T0_of_masked (S v : Fin 2048 → EReal) (hhi : ∀ j, S (hi j) = ⊥) :
    rowMax T0 S = rowMax Finset.univ S
    ∧ (∀ M, expSum T0 S M = expSum Finset.univ S M)
    ∧ (∀ M, expDot T0 S v M = expDot Finset.univ S v M) := by
  have hmask : ∀ k ∈ T1, S k = ⊥ := by
    intro k hk
    obtain ⟨j, _, rfl⟩ := Finset.mem_map.mp hk
    exact hhi j
  have hmax : rowMax T1 S = ⊥ := by
    unfold rowMax
    exact (Finset.sup_eq_bot_iff S T1).mpr hmask
  refine ⟨?_, fun M => ?_, fun M => ?_⟩
  · rw [← T0_union_T1, ← rowMax_union, hmax]
    exact (max_eq_left bot_le).symm
  · rw [← T0_union_T1]
    unfold expSum
    rw [Finset.sum_union T0_disjoint_T1]
    have h0 : ∑ j ∈ T1, Ideal.exp (S j - M) = 0 := expSum_eq_zero_of_masked hmask M
    rw [h0, add_zero]
  · rw [← T0_union_T1]
    unfold expDot
    rw [Finset.sum_union T0_disjoint_T1]
    have h0 : ∑ j ∈ T1, Ideal.exp (S j - M) * v j = 0 := expDot_eq_zero_of_masked hmask v M
    rw [h0, add_zero]

/-! ### The two walks -/

/-- A reset followed by one masked tile, the second tile's keys all masked. The kernel's quotient for
    row r and output column d is the softmax attention of the row over all 2048 keys: the state after the
    tile is that of the first 1024 keys, the masked keys of the second tile add nothing to the maximum, the
    denominator or the numerator, and the normalisation law turns the quotient into the weighted sum. -/
theorem row_first (q : ℕ) (hq : q < 2) (x0 x1 x2 : Vec Ideal S1x1024x128 .bf16) (r : Fin 1024) (d : Fin 128)
    (S v : Fin 2048 → EReal)
    (hlo : ∀ j, msc x0 x1 r j = S (lo j)) (hhi : ∀ j, S (hi j) = ⊥)
    (hvlo : ∀ j, x2 (ix3 (0 : Fin 1) j d) = v (lo j))
    (hs : ∀ j, S j ≠ ⊤) (hv : ∀ j, ∃ a : ℝ, v j = (a : EReal)) (hM : Finset.univ.sup S ≠ ⊥) :
    Ideal.div
        (k1_pay5 (F := Ideal)
          (k1_pay17 (BitVec.ofNat 32 q) (BitVec.ofNat 32 q) x0 x1 (k1_pay1 (F := Ideal)))
          (k1_pay19 (BitVec.ofNat 32 q) (BitVec.ofNat 32 q) x0 x1 (k1_pay1 (F := Ideal))
            (k1_pay3 (F := Ideal)))
          x2 (ix2 r d))
        (k1_pay18 (F := Ideal) (BitVec.ofNat 32 q) (BitVec.ofNat 32 q) x0 x1 (k1_pay1 (F := Ideal))
          (k1_pay2 (F := Ideal)) (ix2 r (0 : Fin 1)))
      = RHS S v := by
  obtain ⟨_, h18, h5⟩ := masked_update q hq x0 x1 x2 (k1_pay1 (F := Ideal)) (k1_pay2 (F := Ideal))
    (k1_pay3 (F := Ideal)) r d S v lo ∅
    (Finset.disjoint_empty_left _) hlo hvlo hs hv
    (by rw [pay1_read, rowMax_empty]) (by rw [pay2_read, expSum_empty]) (by rw [pay3_read, expDot_empty])
  obtain ⟨hmax, hsum, hdot⟩ := state_T0_of_masked S v hhi
  rw [h5, h18, Finset.empty_union]
  show Ideal.div (expDot T0 S v (rowMax T0 S)) (expSum T0 S (rowMax T0 S)) = RHS S v
  rw [hmax, hsum, hdot]
  exact quotient_univ S v hs hv hM

/-- A reset, a full tile over the first 1024 keys, then a masked tile over the second 1024. The kernel's
    quotient for row r and output column d is the softmax attention of the row over all 2048 keys: after
    the full tile the state is that of the first tile's keys, the merge law carries it across the masked
    tile to the state of all keys, and the normalisation law turns the quotient into the weighted sum. -/
theorem row_second (q : ℕ) (hq : q < 2) (x0 x1a x2a x1b x2b : Vec Ideal S1x1024x128 .bf16)
    (r : Fin 1024) (d : Fin 128) (S v : Fin 2048 → EReal)
    (hlo : ∀ j, sc x0 x1a r j = S (lo j)) (hhi : ∀ j, msc x0 x1b r j = S (hi j))
    (hvlo : ∀ j, x2a (ix3 (0 : Fin 1) j d) = v (lo j)) (hvhi : ∀ j, x2b (ix3 (0 : Fin 1) j d) = v (hi j))
    (hs : ∀ j, S j ≠ ⊤) (hv : ∀ j, ∃ a : ℝ, v j = (a : EReal)) (hM : Finset.univ.sup S ≠ ⊥) :
    Ideal.div
        (k1_pay5 (F := Ideal)
          (k1_pay17 (BitVec.ofNat 32 q) (BitVec.ofNat 32 q) x0 x1b
            (k1_pay4 (k1_pay9 x0 x1a (k1_pay1 (F := Ideal)))))
          (k1_pay19 (BitVec.ofNat 32 q) (BitVec.ofNat 32 q) x0 x1b
            (k1_pay4 (k1_pay9 x0 x1a (k1_pay1 (F := Ideal))))
            (k1_pay13 x0 x1a (k1_pay1 (F := Ideal)) (k1_pay3 (F := Ideal)) x2a))
          x2b (ix2 r d))
        (k1_pay18 (F := Ideal) (BitVec.ofNat 32 q) (BitVec.ofNat 32 q) x0 x1b
          (k1_pay4 (k1_pay9 x0 x1a (k1_pay1 (F := Ideal))))
          (k1_pay12 x0 x1a (k1_pay1 (F := Ideal)) (k1_pay2 (F := Ideal))) (ix2 r (0 : Fin 1)))
      = RHS S v := by
  obtain ⟨hmC, hlC, haccC⟩ := reset_full x0 x1a x2a r d S v lo hlo hvlo
  obtain ⟨_, h18, h5⟩ := masked_update q hq x0 x1b x2b (k1_pay4 (k1_pay9 x0 x1a (k1_pay1 (F := Ideal))))
    (k1_pay12 x0 x1a (k1_pay1 (F := Ideal)) (k1_pay2 (F := Ideal)))
    (k1_pay13 x0 x1a (k1_pay1 (F := Ideal)) (k1_pay3 (F := Ideal)) x2a) r d S v hi T0
    T0_disjoint_T1 hhi hvhi hs hv hmC hlC haccC
  rw [h5, h18]
  show Ideal.div (expDot (T0 ∪ T1) S v (rowMax (T0 ∪ T1) S)) (expSum (T0 ∪ T1) S (rowMax (T0 ∪ T1) S))
    = RHS S v
  rw [T0_union_T1]
  exact quotient_univ S v hs hv hM

end Cert.KernelIdeal.RowMath

end
-- ==== Proof.Region1RowsIdeal.lean ====
/-
  The second kernel region, row by row: at a point on the last key tile, row r and column d of the stored output block is
  the specification's attention output at batch b, query qi·1024 + r, column d.

  For query tile 0 the point before reset the running state and folded in the masked diagonal tile; the keys of the second
  tile all lie above the diagonal, so the softmax over the first tile is the softmax over all keys. For query tile 1 the
  point before reset the state and folded in the full first tile, and this point folds in the masked diagonal tile: the
  rescaling by exp(old maximum − new maximum) makes the two tiles one sum, and dividing the numerator by the denominator is
  the softmax-weighted sum of the values. The tile scores are the specification's masked scores because the query, key and
  value blocks are slices of the projections.
-/
import proofs.«108889_j8942121910998_2_alg».proof.Proof.Region1ValueIdeal
import proofs.«108889_j8942121910998_2_alg».proof.Proof.PayloadReads
import proofs.«108889_j8942121910998_2_alg».proof.Proof.RowMath

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b)) (c : Dev nD)
variable (x : (⟨3, ![8, 2048, 1024]⟩ : Shape).Idx → EReal) (Wq Wk Wv : (⟨2, ![1024, 128]⟩ : Shape).Idx → EReal)
variable (hq : ∀ (b : Fin 8) (i : Fin 2048) (e : Fin 128),
    (V c main_v1 : S8x2048x384.Idx → EReal) (ix3 b i (⟨e.val, by omega⟩ : Fin 384)) = Cert.Attn.proj x Wq b i e)
variable (hk : ∀ (b : Fin 8) (i : Fin 2048) (e : Fin 128),
    (V c main_v1 : S8x2048x384.Idx → EReal) (ix3 b i (⟨128 + e.val, by omega⟩ : Fin 384)) = Cert.Attn.proj x Wk b i e)
variable (hv : ∀ (b : Fin 8) (i : Fin 2048) (e : Fin 128),
    (V c main_v1 : S8x2048x384.Idx → EReal) (ix3 b i (⟨256 + e.val, by omega⟩ : Fin 384)) = Cert.Attn.proj x Wv b i e)

/-- Two points of one batch and query tile stage the same query block. -/
theorem q_same (t t' : Fin cfg1.N) (h4 : t'.val / 4 = t.val / 4) (h2 : t'.val / 2 % 2 = t.val / 2 % 2) :
    blockAt V c 0 t' = blockAt V c 0 t := by
  have hN : cfg1.N = 32 := N_1
  funext y
  have hy1 : (y 1).val < 1024 := (y 1).isLt
  have hy2 : (y 2).val < 128 := (y 2).isLt
  let k : S8x2048x384.Idx := ix3 (⟨t.val / 4, by omega⟩ : Fin 8) (⟨t.val / 2 % 2 * 1024 + (y 1).val, by omega⟩ : Fin 2048) (⟨(y 2).val, by omega⟩ : Fin 384)
  exact (q_block V c t' y k h4.symm (by show _ = t'.val / 2 % 2 * 1024 + _; rw [h2]) rfl).trans (q_block V c t y k rfl rfl rfl).symm

variable (hS : ∀ (b : Fin 8) (i j : Fin 2048), Cert.Attn.masked x Wq Wk b i j ≠ ⊤)
variable (hvr : ∀ (b : Fin 8) (j : Fin 2048) (d : Fin 128), ∃ a : ℝ, Cert.Attn.proj x Wv b j d = (a : EReal))
variable (hM : ∀ (b : Fin 8) (i : Fin 2048), (Finset.univ.sup fun j => Cert.Attn.masked x Wq Wk b i j) ≠ ⊥)

open Cert.KernelIdeal.Tile Cert.KernelIdeal.RowMath

/-- The specification's output at (b, i, d) is the softmax-weighted sum of the values over the masked scores. -/
theorem out_eq_RHS (b : Fin 8) (i : Fin 2048) (d : Fin 128) :
    Cert.Attn.G x Wq Wk Wv (ix3 b i d) = RHS (fun j => Cert.Attn.masked x Wq Wk b i j) (fun j => Cert.Attn.proj x Wv b j d) := by
  rw [Cert.Attn.G_ix3]; rfl

include hq hk in
/-- A full tile's score at (r, j) is the specification's score of query i against key j of the tile. -/
theorem sc_eq (t : Fin cfg1.N) (b : Fin 8) (i j : Fin 2048) (r j' : Fin 1024) (hb : b.val = t.val / 4)
    (hiv : i.val = t.val / 2 % 2 * 1024 + r.val) (hj : j.val = min (t.val % 2) (t.val / 2 % 2) * 1024 + j'.val) :
    sc (blockAt V c 0 t) (blockAt V c 1 t) r j' = Cert.Attn.score x Wq Wk b i j := by
  unfold sc Cert.Attn.score
  congr 1
  exact Finset.sum_congr rfl fun e _ => by
    rw [q_entry V c x Wq hq t b i r e hb hiv, k_entry V c x Wk hk t b j j' e hb hj]

include hq hk hv hS hvr hM in
/-- THE ROW. At a point on the last key tile, row r, column d of the stored output block is the specification's output
    at batch b, query i = qi·1024 + r, column d. -/
theorem row_out (t : Fin cfg1.N) (ht : t.val % 2 = 1) (r : Fin 1024) (d : Fin 128) (b : Fin 8) (i : Fin 2048)
    (hb : b.val = t.val / 4) (hiv : i.val = t.val / 2 % 2 * 1024 + r.val) :
    (outsAt V c t.val t.isLt).1 (ix3 (0 : Fin 1) r d) = Cert.Attn.G x Wq Wk Wv (ix3 b i d) := by
  have hN : cfg1.N = 32 := N_1
  have hr : r.val < 1024 := r.isLt
  rw [out_eq_RHS]
  by_cases h1 : t.val % 4 = 1
  · -- query tile 0: the point before reset the state and folded in the masked diagonal tile
    let t' : Fin cfg1.N := ⟨t.val - 1, by omega⟩
    have htv : t'.val = t.val - 1 := rfl
    have h0 : t'.val % 4 = 0 := by omega
    obtain ⟨cq, ck⟩ := coords_qk t'
    have hwq : wq t' = BitVec.ofNat 32 0 := by unfold wq; rw [cq]; congr 1 <;> omega
    have hwk : wk t' = BitVec.ofNat 32 0 := by unfold wk; rw [ck]; congr 1 <;> omega
    rw [outsAt_B V c t h1, stB_out, pay7_read]
    rw [show outsAt V c (t.val - 1) (Nat.lt_of_le_of_lt (Nat.sub_le _ _) t.isLt) = stA V c t' h0 from outsAt_A V c t' h0]
    rw [stA_num, stA_den, hwq, hwk]
    have hb' : b.val = t'.val / 4 := by omega
    have hiv' : i.val = t'.val / 2 % 2 * 1024 + r.val := by omega
    refine row_first 0 (by norm_num) _ _ _ r d _ _ ?_ ?_ ?_ (hS b i) (fun j => hvr b j d) (hM b i)
    · intro j'
      have hj' : j'.val < 1024 := j'.isLt
      have hj : (lo j').val = min (t'.val % 2) (t'.val / 2 % 2) * 1024 + j'.val := by rw [lo_val]; omega
      unfold msc Cert.Attn.masked
      rw [sc_eq V c x Wq Wk hq hk t' b i (lo j') r j' hb' hiv' hj]
      exact if_congr (by rw [lo_val]; omega) rfl rfl
    · intro j'
      exact Cert.Attn.masked_of_lt x Wq Wk b (j := RowMath.hi j') (by rw [hi_val]; omega)
    · intro j'
      have hj' : j'.val < 1024 := j'.isLt
      exact v_entry V c x Wv hv t' b (lo j') j' d hb' (by rw [lo_val]; omega)
  · -- query tile 1: the point before folded in the full first tile, this one folds in the masked diagonal tile
    have h3 : t.val % 4 = 3 := by omega
    let t' : Fin cfg1.N := ⟨t.val - 1, by omega⟩
    have htv : t'.val = t.val - 1 := rfl
    have h2 : t'.val % 4 = 2 := by omega
    obtain ⟨cq, ck⟩ := coords_qk t
    have hwq : wq t = BitVec.ofNat 32 1 := by unfold wq; rw [cq]; congr 1 <;> omega
    have hwk : wk t = BitVec.ofNat 32 1 := by unfold wk; rw [ck]; congr 1 <;> omega
    rw [outsAt_D V c t h3, stD_out, pay7_read]
    rw [show outsAt V c (t.val - 1) (Nat.lt_of_le_of_lt (Nat.sub_le _ _) t.isLt) = stC V c t' h2 from outsAt_C V c t' h2]
    have hqs : blockAt V c 0 t' = blockAt V c 0 t := q_same V c t t' (by omega) (by omega)
    rw [stC_max, stC_den, stC_num, hwq, hwk, hqs]
    have hb' : b.val = t'.val / 4 := by omega
    have hiv' : i.val = t'.val / 2 % 2 * 1024 + r.val := by omega
    refine row_second 1 (by norm_num) _ _ _ _ _ r d _ _ ?_ ?_ ?_ ?_ (hS b i) (fun j => hvr b j d) (hM b i)
    · intro j'
      have hj' : j'.val < 1024 := j'.isLt
      have e1 : sc (blockAt V c 0 t) (blockAt V c 1 t') r j' = sc (blockAt V c 0 t') (blockAt V c 1 t') r j' := by
        rw [hqs]
      rw [e1, sc_eq V c x Wq Wk hq hk t' b i (lo j') r j' hb' hiv' (by rw [lo_val]; omega)]
      exact (Cert.Attn.masked_of_le x Wq Wk b (j := lo j') (by rw [lo_val]; omega)).symm
    · intro j'
      have hj' : j'.val < 1024 := j'.isLt
      unfold msc Cert.Attn.masked
      rw [sc_eq V c x Wq Wk hq hk t b i (RowMath.hi j') r j' hb hiv (by rw [hi_val]; omega)]
      exact if_congr (by rw [hi_val]; omega) rfl rfl
    · intro j'
      have hj' : j'.val < 1024 := j'.isLt
      exact v_entry V c x Wv hv t' b (lo j') j' d hb' (by rw [lo_val]; omega)
    · intro j'
      have hj' : j'.val < 1024 := j'.isLt
      exact v_entry V c x Wv hv t b (RowMath.hi j') j' d hb (by rw [hi_val]; omega)

end Cert.KernelIdeal.AttnValue

end
-- ==== Proof.LibLastAxis.lean ====
/-
  Host reductions of a stack of matrices along the last axis, read at an index.

  Reducing an array `[a, b, c]` along its last axis gives a matrix `[a, b]` whose entry `(i, j)` depends on the fibre
  `(i, j, ·)` alone: for a maximum it is the fold of `max` over the fibre from the initial value, for a disjunction of
  bits the fold of `or`. The index of the array that reduces to `(i, j)` and has `k` on the last axis is `(i, j, k)`.
-/
import Idealize.ShloMosaic.PureOps.Ideal.Laws
import Idealize.ShloMosaic.PureOps.Reduce
import Idealize.ShloMosaic.Lib.Pipeline.Value
import Idealize.ShloMosaic.Lib.ValueIdx

noncomputable section

namespace Cert.LastAxis

open Idealize.ShloMosaic Idealize.ShloMosaic.ValueIdx

/-- The index that reduces to `(i, j)` along the last axis and has `k` there is `(i, j, k)`. -/
theorem lift_last {a b c : ℕ} (h : (⟨3, ![a, b, c]⟩ : Shape).Reduces [2] ⟨2, ![a, b]⟩) (i : Fin a) (j : Fin b)
    (k : Fin ((⟨3, ![a, b, c]⟩ : Shape).size 2)) : h.lift (ix2 i j) k = ix3 i j (⟨k.val, k.isLt⟩ : Fin c) := by
  funext d; apply Fin.ext
  match d with
  | ⟨0, _⟩ => rfl
  | ⟨1, _⟩ => rfl
  | ⟨2, _⟩ => rfl

/-- A host maximum along the last axis, at `(i, j)`: the fold of `max` over the fibre from the initial value. -/
theorem reduceMax_last {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := .f32)) x init h' hu (ix2 i j)
      = (Finset.univ : Finset (Fin c)).fold max (init (Shape.Idx.first hu)) (fun k => x (ix3 i j k)) := by
  have hf : (FloatOps.maximumf (F := Ideal) (φ := .f32)) = (max : EReal → EReal → EReal) := rfl
  rw [hf, Host.reduce_eq_fold_single (max : EReal → EReal → EReal) x _ h' h hu (ix2 i j)]
  exact congrArg (fun f => Finset.fold max (init (Shape.Idx.first hu)) f (Finset.univ : Finset (Fin c)))
    (funext fun k => congrArg x (lift_last h i j k))

/-- A host disjunction of bits along the last axis, at `(i, j)`: the fold of `or` over the fibre. -/
theorem reduceOr_last {a b c : ℕ} {u : Shape} (p : IVec ⟨3, ![a, b, c]⟩ 1) (init : u.Idx → BitVec 1)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (IntOp.ori (w := 1)) p init h' hu (ix2 i j)
      = (Finset.univ : Finset (Fin c)).fold IntOp.ori (init (Shape.Idx.first hu)) (fun k => p (ix3 i j k)) := by
  rw [Host.reduce_eq_fold_single (IntOp.ori (w := 1)) p _ h' h hu (ix2 i j)]
  exact congrArg (fun f => Finset.fold IntOp.ori (init (Shape.Idx.first hu)) f (Finset.univ : Finset (Fin c)))
    (funext fun k => congrArg p (lift_last h i j k))

end Cert.LastAxis

end
-- ==== Proof.RefIsSpec.lean ====
/-
  The reference program computes causal softmax attention over projected rows.

  The reference is a chain of array operations: three products of the activations with the three matrices (queries,
  keys, values); the product of queries with keys along the 128 components, times a broadcast scale; a lower-triangle
  array of bits, built from the row numbers plus zero compared with the column numbers, which selects between each
  scaled score and minus infinity; the maximum of each row from minus infinity, and once more against minus infinity;
  the exponential of each entry less its row's maximum; the sum of each row from zero; the quotient of each
  exponential by its row's sum; and the product of these weights with the values along the rows.

  Each operation is read at one index with coordinates `(b, i, j)` or `(b, i)`: a product is a sum over the contracted
  coordinate, a broadcast reads the entry it repeats, a selection is an `if` on its bit. Read in program order, each
  stage is the matching function of the specification: `proj`, `score`, `masked`, `rowMax`, `expo`, `rowSum`, the weight
  `expo / rowSum`, and `out`. Three small facts bring the reference's own form to that form: the maximum of minus
  infinity with `x` is `x`; a fold of `max` from minus infinity over a whole row is the row's supremum; zero plus a sum
  is the sum.
-/
import proofs.«108889_j8942121910998_2_alg».proof.Proof.AttnSpec
import proofs.«108889_j8942121910998_2_alg».proof.Proof.LibLastAxis
import proofs.«108889_j8942121910998_2_alg».proof.Proof.Gen.ReferenceIdeal.Read
import Idealize.ShloMosaic.Lib.Affine
import Idealize.ShloMosaic.PureOps.Ideal.Laws
import Idealize.ShloMosaic.Lib.ValueIdx

noncomputable section

open scoped BigOperators

namespace Cert.Attn.Ref

open Cert.Attn Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The two float words the reference names -/

/-- The word `0xFF800000` denotes minus infinity. -/
theorem ofBits_neg_inf : Ideal.ofBits .f32 0xFF800000#32 = ⊥ := by simp [Ideal.ofBits, Ideal.ieee]

/-! ## The three projections -/

/-- The left operand of a projection's contraction at result `(b, i, e)` and feature `c` is `x[b, i, c]`. -/
theorem lidx0 (b : Fin 8) (i : Fin 2048) (e : Fin 128) (c : Fin 1024) : lidx_main_v0 (ix3 b i e) c = ix3 b i c :=
  funext fun a => by match a with | ⟨0, _⟩ => rfl | ⟨1, _⟩ => rfl | ⟨2, _⟩ => rfl
/-- The right operand of a projection's contraction at result `(b, i, e)` and feature `c` is `W[c, e]`. -/
theorem ridx0 (b : Fin 8) (i : Fin 2048) (e : Fin 128) (c : Fin 1024) : ridx_main_v0 (ix3 b i e) c = ix2 c e :=
  funext fun a => by match a with | ⟨0, _⟩ => rfl | ⟨1, _⟩ => rfl

/-- The first product of the reference is the projection by its first matrix. -/
theorem q_at (x0 : (⟨S8x2048x1024, .f32⟩ : BufTy).Contents (Elt Ideal)) (x1 : (⟨S1024x128, .f32⟩ : BufTy).Contents (Elt Ideal))
    (b : Fin 8) (i : Fin 2048) (e : Fin 128) : val_main_v0 (F := Ideal) x0 x1 (ix3 b i e) = proj x0 x1 b i e := by
  rw [val_main_v0_apply]
  simp only [lidx0, ridx0]
  rfl

/-- The same two index equations for the second product. -/
theorem lidx1 (b : Fin 8) (i : Fin 2048) (e : Fin 128) (c : Fin 1024) : lidx_main_v1 (ix3 b i e) c = ix3 b i c :=
  funext fun a => by match a with | ⟨0, _⟩ => rfl | ⟨1, _⟩ => rfl | ⟨2, _⟩ => rfl
theorem ridx1 (b : Fin 8) (i : Fin 2048) (e : Fin 128) (c : Fin 1024) : ridx_main_v1 (ix3 b i e) c = ix2 c e :=
  funext fun a => by match a with | ⟨0, _⟩ => rfl | ⟨1, _⟩ => rfl

/-- The second product of the reference is the projection by its second matrix. -/
theorem k_at (x0 : (⟨S8x2048x1024, .f32⟩ : BufTy).Contents (Elt Ideal)) (x2 : (⟨S1024x128, .f32⟩ : BufTy).Contents (Elt Ideal))
    (b : Fin 8) (i : Fin 2048) (e : Fin 128) : val_main_v1 (F := Ideal) x0 x2 (ix3 b i e) = proj x0 x2 b i e := by
  rw [val_main_v1_apply]
  simp only [lidx1, ridx1]
  rfl

/-- The same two index equations for the third product. -/
theorem lidx2 (b : Fin 8) (i : Fin 2048) (e : Fin 128) (c : Fin 1024) : lidx_main_v2 (ix3 b i e) c = ix3 b i c :=
  funext fun a => by match a with | ⟨0, _⟩ => rfl | ⟨1, _⟩ => rfl | ⟨2, _⟩ => rfl
theorem ridx2 (b : Fin 8) (i : Fin 2048) (e : Fin 128) (c : Fin 1024) : ridx_main_v2 (ix3 b i e) c = ix2 c e :=
  funext fun a => by match a with | ⟨0, _⟩ => rfl | ⟨1, _⟩ => rfl

/-- The third product of the reference is the projection by its third matrix. -/
theorem v_at (x0 : (⟨S8x2048x1024, .f32⟩ : BufTy).Contents (Elt Ideal)) (x3 : (⟨S1024x128, .f32⟩ : BufTy).Contents (Elt Ideal))
    (b : Fin 8) (i : Fin 2048) (e : Fin 128) : val_main_v2 (F := Ideal) x0 x3 (ix3 b i e) = proj x0 x3 b i e := by
  rw [val_main_v2_apply]
  simp only [lidx2, ridx2]
  rfl

/-! ## The scaled scores -/

/-- The query side of the score `(b, i, j)` at component `e` is the query of row `i`. -/
theorem lidx3 (b : Fin 8) (i j : Fin 2048) (e : Fin 128) : lidx_main_v3 (ix3 b i j) e = ix3 b i e :=
  funext fun a => by match a with | ⟨0, _⟩ => rfl | ⟨1, _⟩ => rfl | ⟨2, _⟩ => rfl
/-- The key side of the score `(b, i, j)` at component `e` is the key of row `j`. -/
theorem ridx3 (b : Fin 8) (i j : Fin 2048) (e : Fin 128) : ridx_main_v3 (ix3 b i j) e = ix3 b j e :=
  funext fun a => by match a with | ⟨0, _⟩ => rfl | ⟨1, _⟩ => rfl | ⟨2, _⟩ => rfl

/-- The product of queries with keys, times the broadcast scale word, is the scaled score. -/
theorem score_at (x0 : (⟨S8x2048x1024, .f32⟩ : BufTy).Contents (Elt Ideal)) (x1 x2 : (⟨S1024x128, .f32⟩ : BufTy).Contents (Elt Ideal))
    (b : Fin 8) (i j : Fin 2048) : val_main_v5 (F := Ideal) x0 x1 x2 (ix3 b i j) = score x0 x1 x2 b i j := by
  rw [val_main_v5_apply, val_main_v3_apply, val_main_v4_apply, val_main_cst_apply]
  simp only [lidx3, ridx3, q_at, k_at]
  rfl

/-! ## The causal mask -/

/-- A row or column number below 2048, written as a 32-bit word, reads back signed as itself. -/
theorem toInt_ofNat_lt (n : Nat) (h : n < 2048) : (BitVec.ofNat 32 n).toInt = (n : Int) := by
  have hn : (BitVec.ofNat 32 n).toNat = n := by rw [BitVec.toNat_ofNat]; omega
  rw [BitVec.toInt_eq_toNat_of_lt (by omega), hn]

/-- The lower-triangle bit at `(i, j)`: row number plus zero, compared signed with the column number, selects the
    true bit when `j ≤ i` and the false bit otherwise. -/
theorem tril_at (i j : Fin 2048) : val_main_v7 (F := Ideal) (ix2 i j) = if j.val ≤ i.val then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply,
    val_main_call0_c_0_apply]
  show Scalar.select (IntOp.cmpi .sge (IntOp.addi (BitVec.ofNat 32 i.val) 0#32) (BitVec.ofNat 32 j.val)) 1#1 0#1 = _
  have hc : IntOp.cmpi .sge (IntOp.addi (BitVec.ofNat 32 i.val) 0#32) (BitVec.ofNat 32 j.val) = 1#1 ↔ j.val ≤ i.val := by
    rw [IntOp.cmpi_sge, show IntOp.addi (BitVec.ofNat 32 i.val) 0#32 = BitVec.ofNat 32 i.val from BitVec.add_zero _,
      toInt_ofNat_lt _ i.isLt, toInt_ofNat_lt _ j.isLt]
    exact Int.ofNat_le
  by_cases h : j.val ≤ i.val
  · rw [if_pos h, hc.mpr h]; rfl
  · rw [if_neg h, eq_zero_of_ne_one (mt hc.mp h)]; rfl

/-- The mask, broadcast over the batch, at `(b, i, j)` reads the triangle bit at `(i, j)`. -/
theorem idx_mask (b : Fin 8) (i j : Fin 2048) : idx_main_call1_v1 (ix3 b i j) = ix2 i j :=
  funext fun a => by match a with | ⟨0, _⟩ => rfl | ⟨1, _⟩ => rfl

/-- The selection between the scaled score and the minus-infinity word by the mask is the masked score. -/
theorem masked_at (x0 : (⟨S8x2048x1024, .f32⟩ : BufTy).Contents (Elt Ideal)) (x1 x2 : (⟨S1024x128, .f32⟩ : BufTy).Contents (Elt Ideal))
    (b : Fin 8) (i j : Fin 2048) : val_main_v8 (F := Ideal) x0 x1 x2 (ix3 b i j) = masked x0 x1 x2 b i j := by
  rw [val_main_v8_apply, val_main_call1_v1_apply, val_main_call1_v2_apply, val_main_call1_v0_apply, val_main_cst_0_apply,
    score_at, idx_mask, tril_at]
  unfold masked
  by_cases h : j.val ≤ i.val
  · rw [if_pos h, if_pos h]; rfl
  · rw [if_neg h, if_neg h]
    exact (select_zero _ _).trans ofBits_neg_inf

/-! ## The row maximum -/

/-- The reference's maximum along the last axis at row `(b, i)`: the fold of `max` from minus infinity over the row's
    masked scores, which is their supremum. -/
theorem reduceMax_at (x0 : (⟨S8x2048x1024, .f32⟩ : BufTy).Contents (Elt Ideal)) (x1 x2 : (⟨S1024x128, .f32⟩ : BufTy).Contents (Elt Ideal))
    (b : Fin 8) (i : Fin 2048) : val_main_v9 (F := Ideal) x0 x1 x2 (ix2 b i) = rowMax x0 x1 x2 b i := by
  unfold val_main_v9
  rw [Cert.LastAxis.reduceMax_last (val_main_v8 (F := Ideal) x0 x1 x2) (val_main_cst_1 (F := Ideal))
    reducesTo_S8x2048x2048_S8x2048_d2 (by decide) h_S_ b i]
  simp only [masked_at]
  show Finset.fold max (Ideal.ofBits .f32 0xFF800000#32) _ _ = _
  rw [ofBits_neg_inf]
  rfl

/-- The maximum of the broadcast minus-infinity word with the reduced maximum is the row maximum. -/
theorem rowMax_at (x0 : (⟨S8x2048x1024, .f32⟩ : BufTy).Contents (Elt Ideal)) (x1 x2 : (⟨S1024x128, .f32⟩ : BufTy).Contents (Elt Ideal))
    (b : Fin 8) (i : Fin 2048) : val_main_v11 (F := Ideal) x0 x1 x2 (ix2 b i) = rowMax x0 x1 x2 b i := by
  rw [val_main_v11_apply, val_main_v10_apply, val_main_cst_2_apply, reduceMax_at]
  show max (Ideal.ofBits .f32 0xFF800000#32) _ = _
  rw [ofBits_neg_inf]
  exact max_bot_left _

/-! ## The exponentials, their row sums and the weights -/

/-- A row quantity broadcast back over the row, at `(b, i, j)`, reads the quantity at `(b, i)`. -/
theorem idx_row_max (b : Fin 8) (i j : Fin 2048) : idx_main_v12 (idx_main_v13 (ix3 b i j)) = ix2 b i :=
  funext fun a => by match a with | ⟨0, _⟩ => rfl | ⟨1, _⟩ => rfl
theorem idx_row_sum (b : Fin 8) (i j : Fin 2048) : idx_main_v17 (idx_main_v18 (ix3 b i j)) = ix2 b i :=
  funext fun a => by match a with | ⟨0, _⟩ => rfl | ⟨1, _⟩ => rfl

/-- The exponential of the masked score less the broadcast row maximum. -/
theorem expo_at (x0 : (⟨S8x2048x1024, .f32⟩ : BufTy).Contents (Elt Ideal)) (x1 x2 : (⟨S1024x128, .f32⟩ : BufTy).Contents (Elt Ideal))
    (b : Fin 8) (i j : Fin 2048) : val_main_v15 (F := Ideal) x0 x1 x2 (ix3 b i j) = expo x0 x1 x2 b i j := by
  rw [val_main_v15_apply, val_main_v14_apply, val_main_v13_apply, val_main_v12_apply, masked_at, idx_row_max, rowMax_at]
  rfl

/-- The index of the `j`-th term of the sum along the last axis at row `(b, i)` is `(b, i, j)`. -/
theorem idx16 (b : Fin 8) (i j : Fin 2048) : idx_main_v16 (ix2 b i) j = ix3 b i j :=
  funext fun a => by match a with | ⟨0, _⟩ => rfl | ⟨1, _⟩ => rfl | ⟨2, _⟩ => rfl

/-- The reference's sum along the last axis from the zero word is the row sum of the exponentials. -/
theorem rowSum_at (x0 : (⟨S8x2048x1024, .f32⟩ : BufTy).Contents (Elt Ideal)) (x1 x2 : (⟨S1024x128, .f32⟩ : BufTy).Contents (Elt Ideal))
    (b : Fin 8) (i : Fin 2048) : val_main_v16 (F := Ideal) x0 x1 x2 (ix2 b i) = rowSum x0 x1 x2 b i := by
  rw [val_main_v16_apply]
  simp only [idx16, expo_at]
  show Ideal.ofBits .f32 0x00000000#32 + _ = _
  rw [Ideal.ofBits_zero_f32, zero_add]
  rfl

/-- The quotient of an exponential by its broadcast row sum. -/
theorem weight_at (x0 : (⟨S8x2048x1024, .f32⟩ : BufTy).Contents (Elt Ideal)) (x1 x2 : (⟨S1024x128, .f32⟩ : BufTy).Contents (Elt Ideal))
    (b : Fin 8) (i j : Fin 2048) :
    val_main_v19 (F := Ideal) x0 x1 x2 (ix3 b i j) = Ideal.div (expo x0 x1 x2 b i j) (rowSum x0 x1 x2 b i) := by
  rw [val_main_v19_apply, val_main_v18_apply, val_main_v17_apply, expo_at, idx_row_sum, rowSum_at]
  rfl

/-! ## The result -/

/-- The weight side of the last product at result `(b, i, d)` and row `j` is the weight `(b, i, j)`. -/
theorem lidx20 (b : Fin 8) (i : Fin 2048) (d : Fin 128) (j : Fin 2048) : lidx_main_v20 (ix3 b i d) j = ix3 b i j :=
  funext fun a => by match a with | ⟨0, _⟩ => rfl | ⟨1, _⟩ => rfl | ⟨2, _⟩ => rfl
/-- The value side of the last product at result `(b, i, d)` and row `j` is the value `(b, j, d)`. -/
theorem ridx20 (b : Fin 8) (i : Fin 2048) (d : Fin 128) (j : Fin 2048) : ridx_main_v20 (ix3 b i d) j = ix3 b j d :=
  funext fun a => by match a with | ⟨0, _⟩ => rfl | ⟨1, _⟩ => rfl | ⟨2, _⟩ => rfl

/-- THE REFERENCE IS THE SPECIFICATION: the reference's last stage, as a function of the four argument arrays, is `G`:
    at every index `(b, i, d)` the weights of row `i` combined with component `d` of the value rows. -/
theorem ref_is_G (x0 : (⟨S8x2048x1024, .f32⟩ : BufTy).Contents (Elt Ideal)) (x1 x2 x3 : (⟨S1024x128, .f32⟩ : BufTy).Contents (Elt Ideal)) :
    Cert.ReferenceIdeal.Read.val_main_v20 (F := Ideal) x0 x1 x2 x3 = Cert.Attn.G x0 x1 x2 x3 := by
  funext t
  obtain ⟨b, i, d, rfl⟩ : ∃ (b : Fin 8) (i : Fin 2048) (d : Fin 128), t = ix3 b i d := ⟨t 0, t 1, t 2, eq_ix3 t⟩
  rw [val_main_v20_apply, G_ix3]
  simp only [lidx20, ridx20, weight_at, v_at]
  rfl

/-- THE REFERENCE'S RUN, with its result named by the specification: on every device, from any memory with zero
    counters, every weakly fair execution of the reference terminates with its result array equal to `G` of the four
    argument arrays as launched, and the four argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
        = Cert.Attn.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v20_eq (F := Ideal) m c).trans (ref_is_G _ _ _ _)), (h c).2⟩)
    (Cert.ReferenceIdeal.Value.run (F := Ideal) m ρ)

end Cert.Attn.Ref

end
-- ==== Proof.Finite.lean ====
/-
  Finiteness of the inputs, and what it gives the attention specification.

  The precondition says of each of the four input arrays that every entry has absolute value below plus infinity. An
  extended real with that property is a real number, so every input entry is real. Sums and products of reals are real,
  so every projected entry (a sum of 1024 products) is real, and so is every score (a sum of 128 products of projected
  entries, times a scale that is itself a finite float). A masked score is therefore either real or minus infinity, never
  plus infinity; and the largest masked score of a row is at least the row's own diagonal score, which is visible and
  real, so it is never minus infinity.
-/
import proofs.«108889_j8942121910998_2_alg».proof.Defs
import proofs.«108889_j8942121910998_2_alg».proof.Proof.Gen.Pre_finite_inputs
import proofs.«108889_j8942121910998_2_alg».proof.Proof.AttnSpec
import Idealize.ShloMosaic.Lib.ReduceAll
import Idealize.ShloMosaic.Lib.ValueIdx
import Idealize.ShloMosaic.PureOps.Ideal

noncomputable section

open scoped BigOperators

namespace Cert.Attn.Finite

open Idealize.ShloMosaic Idealize.SL.Sem Idealize.ShloMosaic.ValueIdx

/-! ## From the precondition to real entries -/

/-- The shape with no axes has exactly one index. -/
instance : Subsingleton Cert.Pre_finite_inputs.S_.Idx := ⟨fun a b => funext fun d => d.elim0⟩

/-- The 32-bit float word `0x7F800000` (sign 0, exponent all ones, fraction 0) denotes plus infinity. -/
theorem inf_word : Ideal.ofBits .f32 0x7F800000#32 = (⊤ : EReal) := by
  simp [Ideal.ofBits, Ideal.ieee]

/-- An extended real whose absolute value `max v (-v)` compares below plus infinity is a real number: the absolute value of
    either infinity is plus infinity. -/
theorem real_of_abs_lt_inf (v : EReal)
    (h : Ideal.cmp .olt (max v (-v)) (Ideal.ofBits .f32 0x7F800000#32) = 1#1) : ∃ a : ℝ, v = (a : EReal) := by
  rw [inf_word] at h
  induction v using EReal.rec with
  | bot => simp [Ideal.cmp] at h
  | coe r => exact ⟨r, rfl⟩
  | top => simp [Ideal.cmp] at h

/-- Under the precondition every entry of each of the four input arrays is a real number, on every device. -/
theorem inputs_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : (⟨3, ![8, 2048, 1024]⟩ : Shape).Idx, ∃ a : ℝ, m ((c.tc : Thread Cert.KernelIdeal.nD Cert.KernelIdeal.τ).loc Cert.KernelIdeal.main_arg0) i = (a : EReal))
    ∧ (∀ i : (⟨2, ![1024, 128]⟩ : Shape).Idx, ∃ a : ℝ, m ((c.tc : Thread Cert.KernelIdeal.nD Cert.KernelIdeal.τ).loc Cert.KernelIdeal.main_arg1) i = (a : EReal))
    ∧ (∀ i : (⟨2, ![1024, 128]⟩ : Shape).Idx, ∃ a : ℝ, m ((c.tc : Thread Cert.KernelIdeal.nD Cert.KernelIdeal.τ).loc Cert.KernelIdeal.main_arg2) i = (a : EReal))
    ∧ (∀ i : (⟨2, ![1024, 128]⟩ : Shape).Idx, ∃ a : ℝ, m ((c.tc : Thread Cert.KernelIdeal.nD Cert.KernelIdeal.τ).loc Cert.KernelIdeal.main_arg3) i = (a : EReal)) := by
  have h := congrFun (hpre c) ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  refine ⟨fun i => ?_, fun i => ?_, fun i => ?_, fun i => ?_⟩
  · exact real_of_abs_lt_inf _ (Host.reduce_andi_all _ _ _ _ _ h0 i)
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

/-! ## Real entries through the specification -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A float word whose exponent field is not all ones denotes a real number (a zero, a subnormal or a normal value):
    only the all-ones exponent encodes an infinity or a non-number. -/
theorem ieee_real (e m : Nat) {w : Nat} (b : BitVec w) (hex : (b.extractLsb' m e).toNat ≠ 2 ^ e - 1) :
    ∃ r : ℝ, Ideal.ieee e m b = (r : EReal) := by
  unfold Ideal.ieee
  dsimp only
  rw [if_neg hex]
  split_ifs <;> exact ⟨_, rfl⟩

/-- The scale word `0x3DB504F3` denotes a real number: its exponent field is `0x7B`, not all ones. -/
theorem scale_real : ∃ w : ℝ, Ideal.ofBits .f32 0x3DB504F3#32 = (w : EReal) :=
  ieee_real 8 23 (0x3DB504F3#32 : BitVec 32) (by decide)

section Spec

variable {x : (⟨3, ![8, 2048, 1024]⟩ : Shape).Idx → EReal} {W Wq Wk : (⟨2, ![1024, 128]⟩ : Shape).Idx → EReal}

/-- A projected entry of real inputs is real: it is a sum of 1024 products of reals. -/
theorem proj_real (hx : ∀ i, ∃ a : ℝ, x i = (a : EReal)) (hW : ∀ i, ∃ a : ℝ, W i = (a : EReal))
    (b : Fin 8) (i : Fin 2048) (e : Fin 128) : ∃ a : ℝ, Cert.Attn.proj x W b i e = (a : EReal) := by
  choose xr hxr using hx
  choose wr hwr using hW
  refine ⟨∑ c : Fin 1024, xr (ix3 b i c) * wr (ix2 c e), ?_⟩
  unfold Cert.Attn.proj
  rw [coe_sum]
  refine Finset.sum_congr rfl fun c _ => ?_
  rw [hxr, hwr, EReal.coe_mul]

/-- A score of real inputs is real: a sum of 128 products of real projected entries, times the real scale. -/
theorem score_real (hx : ∀ i, ∃ a : ℝ, x i = (a : EReal)) (hq : ∀ i, ∃ a : ℝ, Wq i = (a : EReal))
    (hk : ∀ i, ∃ a : ℝ, Wk i = (a : EReal)) (b : Fin 8) (i j : Fin 2048) :
    ∃ a : ℝ, Cert.Attn.score x Wq Wk b i j = (a : EReal) := by
  choose q hq' using fun e => proj_real hx hq b i e
  choose k hk' using fun e => proj_real hx hk b j e
  obtain ⟨w, hw⟩ := scale_real
  refine ⟨(∑ e : Fin 128, q e * k e) * w, ?_⟩
  unfold Cert.Attn.score
  rw [hw, EReal.coe_mul, coe_sum]
  congr 1
  refine Finset.sum_congr rfl fun e _ => ?_
  rw [hq', hk', EReal.coe_mul]

/-- A masked score of real inputs is never plus infinity: it is a real score or minus infinity. -/
theorem masked_ne_top (hx : ∀ i, ∃ a : ℝ, x i = (a : EReal)) (hq : ∀ i, ∃ a : ℝ, Wq i = (a : EReal))
    (hk : ∀ i, ∃ a : ℝ, Wk i = (a : EReal)) (b : Fin 8) (i j : Fin 2048) :
    Cert.Attn.masked x Wq Wk b i j ≠ ⊤ := by
  unfold Cert.Attn.masked
  split_ifs with h
  · obtain ⟨a, ha⟩ := score_real hx hq hk b i j
    rw [ha]
    exact EReal.coe_ne_top a
  · exact bot_ne_top

/-- The largest masked score of a row of real inputs is never minus infinity: the row sees itself (`j = i` is not
    masked), that score is real, and the maximum is at least it. -/
theorem rowMax_ne_bot (hx : ∀ i, ∃ a : ℝ, x i = (a : EReal)) (hq : ∀ i, ∃ a : ℝ, Wq i = (a : EReal))
    (hk : ∀ i, ∃ a : ℝ, Wk i = (a : EReal)) (b : Fin 8) (i : Fin 2048) :
    (Finset.univ.sup fun j : Fin 2048 => Cert.Attn.masked x Wq Wk b i j) ≠ ⊥ := by
  obtain ⟨a, ha⟩ := score_real hx hq hk b i i
  have hle : Cert.Attn.masked x Wq Wk b i i ≤ Finset.univ.sup fun j : Fin 2048 => Cert.Attn.masked x Wq Wk b i j :=
    Finset.le_sup (f := fun j : Fin 2048 => Cert.Attn.masked x Wq Wk b i j) (Finset.mem_univ i)
  rw [Cert.Attn.masked_of_le x Wq Wk b (le_refl i.val), ha] at hle
  intro h
  rw [h] at hle
  exact EReal.coe_ne_bot a (le_bot_iff.1 hle)

/-- The largest masked score of a row of real inputs is a real number: it is not minus infinity (the row sees itself)
    and not plus infinity (no masked score is, and the maximum of finitely many values below plus infinity is below it). -/
theorem rowMax_real (hx : ∀ i, ∃ a : ℝ, x i = (a : EReal)) (hq : ∀ i, ∃ a : ℝ, Wq i = (a : EReal))
    (hk : ∀ i, ∃ a : ℝ, Wk i = (a : EReal)) (b : Fin 8) (i : Fin 2048) :
    ∃ r : ℝ, Cert.Attn.rowMax x Wq Wk b i = (r : EReal) := by
  have hb : Cert.Attn.rowMax x Wq Wk b i ≠ ⊥ := rowMax_ne_bot hx hq hk b i
  have ht : Cert.Attn.rowMax x Wq Wk b i ≠ ⊤ := by
    refine ne_of_lt ?_
    unfold Cert.Attn.rowMax
    rw [Finset.sup_lt_iff bot_lt_top]
    exact fun j _ => lt_top_iff_ne_top.2 (masked_ne_top hx hq hk b i j)
  exact ⟨(Cert.Attn.rowMax x Wq Wk b i).toReal, (EReal.coe_toReal ht hb).symm⟩

end Spec

end Cert.Attn.Finite

end
-- ==== Proof.lean ====
/-
  A fused query / key / value projection followed by causal flash attention, against softmax attention.

  The kernel's program lays the three weight arrays side by side, multiplies x by them in one kernel region, and runs a
  second region over (batch, query tile, key tile) that walks a row's keys tile by tile, keeping a running maximum, a running
  denominator and a running numerator, rescaling both by exp(old maximum − new maximum) at every tile, masking the diagonal
  tile, skipping the tiles above the diagonal, and dividing the numerator by the denominator at the last key tile. The
  reference computes the three projections, all scores, fills the entries above the diagonal with minus infinity, takes the
  row-wise softmax and multiplies by the values.

  Frames. Each kernel region's body is run once per control case, symbolically; what each buffer holds after
  every point is stated by recursion on the point; the two regions are chained through the contents of the unscoped buffers
  between them. The second region reads one array through three windows: its full share is dealt among them on entry and
  joined on exit. Stated at any float instance, cited here at the word-level one and at the extended reals.

  Values. At the extended reals the first region's output array holds the three projections; every row of every output
  block of the second region is the numerator over the denominator of the running state over all 2048 keys — the rescaling
  makes two tiles one sum, and the keys above the diagonal contribute exp(−∞) = 0 — which is the softmax-weighted sum of the
  values. Exponentials of sums, factors moved across finite sums and the division taken out of the sum all need real
  entries: the precondition (every input finite) is used. The reference's run is read operation by operation to the same
  function. The kernel's finite mask fill is named minus infinity, the value the reference fills with.
-/
import proofs.«108889_j8942121910998_2_alg».proof.Defs
import proofs.«108889_j8942121910998_2_alg».proof.Proof.Gen.Kernel
import proofs.«108889_j8942121910998_2_alg».proof.Proof.Gen.KernelIdeal
import proofs.«108889_j8942121910998_2_alg».proof.Proof.Gen.ReferenceIdeal
import proofs.«108889_j8942121910998_2_alg».proof.Proof.Gen.Pre_finite_inputs
import proofs.«108889_j8942121910998_2_alg».proof.Proof.EasyClaims
import proofs.«108889_j8942121910998_2_alg».proof.Proof.WholeBits
import proofs.«108889_j8942121910998_2_alg».proof.Proof.WholeIdeal
import proofs.«108889_j8942121910998_2_alg».proof.Proof.Region0Value
import proofs.«108889_j8942121910998_2_alg».proof.Proof.Region1RowsIdeal
import proofs.«108889_j8942121910998_2_alg».proof.Proof.RefIsSpec
import proofs.«108889_j8942121910998_2_alg».proof.Proof.Finite

noncomputable section

namespace Cert.Proof

open Idealize.ShloMosaic Idealize.SL.Sem

/-- The word-level kernel program runs to its end, faults nowhere and leaves its four arguments unchanged. -/
theorem frame_k : Cert.frame_Kernel := fun m ρ _ => Cert.Kernel.Whole.frame (F := Bits) m ρ

/-- So does the idealized kernel program. -/
theorem frame_ki : Cert.frame_KernelIdeal := fun m ρ _ => Cert.KernelIdeal.Whole.frame (F := Ideal) m ρ

/-- What the idealized kernel program leaves in its result array is the attention specification of its four arguments:
    the first region's output array is the three projections, and every row of every output block of the second region is
    the specification's output, given that every input entry is a real number. -/
theorem kernel_result (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.KernelIdeal.Whole.result m c
      = Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨hx, hwq, hwk, hwv⟩ := Cert.Attn.Finite.inputs_real m hpre c
  exact Cert.KernelIdeal.AttnValue.result_is (Cert.KernelIdeal.Whole.V2 m) c _ (fun t ht r d b i hb hi =>
    Cert.KernelIdeal.AttnValue.row_out (Cert.KernelIdeal.Whole.V2 m) c _ _ _ _
      (Cert.KernelIdeal.ProjValue.qkv_q m c) (Cert.KernelIdeal.ProjValue.qkv_k m c) (Cert.KernelIdeal.ProjValue.qkv_v m c)
      (fun b i j => Cert.Attn.Finite.masked_ne_top hx hwq hwk b i j)
      (fun b j d => Cert.Attn.Finite.proj_real hx hwv b j d)
      (fun b i => Cert.Attn.Finite.rowMax_ne_bot hx hwq hwk b i) t ht r d b i hb hi)

/-- From memories agreeing on the arguments both idealized programs run, and end with one result: the attention
    specification of the arguments — the kernel's by `kernel_result`, the reference's by its run read operation by
    operation. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_result m hpre c), (h c).2⟩)
      (Cert.KernelIdeal.Whole.run (F := Ideal) m ρ)
  · refine (θ_run Cert.ReferenceIdeal.defs _ _).mono (fun _ h c => ⟨(h c).1.trans ?_, (h c).2⟩)
      (Cert.Attn.Ref.ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.Easy.frame_ri, Cert.Proof.Easy.preserves, algebraic⟩

end Cert.Proof

end
